-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v150) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x9 : Shape := ⟨2, ![262144, 9]⟩
abbrev S_ : Shape := ⟨0, ![]⟩

class Facts : Prop where
  bcast_S_S262144x9 : S_.BroadcastsInDim S262144x9 (![] : Fin 0 → Fin S262144x9.rank)
  reducesTo_S262144x9_S_d0_1 : S262144x9.ReducesTo [0, 1] S_
  h_S_ : 0 < S_.numel

variable [Facts]

def fn {F : FTy → Type} [FloatOps F] (main_arg0 : FVec F S262144x9 .f32) (main_arg1 : FVec F S262144x9 .f32) : IVec S_ 1 :=
  let main_v0 : FVec F S262144x9 .f32 := Host.absf main_arg0
  let main_cst : FVec F S_ .f32 := constant S_ .f32 0x7F800000#32
  let main_v1 : FVec F S262144x9 .f32 := broadcastInDim S262144x9 ![] bcast_S_S262144x9 main_cst
  let main_v2 : IVec S262144x9 1 := cmpf .olt main_v0 main_v1
  let main_c : IVec S_ 1 := constantI S_ 1 1#1
  let main_v3 : IVec S_ 1 := (fun x v => Host.reduce IntOp.andi x v reducesTo_S262144x9_S_d0_1 h_S_) main_v2 main_c
  let main_v4 : FVec F S262144x9 .f32 := Host.absf main_arg1
  let main_cst_0 : FVec F S_ .f32 := constant S_ .f32 0x7F800000#32
  let main_v5 : FVec F S262144x9 .f32 := broadcastInDim S262144x9 ![] bcast_S_S262144x9 main_cst_0
  let main_v6 : IVec S262144x9 1 := cmpf .olt main_v4 main_v5
  let main_c_1 : IVec S_ 1 := constantI S_ 1 1#1
  let main_v7 : IVec S_ 1 := (fun x v => Host.reduce IntOp.andi x v reducesTo_S262144x9_S_d0_1 h_S_) main_v6 main_c_1
  let main_v8 : IVec S_ 1 := andi main_v3 main_v7
  main_v8
-- ==== Kernel.lean ====
abbrev S262144x9 : Shape := ⟨2, ![262144, 9]⟩
abbrev S16x128 : Shape := ⟨2, ![16, 128]⟩
abbrev S4096x9 : Shape := ⟨2, ![4096, 9]⟩
abbrev S8x128 : Shape := ⟨2, ![8, 128]⟩
abbrev S9x4096 : Shape := ⟨2, ![9, 4096]⟩
abbrev S1x4096 : Shape := ⟨2, ![1, 4096]⟩
abbrev S1 : Shape := ⟨1, ![1]⟩
abbrev S1x1 : Shape := ⟨2, ![1, 1]⟩
abbrev S_ : Shape := ⟨0, ![]⟩

abbrev nBuf : Space → Nat
  | .hbm => 10
  | .vmem => 6
  | .smem => 0
  | _ => 0

abbrev bufTy : (tb : Table) → Fin (tcTables nBuf tb) → BufTy
  | .hbm, ⟨0, _⟩ => ⟨S262144x9, .f32⟩
  | .hbm, ⟨1, _⟩ => ⟨S262144x9, .f32⟩
  | .hbm, ⟨2, _⟩ => ⟨S16x128, .f32⟩
  | .hbm, ⟨3, _⟩ => ⟨S1x1, .f32⟩
  | .hbm, ⟨4, _⟩ => ⟨S_, .f32⟩
  | .hbm, ⟨5, _⟩ => ⟨S1x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S4096x9, .f32⟩
  | .local _ .vmem, ⟨1, _⟩ => ⟨S4096x9, .f32⟩
  | .local _ .vmem, ⟨2, _⟩ => ⟨S4096x9, .f32⟩
  | .local _ .vmem, ⟨3, _⟩ => ⟨S4096x9, .f32⟩
  | .local _ .vmem, ⟨4, _⟩ => ⟨S8x128, .f32⟩
  | .local _ .vmem, ⟨5, _⟩ => ⟨S8x128, .f32⟩
  | _, _ => ⟨S262144x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x9 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S8x128_S8x128_0_0 : ∀ a, (![0, 0] : Fin 2 → Nat) a + S8x128.size a ≤ S8x128.size a
  h_S8x128 : 0 < S8x128.numel
  inb_S4096x9_S4096x9_0_0 : ∀ a, (![0, 0] : Fin 2 → Nat) a + S4096x9.size a ≤ S4096x9.size a
  h_S4096x9 : 0 < S4096x9.numel
  transposes_S4096x9_p1_0_S9x4096 : S4096x9.Transposes [1, 0] S9x4096
  slices_S9x4096_o0_0_S1x4096 : S9x4096.Slices ![0, 0] S1x4096
  slices_S9x4096_o1_0_S1x4096 : S9x4096.Slices ![1, 0] S1x4096
  slices_S9x4096_o2_0_S1x4096 : S9x4096.Slices ![2, 0] S1x4096
  slices_S9x4096_o3_0_S1x4096 : S9x4096.Slices ![3, 0] S1x4096
  slices_S9x4096_o4_0_S1x4096 : S9x4096.Slices ![4, 0] S1x4096
  slices_S9x4096_o5_0_S1x4096 : S9x4096.Slices ![5, 0] S1x4096
  slices_S9x4096_o6_0_S1x4096 : S9x4096.Slices ![6, 0] S1x4096
  slices_S9x4096_o7_0_S1x4096 : S9x4096.Slices ![7, 0] S1x4096
  slices_S9x4096_o8_0_S1x4096 : S9x4096.Slices ![8, 0] S1x4096
  reduces_S1x4096_S1 : S1x4096.Reduces [1] S1
  shapeCasts_S1_S1x1 : S1.ShapeCasts S1x1
  shapeCasts_S8x128_S8x128 : S8x128.ShapeCasts S8x128
  shapeCasts_S1x1_S1x1 : S1x1.ShapeCasts S1x1
  broadcasts_S1x1_S8x128 : S1x1.Broadcasts S8x128
  slices_S16x128_S1x1_0_0 : S16x128.Slices ![0, 0] S1x1
  shapeCasts_S1x1_S_ : S1x1.ShapeCasts S_
  slices_S16x128_S1x1_8_0 : S16x128.Slices ![8, 0] S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x9.size a ≤ S262144x9.size a
  hwx0_0 : ∀ i : grid0.Coords, EltTy.bits .f32 = 32 ∨ (Rect.block (s := S262144x9) S4096x9.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x9.size a ≤ S262144x9.size a
  hwx0_1 : ∀ i : grid0.Coords, EltTy.bits .f32 = 32 ∨ (Rect.block (s := S262144x9) S4096x9.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_arg0) S4096x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x9.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S262144x9 : Shape := ⟨2, ![262144, 9]⟩
abbrev S8x3 : Shape := ⟨2, ![8, 3]⟩
abbrev S262144x3 : Shape := ⟨2, ![262144, 3]⟩
abbrev S_ : Shape := ⟨0, ![]⟩
abbrev S262144x1 : Shape := ⟨2, ![262144, 1]⟩
abbrev S262144 : Shape := ⟨1, ![262144]⟩
abbrev S262144x3x3 : Shape := ⟨3, ![262144, 3, 3]⟩
abbrev S1x8x3 : Shape := ⟨3, ![1, 8, 3]⟩
abbrev S262144x1x3 : Shape := ⟨3, ![262144, 1, 3]⟩
abbrev S262144x8x3 : Shape := ⟨3, ![262144, 8, 3]⟩
abbrev S262144x8x1x3 : Shape := ⟨4, ![262144, 8, 1, 3]⟩
abbrev S262144x1x8x3 : Shape := ⟨4, ![262144, 1, 8, 3]⟩
abbrev S262144x8x8x3 : Shape := ⟨4, ![262144, 8, 8, 3]⟩
abbrev S262144x8x8 : Shape := ⟨3, ![262144, 8, 8]⟩
abbrev S262144x8 : Shape := ⟨2, ![262144, 8]⟩

abbrev nBuf : Space → Nat
  | .hbm => 173
  | .vmem => 0
  | .smem => 0
  | _ => 0

abbrev hbmTy0_0 (i : Nat) : BufTy := match i % 128 with
  | 0 => ⟨S262144x9, .f32⟩
  | 1 => ⟨S262144x9, .f32⟩
  | 2 => ⟨S8x3, .f32⟩
  | 3 => ⟨S262144x3, .f32⟩
  | 4 => ⟨S262144x3, .f32⟩
  | 5 => ⟨S_, .f32⟩
  | 6 => ⟨S262144x3, .f32⟩
  | 7 => ⟨S262144x3, .f32⟩
  | 8 => ⟨S262144x3, .f32⟩
  | 9 => ⟨S262144x1, .f32⟩
  | 10 => ⟨S262144, .f32⟩
  | 11 => ⟨S262144, .f32⟩
  | 12 => ⟨S262144, .f32⟩
  | 13 => ⟨S_, .f32⟩
  | 14 => ⟨S262144, .f32⟩
  | 15 => ⟨S_, .f32⟩
  | 16 => ⟨S262144, .f32⟩
  | 17 => ⟨S262144, .f32⟩
  | 18 => ⟨S262144x1, .f32⟩
  | 19 => ⟨S262144x1, .f32⟩
  | 20 => ⟨S262144x1, .f32⟩
  | 21 => ⟨S262144x1, .f32⟩
  | 22 => ⟨S262144x1, .f32⟩
  | 23 => ⟨S262144x1, .f32⟩
  | 24 => ⟨S262144x1, .f32⟩
  | 25 => ⟨S262144x1, .f32⟩
  | 26 => ⟨S262144x1, .f32⟩
  | 27 => ⟨S262144x9, .f32⟩
  | 28 => ⟨S262144x3x3, .f32⟩
  | 29 => ⟨S262144x1, .f32⟩
  | 30 => ⟨S262144, .f32⟩
  | 31 => ⟨S262144, .f32⟩
  | 32 => ⟨S262144, .f32⟩
  | 33 => ⟨S_, .f32⟩
  | 34 => ⟨S262144, .f32⟩
  | 35 => ⟨S_, .f32⟩
  | 36 => ⟨S262144, .f32⟩
  | 37 => ⟨S262144, .f32⟩
  | 38 => ⟨S262144x1, .f32⟩
  | 39 => ⟨S262144x1, .f32⟩
  | 40 => ⟨S262144x1, .f32⟩
  | 41 => ⟨S262144x1, .f32⟩
  | 42 => ⟨S262144x1, .f32⟩
  | 43 => ⟨S262144x1, .f32⟩
  | 44 => ⟨S262144x1, .f32⟩
  | 45 => ⟨S262144x1, .f32⟩
  | 46 => ⟨S262144x1, .f32⟩
  | 47 => ⟨S262144x9, .f32⟩
  | 48 => ⟨S262144x3x3, .f32⟩
  | 49 => ⟨S262144x1, .f32⟩
  | 50 => ⟨S262144, .f32⟩
  | 51 => ⟨S262144, .f32⟩
  | 52 => ⟨S262144, .f32⟩
  | 53 => ⟨S_, .f32⟩
  | 54 => ⟨S262144, .f32⟩
  | 55 => ⟨S_, .f32⟩
  | 56 => ⟨S262144, .f32⟩
  | 57 => ⟨S262144, .f32⟩
  | 58 => ⟨S262144x1, .f32⟩
  | 59 => ⟨S262144x1, .f32⟩
  | 60 => ⟨S262144x1, .f32⟩
  | 61 => ⟨S262144x1, .f32⟩
  | 62 => ⟨S262144x1, .f32⟩
  | 63 => ⟨S262144x1, .f32⟩
  | 64 => ⟨S262144x1, .f32⟩
  | 65 => ⟨S262144x1, .f32⟩
  | 66 => ⟨S262144x1, .f32⟩
  | 67 => ⟨S262144x9, .f32⟩
  | 68 => ⟨S262144x3x3, .f32⟩
  | 69 => ⟨S262144x3x3, .f32⟩
  | 70 => ⟨S262144x3x3, .f32⟩
  | 71 => ⟨S1x8x3, .f32⟩
  | 72 => ⟨S262144x1x3, .f32⟩
  | 73 => ⟨S262144x8x3, .f32⟩
  | 74 => ⟨S262144x8x3, .f32⟩
  | 75 => ⟨S262144x8x3, .f32⟩
  | 76 => ⟨S262144x8x3, .f32⟩
  | 77 => ⟨S262144x1x3, .f32⟩
  | 78 => ⟨S262144x8x3, .f32⟩
  | 79 => ⟨S262144x8x3, .f32⟩
  | 80 => ⟨S262144x3, .f32⟩
  | 81 => ⟨S262144x3, .f32⟩
  | 82 => ⟨S_, .f32⟩
  | 83 => ⟨S262144x3, .f32⟩
  | 84 => ⟨S262144x3, .f32⟩
  | 85 => ⟨S262144x3, .f32⟩
  | 86 => ⟨S262144x1, .f32⟩
  | 87 => ⟨S262144, .f32⟩
  | 88 => ⟨S262144, .f32⟩
  | 89 => ⟨S262144, .f32⟩
  | 90 => ⟨S_, .f32⟩
  | 91 => ⟨S262144, .f32⟩
  | 92 => ⟨S_, .f32⟩
  | 93 => ⟨S262144, .f32⟩
  | 94 => ⟨S262144, .f32⟩
  | 95 => ⟨S262144x1, .f32⟩
  | 96 => ⟨S262144x1, .f32⟩
  | 97 => ⟨S262144x1, .f32⟩
  | 98 => ⟨S262144x1, .f32⟩
  | 99 => ⟨S262144x1, .f32⟩
  | 100 => ⟨S262144x1, .f32⟩
  | 101 => ⟨S262144x1, .f32⟩
  | 102 => ⟨S262144x1, .f32⟩
  | 103 => ⟨S262144x1, .f32⟩
  | 104 => ⟨S262144x9, .f32⟩
  | 105 => ⟨S262144x3x3, .f32⟩
  | 106 => ⟨S262144x1, .f32⟩
  | 107 => ⟨S262144, .f32⟩
  | 108 => ⟨S262144, .f32⟩
  | 109 => ⟨S262144, .f32⟩
  | 110 => ⟨S_, .f32⟩
  | 111 => ⟨S262144, .f32⟩
  | 112 => ⟨S_, .f32⟩
  | 113 => ⟨S262144, .f32⟩
  | 114 => ⟨S262144, .f32⟩
  | 115 => ⟨S262144x1, .f32⟩
  | 116 => ⟨S262144x1, .f32⟩
  | 117 => ⟨S262144x1, .f32⟩
  | 118 => ⟨S262144x1, .f32⟩
  | 119 => ⟨S262144x1, .f32⟩
  | 120 => ⟨S262144x1, .f32⟩
  | 121 => ⟨S262144x1, .f32⟩
  | 122 => ⟨S262144x1, .f32⟩
  | 123 => ⟨S262144x1, .f32⟩
  | 124 => ⟨S262144x9, .f32⟩
  | 125 => ⟨S262144x3x3, .f32⟩
  | 126 => ⟨S262144x1, .f32⟩
  | 127 => ⟨S262144, .f32⟩
  | _ => ⟨S262144x9, .f32⟩

abbrev hbmTy0_1 (i : Nat) : BufTy := match i % 128 with
  | 0 => ⟨S262144, .f32⟩
  | 1 => ⟨S262144, .f32⟩
  | 2 => ⟨S_, .f32⟩
  | 3 => ⟨S262144, .f32⟩
  | 4 => ⟨S_, .f32⟩
  | 5 => ⟨S262144, .f32⟩
  | 6 => ⟨S262144, .f32⟩
  | 7 => ⟨S262144x1, .f32⟩
  | 8 => ⟨S262144x1, .f32⟩
  | 9 => ⟨S262144x1, .f32⟩
  | 10 => ⟨S262144x1, .f32⟩
  | 11 => ⟨S262144x1, .f32⟩
  | 12 => ⟨S262144x1, .f32⟩
  | 13 => ⟨S262144x1, .f32⟩
  | 14 => ⟨S262144x1, .f32⟩
  | 15 => ⟨S262144x1, .f32⟩
  | 16 => ⟨S262144x9, .f32⟩
  | 17 => ⟨S262144x3x3, .f32⟩
  | 18 => ⟨S262144x3x3, .f32⟩
  | 19 => ⟨S262144x3x3, .f32⟩
  | 20 => ⟨S1x8x3, .f32⟩
  | 21 => ⟨S262144x1x3, .f32⟩
  | 22 => ⟨S262144x8x3, .f32⟩
  | 23 => ⟨S262144x8x3, .f32⟩
  | 24 => ⟨S262144x8x3, .f32⟩
  | 25 => ⟨S262144x8x3, .f32⟩
  | 26 => ⟨S262144x1x3, .f32⟩
  | 27 => ⟨S262144x8x3, .f32⟩
  | 28 => ⟨S262144x8x3, .f32⟩
  | 29 => ⟨S262144x8x1x3, .f32⟩
  | 30 => ⟨S262144x1x8x3, .f32⟩
  | 31 => ⟨S262144x8x8x3, .f32⟩
  | 32 => ⟨S262144x8x8x3, .f32⟩
  | 33 => ⟨S262144x8x8x3, .f32⟩
  | 34 => ⟨S262144x8x8x3, .f32⟩
  | 35 => ⟨S_, .f32⟩
  | 36 => ⟨S262144x8x8, .f32⟩
  | 37 => ⟨S_, .f32⟩
  | 38 => ⟨S262144x8, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | _ => ⟨S262144x9, .f32⟩

abbrev hbmTy (i : Nat) : BufTy := match i / 128 with
  | 0 => hbmTy0_0 i
  | 1 => hbmTy0_1 i
  | _ => ⟨S262144x9, .f32⟩

abbrev bufTy : (tb : Table) → Fin (tcTables nBuf tb) → BufTy
  | .hbm, ⟨i, _⟩ => hbmTy i
  | _, _ => ⟨S262144x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_3 : Ref sig .tc := ⟨.hbm, 33, rfl⟩
abbrev main_v27 : Ref sig .tc := ⟨.hbm, 34, rfl⟩
abbrev main_cst_4 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_cst_5 : Ref sig .tc := ⟨.hbm, 53, rfl⟩
abbrev main_v45 : Ref sig .tc := ⟨.hbm, 54, rfl⟩
abbrev main_cst_6 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_cst_7 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_cst_8 : Ref sig .tc := ⟨.hbm, 90, rfl⟩
abbrev main_v79 : Ref sig .tc := ⟨.hbm, 91, rfl⟩
abbrev main_cst_9 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_cst_10 : Ref sig .tc := ⟨.hbm, 110, rfl⟩
abbrev main_v97 : Ref sig .tc := ⟨.hbm, 111, rfl⟩
abbrev main_cst_11 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_cst_12 : Ref sig .tc := ⟨.hbm, 130, rfl⟩
abbrev main_v115 : Ref sig .tc := ⟨.hbm, 131, rfl⟩
abbrev main_cst_13 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_cst_14 : Ref sig .tc := ⟨.hbm, 163, rfl⟩
abbrev main_v146 : Ref sig .tc := ⟨.hbm, 164, rfl⟩
abbrev main_cst_15 : Ref sig .tc := ⟨.hbm, 165, rfl⟩
abbrev main_v147 : Ref sig .tc := ⟨.hbm, 166, rfl⟩
abbrev main_cst_16 : Ref sig .tc := ⟨.hbm, 167, rfl⟩
abbrev main_v148 : Ref sig .tc := ⟨.hbm, 168, rfl⟩
abbrev main_cst_17 : Ref sig .tc := ⟨.hbm, 169, rfl⟩
abbrev main_v149 : Ref sig .tc := ⟨.hbm, 170, rfl⟩
abbrev main_cst_18 : Ref sig .tc := ⟨.hbm, 171, rfl⟩
abbrev main_v150 : Ref sig .tc := ⟨.hbm, 172, rfl⟩

abbrev nD : Nat := 1
abbrev τ : Topo := Topo.v7x

variable {F : FTy → Type} [FloatOps F]

class Facts₀ : Prop where
  slices_S262144x9_S262144x3_0_0 : S262144x9.Slices ![0, 0] S262144x3
  slices_S262144x9_S262144x3_0_3 : S262144x9.Slices ![0, 3] S262144x3
  bcast_S_S262144x3 : S_.BroadcastsInDim S262144x3 (![] : Fin 0 → Fin S262144x3.rank)
  slices_S262144x9_S262144x3_0_6 : S262144x9.Slices ![0, 6] S262144x3
  slices_S262144x3_S262144x1_0_0 : S262144x3.Slices ![0, 0] S262144x1
  shapeCasts_S262144x1_S262144 : S262144x1.ShapeCasts S262144
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x1_S262144x1_S262144x1_S262144x1_S262144x1_S262144x1_S262144x1_S262144x9_d1 : Shape.Concatenates [S262144x1, S262144x1, S262144x1, S262144x1, S262144x1, S262144x1, S262144x1, S262144x1, S262144x1] S262144x9 1
  shapeCasts_S262144x9_S262144x3x3 : S262144x9.ShapeCasts S262144x3x3
  slices_S262144x3_S262144x1_0_1 : S262144x3.Slices ![0, 1] S262144x1
  slices_S262144x3_S262144x1_0_2 : S262144x3.Slices ![0, 2] S262144x1
  bcast_S8x3_S1x8x3_1_2 : S8x3.BroadcastsInDim S1x8x3 (![1, 2] : Fin 2 → Fin S1x8x3.rank)
  bcast_S262144x3_S262144x1x3_0_2 : S262144x3.BroadcastsInDim S262144x1x3 (![0, 2] : Fin 2 → Fin S262144x1x3.rank)
  bcast_S1x8x3_S262144x8x3_0_1_2 : S1x8x3.BroadcastsInDim S262144x8x3 (![0, 1, 2] : Fin 3 → Fin S262144x8x3.rank)
  bcast_S262144x1x3_S262144x8x3_0_1_2 : S262144x1x3.BroadcastsInDim S262144x8x3 (![0, 1, 2] : Fin 3 → Fin S262144x8x3.rank)
  bcast_S262144x8x3_S262144x8x1x3_0_1_3 : S262144x8x3.BroadcastsInDim S262144x8x1x3 (![0, 1, 3] : Fin 3 → Fin S262144x8x1x3.rank)
  bcast_S262144x8x3_S262144x1x8x3_0_2_3 : S262144x8x3.BroadcastsInDim S262144x1x8x3 (![0, 2, 3] : Fin 3 → Fin S262144x1x8x3.rank)
  bcast_S262144x8x1x3_S262144x8x8x3_0_1_2_3 : S262144x8x1x3.BroadcastsInDim S262144x8x8x3 (![0, 1, 2, 3] : Fin 4 → Fin S262144x8x8x3.rank)
  bcast_S262144x1x8x3_S262144x8x8x3_0_1_2_3 : S262144x1x8x3.BroadcastsInDim S262144x8x8x3 (![0, 1, 2, 3] : Fin 4 → Fin S262144x8x8x3.rank)
  reducesTo_S262144x8x8x3_S262144x8x8_d3 : S262144x8x8x3.ReducesTo [3] S262144x8x8
  h_S_ : 0 < S_.numel
  reducesTo_S262144x8x8_S262144x8_d2 : S262144x8x8.ReducesTo [2] S262144x8
  reducesTo_S262144x8_S_d0_1 : S262144x8.ReducesTo [0, 1] S_
  dot_S262144x3x3_S262144x3x3_S262144x3x3_2_1_1_2_0_0_wf : DotDims.WF S262144x3x3 S262144x3x3 S262144x3x3 [2] [1] [1] [2] [0] [0]
  dot_S262144x8x3_S262144x3x3_S262144x8x3_2_2_1_1_0_0_wf : DotDims.WF S262144x8x3 S262144x3x3 S262144x8x3 [2] [2] [1] [1] [0] [0]

variable [Facts₀]

def dot_S262144x3x3_S262144x3x3_S262144x3x3_2_1_1_2_0_0 : DotDims S262144x3x3 S262144x3x3 S262144x3x3 where
  lhsContracting := [2]
  rhsContracting := [1]
  lhsNonContracting := [1]
  rhsNonContracting := [2]
  lhsBatch := [0]
  rhsBatch := [0]
  wf := dot_S262144x3x3_S262144x3x3_S262144x3x3_2_1_1_2_0_0_wf
def dot_S262144x8x3_S262144x3x3_S262144x8x3_2_2_1_1_0_0 : DotDims S262144x8x3 S262144x3x3 S262144x8x3 where
  lhsContracting := [2]
  rhsContracting := [2]
  lhsNonContracting := [1]
  rhsNonContracting := [1]
  lhsBatch := [0]
  rhsBatch := [0]
  wf := dot_S262144x8x3_S262144x3x3_S262144x8x3_2_2_1_1_0_0_wf

class Facts : Prop extends Facts₀ where

variable [Facts]
-- ==== Proof.Spec.lean ====
/-
  The bounding-box corner loss as one function of the two argument arrays, over the extended reals.

  A row of nine numbers is a box: a centre (entries 0–2), three edge lengths (entries 3–5) and three Euler angles
  (entries 6–8, convention ZXY). Its rotation is R = (Rz(a₀) · Rx(a₁)) · Ry(a₂), each factor written out with its zeros
  and ones, each 3×3 product entry the three-term sum (p₀ + p₁) + p₂. Corner k of the box, coordinate d, is
  centre_d + s(k,0)·R(d,0)·h₀ + s(k,1)·R(d,1)·h₁ + s(k,2)·R(d,2)·h₂ with h the half edge lengths and s the eight
  sign patterns. For a source box and a target box, the squared distance of source corner i and target corner j is
  the sum of the three squared coordinate differences; the row's loss is the sum over i of the minimum over j; the
  loss is the sum of the rows' losses divided by 2²¹ (the number of rows times eight).
  Every float word is kept as the extended real it denotes; nothing here evaluates one.
-/
import Idealize.ShloMosaic.PureOps.Ideal
import Idealize.ShloMosaic.Lib.ValueIdx

noncomputable section

namespace Cert.BBox

open Idealize.ShloMosaic

/-- The words 0.0, 1.0, −1.0, 0.5, +inf and 2097152.0 as extended reals. -/
def w0 : EReal := Ideal.ofBits .f32 0x00000000#32
def w1 : EReal := Ideal.ofBits .f32 0x3F800000#32
def wm1 : EReal := Ideal.ofBits .f32 0xBF800000#32
def whalf : EReal := Ideal.ofBits .f32 0x3F000000#32
def winf : EReal := Ideal.ofBits .f32 0x7F800000#32
def wN : EReal := Ideal.ofBits .f32 0x4A000000#32

/-- A 3×3 product, each entry the three products summed from the left. -/
def mm3 (A B : Fin 3 → Fin 3 → EReal) (i j : Fin 3) : EReal := A i 0 * B 0 j + A i 1 * B 1 j + A i 2 * B 2 j

/-- The rotations about z, x and y by the angle `a`; a negated sine is `0 − sin a`. -/
def Rz (a : EReal) : Fin 3 → Fin 3 → EReal :=
  ![![Ideal.cos a, w0 - Ideal.sin a, w0], ![Ideal.sin a, Ideal.cos a, w0], ![w0, w0, w1]]
def Rx (a : EReal) : Fin 3 → Fin 3 → EReal :=
  ![![w1, w0, w0], ![w0, Ideal.cos a, w0 - Ideal.sin a], ![w0, Ideal.sin a, Ideal.cos a]]
def Ry (a : EReal) : Fin 3 → Fin 3 → EReal :=
  ![![Ideal.cos a, w0, Ideal.sin a], ![w0, w1, w0], ![w0 - Ideal.sin a, w0, Ideal.cos a]]

/-- The box's rotation matrix, (Rz · Rx) · Ry of its three angles. -/
def rot (x : Fin 9 → EReal) : Fin 3 → Fin 3 → EReal := mm3 (mm3 (Rz (x 6)) (Rx (x 7))) (Ry (x 8))

/-- The eight sign patterns of a box's corners. -/
def sgn : Fin 8 → Fin 3 → EReal :=
  ![![w1, w1, w1], ![w1, w1, wm1], ![w1, wm1, w1], ![w1, wm1, wm1],
    ![wm1, w1, w1], ![wm1, w1, wm1], ![wm1, wm1, w1], ![wm1, wm1, wm1]]

/-- The centre and the half edge lengths. -/
def center (x : Fin 9 → EReal) : Fin 3 → EReal := ![x 0, x 1, x 2]
def half (x : Fin 9 → EReal) : Fin 3 → EReal := ![x 3 * whalf, x 4 * whalf, x 5 * whalf]

/-- Coordinate `d` of corner `k`. -/
def corner (x : Fin 9 → EReal) (k : Fin 8) (d : Fin 3) : EReal :=
  center x d + sgn k 0 * rot x d 0 * half x 0 + sgn k 1 * rot x d 1 * half x 1 + sgn k 2 * rot x d 2 * half x 2

/-- Over two tables of corners `P` (source) and `Q` (target): the squared distance between corner `i` of `P` and
    corner `j` of `Q`, the three squared coordinate differences summed from the left. -/
def distC (P Q : Fin 8 → Fin 3 → EReal) (i j : Fin 8) : EReal :=
  (P i 0 - Q j 0) * (P i 0 - Q j 0) + (P i 1 - Q j 1) * (P i 1 - Q j 1) + (P i 2 - Q j 2) * (P i 2 - Q j 2)

/-- The least squared distance from corner `i` of `P` to a corner of `Q`, the minima taken from the left. -/
def bestC (P Q : Fin 8 → Fin 3 → EReal) (i : Fin 8) : EReal :=
  min (min (min (min (min (min (min (distC P Q i 0) (distC P Q i 1)) (distC P Q i 2)) (distC P Q i 3)) (distC P Q i 4))
    (distC P Q i 5)) (distC P Q i 6)) (distC P Q i 7)

/-- The eight least distances summed from the left. -/
def rowC (P Q : Fin 8 → Fin 3 → EReal) : EReal :=
  bestC P Q 0 + bestC P Q 1 + bestC P Q 2 + bestC P Q 3 + bestC P Q 4 + bestC P Q 5 + bestC P Q 6 + bestC P Q 7

/-- One pair of boxes: the eight least corner distances summed. -/
def rowLoss (x y : Fin 9 → EReal) : EReal := rowC (corner x) (corner y)

/-- All pairs of boxes summed, and the loss. -/
def total (A B : Fin 262144 → Fin 9 → EReal) : EReal := ∑ n : Fin 262144, rowLoss (A n) (B n)
def loss (A B : Fin 262144 → Fin 9 → EReal) : EReal := Ideal.div (total A B) wN

/-- The rows of an N×9 array. -/
def rowsOf {N : Nat} (A : (⟨2, ![N, 9]⟩ : Shape).Idx → EReal) : Fin N → Fin 9 → EReal := fun n f => A (ValueIdx.ix2 n f)

end Cert.BBox

end
-- ==== Proof.KTail.lean ====
/- Written by the transcription script of this unit's scratch directory (scratch/mk_ktail.js, invoked as
   `mk_ktail.js scratch/Probe3.out proof/Proof/Gen/KernelIdeal/Skeleton.lean proof/Proof/KTail.lean`): the last 32 named values of
   the body's run (the run's names r_124 … r_156 less the output's load), each copied with the 24 + 24 corner vectors it is
   applied to replaced by the entries of two tables `p`, `q`. A table, no argument. -/
/-
  The part of the kernel body that follows the corners, as a function of two tables of corner vectors: `p k d` is
  coordinate `d` of the source boxes' corner `k` (one lane per box), `q j d` the same of the target boxes. The body
  forms the squared distances lane by lane, their minima over `j`, sums each minimum over the lanes and adds the eight
  sums; `tl128`, `tl131`, …, `tl156` are the running totals after corner 0, 1, …, 7.
  `srcC` and `tgtC` are the corner vectors the run computes from the two input blocks, by name.
-/
import proofs.«131616_j75076028334308_2_alg».proof.Proof.Gen.KernelIdeal.Frame

noncomputable section

namespace Cert.KernelIdeal.KVal

open Cert.KernelIdeal Cert.KernelIdeal.Gen Idealize.ShloMosaic Idealize.ShloMosaic.TcCoe Idealize.SL.Sem

variable {F : FTy → Type} [FloatOps F]

section Tail
variable (p q : Fin 8 → Fin 3 → FVec F S1x4096 .f32)
def tl124 : FVec F S1x4096 .f32 := k0_pay143 (p 0 0) (p 0 1) (p 0 2) (q 0 0) (q 0 1) (q 0 2) (q 1 0) (q 1 1) (q 1 2) (q 2 0) (q 2 1) (q 2 2)
def tl125 : FVec F S1x4096 .f32 := k0_pay144 (p 0 1) (q 3 1)
def tl126 : FVec F S1x4096 .f32 := k0_pay145 (p 0 2) (q 3 2)
def tl127 : FVec F S1x4096 .f32 := k0_pay146 (p 0 0) (q 3 0)
def tl128 : FVec F S1x1 .f32 := k0_pay147 (p 0 0) (p 0 1) (p 0 2) (q 4 0) (q 4 1) (q 4 2) (q 5 0) (q 5 1) (q 5 2) (q 6 0) (q 6 1) (q 6 2) (q 7 0) (q 7 1) (q 7 2) (tl124 p q) (tl125 p q) (tl126 p q) (tl127 p q)
def tl129 : FVec F S1x4096 .f32 := k0_pay148 (p 1 0) (p 1 1) (p 1 2) (q 0 0) (q 0 1) (q 0 2)
def tl130 : FVec F S1x4096 .f32 := k0_pay149 (p 1 0) (p 1 1) (p 1 2) (q 1 0) (q 1 1) (q 1 2)
def tl131 : FVec F S1x1 .f32 := k0_pay150 (p 1 0) (p 1 1) (p 1 2) (q 2 0) (q 2 1) (q 2 2) (q 3 0) (q 3 1) (q 3 2) (q 4 0) (q 4 1) (q 4 2) (q 5 0) (q 5 1) (q 5 2) (q 6 0) (q 6 1) (q 6 2) (q 7 0) (q 7 1) (q 7 2) (tl128 p q) (tl129 p q) (tl130 p q)
def tl132 : FVec F S1x4096 .f32 := k0_pay151 (p 2 0) (q 0 0)
def tl133 : FVec F S1x4096 .f32 := k0_pay152 (p 2 0) (p 2 1) (p 2 2) (q 0 1) (q 0 2) (q 1 0) (q 1 1) (q 1 2) (q 2 0) (q 2 1) (q 2 2) (q 3 0) (q 3 1) (q 3 2) (q 4 0) (q 4 1) (q 4 2) (q 5 0) (q 5 1) (q 5 2) (tl132 p q)
def tl134 : FVec F S1x4096 .f32 := k0_pay153 (p 2 0) (p 2 1) (p 2 2) (q 6 0) (q 6 1) (q 6 2)
def tl135 : FVec F S1x1 .f32 := k0_pay154 (p 2 0) (p 2 1) (p 2 2) (q 7 0) (q 7 1) (q 7 2) (tl131 p q) (tl133 p q) (tl134 p q)
def tl136 : FVec F S1x4096 .f32 := k0_pay155 (p 3 0) (p 3 1) (p 3 2) (q 0 0) (q 0 1) (q 0 2) (q 1 0) (q 1 1) (q 1 2) (q 2 0) (q 2 1) (q 2 2) (q 3 0) (q 3 1) (q 3 2) (q 4 0) (q 4 1) (q 4 2)
def tl137 : FVec F S1x4096 .f32 := k0_pay156 (p 3 0) (q 5 0)
def tl138 : FVec F S1x4096 .f32 := k0_pay157 (p 3 1) (q 5 1)
def tl139 : FVec F S1x1 .f32 := k0_pay158 (p 3 0) (p 3 1) (p 3 2) (q 5 2) (q 6 0) (q 6 1) (q 6 2) (q 7 0) (q 7 1) (q 7 2) (tl135 p q) (tl136 p q) (tl137 p q) (tl138 p q)
def tl140 : FVec F S1x4096 .f32 := k0_pay159 (p 4 0) (p 4 1) (p 4 2) (q 0 0) (q 0 1) (q 0 2) (q 1 0) (q 1 1) (q 1 2) (q 2 0) (q 2 1) (q 2 2)
def tl141 : FVec F S1x4096 .f32 := k0_pay160 (p 4 2) (q 3 2)
def tl142 : FVec F S1x4096 .f32 := k0_pay161 (p 4 0) (q 3 0)
def tl143 : FVec F S1x4096 .f32 := k0_pay162 (p 4 1) (q 3 1)
def tl144 : FVec F S1x1 .f32 := k0_pay163 (p 4 0) (p 4 1) (p 4 2) (q 4 0) (q 4 1) (q 4 2) (q 5 0) (q 5 1) (q 5 2) (q 6 0) (q 6 1) (q 6 2) (q 7 0) (q 7 1) (q 7 2) (tl139 p q) (tl140 p q) (tl141 p q) (tl142 p q) (tl143 p q)
def tl145 : FVec F S1x4096 .f32 := k0_pay164 (p 5 0) (p 5 1) (p 5 2) (q 0 0) (q 0 1) (q 0 2)
def tl146 : FVec F S1x4096 .f32 := k0_pay165 (p 5 0) (p 5 1) (p 5 2) (q 1 0) (q 1 1) (q 1 2)
def tl147 : FVec F S1x1 .f32 := k0_pay166 (p 5 0) (p 5 1) (p 5 2) (q 2 0) (q 2 1) (q 2 2) (q 3 0) (q 3 1) (q 3 2) (q 4 0) (q 4 1) (q 4 2) (q 5 0) (q 5 1) (q 5 2) (q 6 0) (q 6 1) (q 6 2) (q 7 0) (q 7 1) (q 7 2) (tl144 p q) (tl145 p q) (tl146 p q)
def tl148 : FVec F S1x4096 .f32 := k0_pay167 (p 6 0) (q 0 0)
def tl149 : FVec F S1x4096 .f32 := k0_pay168 (p 6 0) (p 6 1) (p 6 2) (q 0 1) (q 0 2) (q 1 0) (q 1 1) (q 1 2) (q 2 0) (q 2 1) (q 2 2) (q 3 0) (q 3 1) (q 3 2) (q 4 0) (q 4 1) (q 4 2) (q 5 0) (q 5 1) (q 5 2) (tl148 p q)
def tl150 : FVec F S1x4096 .f32 := k0_pay169 (p 6 0) (p 6 1) (p 6 2) (q 6 0) (q 6 1) (q 6 2)
def tl151 : FVec F S1x1 .f32 := k0_pay170 (p 6 0) (p 6 1) (p 6 2) (q 7 0) (q 7 1) (q 7 2) (tl147 p q) (tl149 p q) (tl150 p q)
def tl152 : FVec F S1x4096 .f32 := k0_pay171 (p 7 0) (p 7 1) (p 7 2) (q 0 0) (q 0 1) (q 0 2) (q 1 0) (q 1 1) (q 1 2) (q 2 0) (q 2 1) (q 2 2) (q 3 0) (q 3 1) (q 3 2) (q 4 0) (q 4 1) (q 4 2)
def tl153 : FVec F S1x4096 .f32 := k0_pay172 (p 7 0) (q 5 0)
def tl154 : FVec F S1x4096 .f32 := k0_pay173 (p 7 1) (q 5 1)
def tl156 : FVec F S1x1 .f32 := k0_pay175 (p 7 0) (p 7 1) (p 7 2) (q 5 2) (q 6 0) (q 6 1) (q 6 2) (q 7 0) (q 7 1) (q 7 2) (tl151 p q) (tl152 p q) (tl153 p q) (tl154 p q)
end Tail

/-- The source boxes' corner vectors as the run names them: corner `k`, coordinate `d`. -/
def srcC (c : Dev nD) (arg2 : Memref sig .tc .vmem S4096x9 .f32) (harg2 : arg2.IsWhole) (x0 : Vec F S4096x9 .f32) :
    Fin 8 → Fin 3 → FVec F S1x4096 .f32 :=
  ![![kernelRun0_B.sl.r_34 c arg2 harg2 x0, kernelRun0_B.sl.r_35 c arg2 harg2 x0, kernelRun0_B.sl.r_38 c arg2 harg2 x0],
    ![kernelRun0_B.sl.r_39 c arg2 harg2 x0, kernelRun0_B.sl.r_40 c arg2 harg2 x0, kernelRun0_B.sl.r_41 c arg2 harg2 x0],
    ![kernelRun0_B.sl.r_44 c arg2 harg2 x0, kernelRun0_B.sl.r_45 c arg2 harg2 x0, kernelRun0_B.sl.r_46 c arg2 harg2 x0],
    ![kernelRun0_B.sl.r_47 c arg2 harg2 x0, kernelRun0_B.sl.r_50 c arg2 harg2 x0, kernelRun0_B.sl.r_51 c arg2 harg2 x0],
    ![kernelRun0_B.sl.r_52 c arg2 harg2 x0, kernelRun0_B.sl.r_53 c arg2 harg2 x0, kernelRun0_B.sl.r_56 c arg2 harg2 x0],
    ![kernelRun0_B.sl.r_57 c arg2 harg2 x0, kernelRun0_B.sl.r_58 c arg2 harg2 x0, kernelRun0_B.sl.r_59 c arg2 harg2 x0],
    ![kernelRun0_B.sl.r_62 c arg2 harg2 x0, kernelRun0_B.sl.r_63 c arg2 harg2 x0, kernelRun0_B.sl.r_64 c arg2 harg2 x0],
    ![kernelRun0_B.sl.r_65 c arg2 harg2 x0, kernelRun0_B.sl.r_68 c arg2 harg2 x0, kernelRun0_B.sl.r_69 c arg2 harg2 x0]]

/-- The target boxes' corner vectors as the run names them. -/
def tgtC (c : Dev nD) (arg3 : Memref sig .tc .vmem S4096x9 .f32) (harg3 : arg3.IsWhole) (x1 : Vec F S4096x9 .f32) :
    Fin 8 → Fin 3 → FVec F S1x4096 .f32 :=
  ![![kernelRun0_B.sl.r_100 c arg3 harg3 x1, kernelRun0_B.sl.r_101 c arg3 harg3 x1, kernelRun0_B.sl.r_102 c arg3 harg3 x1],
    ![kernelRun0_B.sl.r_103 c arg3 harg3 x1, kernelRun0_B.sl.r_104 c arg3 harg3 x1, kernelRun0_B.sl.r_105 c arg3 harg3 x1],
    ![kernelRun0_B.sl.r_106 c arg3 harg3 x1, kernelRun0_B.sl.r_107 c arg3 harg3 x1, kernelRun0_B.sl.r_108 c arg3 harg3 x1],
    ![kernelRun0_B.sl.r_109 c arg3 harg3 x1, kernelRun0_B.sl.r_110 c arg3 harg3 x1, kernelRun0_B.sl.r_111 c arg3 harg3 x1],
    ![kernelRun0_B.sl.r_112 c arg3 harg3 x1, kernelRun0_B.sl.r_113 c arg3 harg3 x1, kernelRun0_B.sl.r_114 c arg3 harg3 x1],
    ![kernelRun0_B.sl.r_115 c arg3 harg3 x1, kernelRun0_B.sl.r_116 c arg3 harg3 x1, kernelRun0_B.sl.r_117 c arg3 harg3 x1],
    ![kernelRun0_B.sl.r_118 c arg3 harg3 x1, kernelRun0_B.sl.r_119 c arg3 harg3 x1, kernelRun0_B.sl.r_120 c arg3 harg3 x1],
    ![kernelRun0_B.sl.r_121 c arg3 harg3 x1, kernelRun0_B.sl.r_122 c arg3 harg3 x1, kernelRun0_B.sl.r_123 c arg3 harg3 x1]]

end Cert.KernelIdeal.KVal

end
-- ==== Proof.KPieces.lean ====
/-
  What the kernel body leaves in the output block, per case of its one branch, as a function of the two input blocks.
  The body adds one number — the block's total, a 1×1 vector spread over the 8×128 output block — to what the block held;
  at the first step of a core's 32 steps the block is first set to zero. `blockSum` names that 1×1 total as the run
  computes it.
-/
import proofs.«131616_j75076028334308_2_alg».proof.Proof.KTail
import Idealize.ShloMosaic.Lib.Pipeline.Value
import Idealize.ShloMosaic.Lib.Tactic

noncomputable section

namespace Cert.KernelIdeal.KVal

open Cert.KernelIdeal Cert.KernelIdeal.Gen Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- The block's total as the run names it: a 1×1 vector, a function of the two input blocks. -/
abbrev blockSum (c : Dev nD) (a2 : Memref sig .tc .vmem S4096x9 .f32) (h2 : a2.IsWhole) (a3 : Memref sig .tc .vmem S4096x9 .f32) (h3 : a3.IsWhole)
    (x0 x1 : Vec F S4096x9 .f32) : FVec F S1x1 .f32 :=
  kernelRun0_B.sl.r_156 c a2 h2 a3 h3 x0 x1

/-- Away from a core's first step the body leaves, in the output block holding `xo`, `xo` plus the spread total. -/
theorem out_B (c : Dev nD) (i : grid0.Coords) (a2 : Memref sig .tc .vmem S4096x9 .f32) (h2 : a2.IsWhole) (a3 : Memref sig .tc .vmem S4096x9 .f32) (h3 : a3.IsWhole)
    (a4 : Memref sig .tc .vmem S8x128 .f32) (h4 : a4.IsWhole) (hc : ¬cond0_0 i) (x0 x1 : Vec F S4096x9 .f32) (xo : Vec F S8x128 .f32) :
    out0_B_2 c i a2 h2 a3 h3 a4 h4 hc x0 x1 xo = k0_pay1 (k0_pay174 xo) (blockSum c a2 h2 a3 h3 x0 x1) := by
  unfold out0_B_2
  rw [View.read_writes_eq_canon _ _ _ (cover0_B_2 c i a2 h2 a3 h3 a4 h4 hc x0 x1 xo)]
  unfold kernelRun0_B
  dsimp only
  rw [View.canon_unit_zero hz]
  unfold kernelRun0_B.sl.r_155
  simp only [View.readAt_eq_ld, h4.read_unread, View.ld_unit_zero (S := S8x128) hz]

/-- At a core's first step the body sets the block to zero, reads it back and leaves zero plus the spread total. -/
theorem out_A (c : Dev nD) (i : grid0.Coords) (a2 : Memref sig .tc .vmem S4096x9 .f32) (h2 : a2.IsWhole) (a3 : Memref sig .tc .vmem S4096x9 .f32) (h3 : a3.IsWhole)
    (a4 : Memref sig .tc .vmem S8x128 .f32) (h4 : a4.IsWhole) (hc : cond0_0 i) (x0 x1 : Vec F S4096x9 .f32) :
    out0_A_2 c i a2 h2 a3 h3 a4 h4 hc x0 x1 = k0_pay1 (k0_pay174 (k0_pay2 (F := F))) (blockSum c a2 h2 a3 h3 x0 x1) := by
  unfold out0_A_2
  rw [View.read_writes_eq_canon _ _ _ (cover0_A_2 c i a2 h2 a3 h3 a4 h4 hc x0 x1)]
  unfold kernelRun0_A
  dsimp only
  rw [View.canon_cons_unit_zero (S := S8x128) hz]
  show k0_pay1 (kernelRun0_A.sl.r_155 c a4) (kernelRun0_B.sl.r_156 c a2 h2 a3 h3 x0 x1) = _
  unfold kernelRun0_A.sl.r_155 kernelRun0_A.sl.v1412
  unfold kernelRun0_A.sl.H2_1
  rw [View.readCov_unit_zero (S := S8x128) _ hz]

end Cert.KernelIdeal.KVal

end
-- ==== Proof.KCornersBase.lean ====
/-
  What the kernel's corner chain reads at one lane.

  The kernel transposes a 4096×9 block of boxes to 9×4096 and cuts its nine rows, so that row f, as a 1×4096 vector,
  holds at lane l entry f of box l. Everything after the rows — the halved edge lengths, the cosines and sines of the
  three angles, the negated sines, the entries of the two 3×3 products and the corner coordinates — is computed lane
  by lane, so a corner vector at lane l is the same arithmetic on the nine entries of box l. This module holds the
  three facts that are not pointwise (the block load returns the block; a transposed block at (f, l) is the block at
  (l, f); a row cut at (0, l) is the matrix at (f, l)) and the one proof step that all 48 corner vectors share.
-/
import proofs.«131616_j75076028334308_2_alg».proof.Proof.Spec
import proofs.«131616_j75076028334308_2_alg».proof.Proof.KTail
import Idealize.ShloMosaic.Lib.ValueLayout
import Idealize.ShloMosaic.Lib.Pipeline.Value

noncomputable section

namespace Cert.KernelIdeal.KVal

open Cert.KernelIdeal Cert.KernelIdeal.Gen Idealize.ShloMosaic Idealize.ShloMosaic.TcCoe Idealize.SL.Sem
open Idealize.ShloMosaic.ValueIdx

/-- Reading a whole block through the whole-shape rectangle at offsets zero returns the block. -/
theorem load_eq (arg : Memref sig .tc .vmem S4096x9 .f32) (harg : arg.IsWhole) (x : Vec Ideal S4096x9 .f32) :
    View.readAt (Elt Ideal) arg.view (Rect.unit ![0, 0] S4096x9.size inb_S4096x9_S4096x9_0_0).toLoadRect
      (harg.unread x) = x := by
  have hz : (![0, 0] : Fin S4096x9.rank → Nat) = fun _ => 0 := by
    funext a; match a with | ⟨0, _⟩ => rfl | ⟨1, _⟩ => rfl
  simp only [View.readAt_eq_ld, harg.read_unread, View.ld_unit_zero (S := S4096x9) hz]

/-- The transposed source block at (f, l) is the block at (l, f). -/
theorem pay3_apply (v : Vec Ideal S4096x9 .f32) (f : Fin 9) (l : Fin 4096) :
    k0_pay3 (F := Ideal) v (ix2 f l) = v (ix2 l f) :=
  transpose_ix2_apply v _ f l

/-- The transposed target block at (f, l) is the block at (l, f). -/
theorem pay80_apply (v : Vec Ideal S4096x9 .f32) (f : Fin 9) (l : Fin 4096) :
    k0_pay80 (F := Ideal) v (ix2 f l) = v (ix2 l f) :=
  transpose_ix2_apply v _ f l

/-- Row `f` of a 9×4096 matrix, cut out as a 1×4096 vector, is at (0, l) the matrix at (f, l). -/
theorem row_apply (V : FVec Ideal S9x4096 .f32) (f : Fin 9) (h : S9x4096.Slices ![f.val, 0] S1x4096) (l : Fin 4096) :
    extractStridedSlice S1x4096 ![f.val, 0] V h (ix2 (0 : Fin 1) l) = V (ix2 f l) :=
  slice2_axis0_apply f.val V h (0 : Fin 1) l f rfl

theorem row0_apply (V : FVec Ideal S9x4096 .f32) (h : S9x4096.Slices ![0, 0] S1x4096) (l : Fin 4096) :
    extractStridedSlice S1x4096 ![0, 0] V h (ix2 (0 : Fin 1) l) = V (ix2 (0 : Fin 9) l) :=
  row_apply V (0 : Fin 9) h l
theorem row1_apply (V : FVec Ideal S9x4096 .f32) (h : S9x4096.Slices ![1, 0] S1x4096) (l : Fin 4096) :
    extractStridedSlice S1x4096 ![1, 0] V h (ix2 (0 : Fin 1) l) = V (ix2 (1 : Fin 9) l) :=
  row_apply V (1 : Fin 9) h l
theorem row2_apply (V : FVec Ideal S9x4096 .f32) (h : S9x4096.Slices ![2, 0] S1x4096) (l : Fin 4096) :
    extractStridedSlice S1x4096 ![2, 0] V h (ix2 (0 : Fin 1) l) = V (ix2 (2 : Fin 9) l) :=
  row_apply V (2 : Fin 9) h l
theorem row3_apply (V : FVec Ideal S9x4096 .f32) (h : S9x4096.Slices ![3, 0] S1x4096) (l : Fin 4096) :
    extractStridedSlice S1x4096 ![3, 0] V h (ix2 (0 : Fin 1) l) = V (ix2 (3 : Fin 9) l) :=
  row_apply V (3 : Fin 9) h l
theorem row4_apply (V : FVec Ideal S9x4096 .f32) (h : S9x4096.Slices ![4, 0] S1x4096) (l : Fin 4096) :
    extractStridedSlice S1x4096 ![4, 0] V h (ix2 (0 : Fin 1) l) = V (ix2 (4 : Fin 9) l) :=
  row_apply V (4 : Fin 9) h l
theorem row5_apply (V : FVec Ideal S9x4096 .f32) (h : S9x4096.Slices ![5, 0] S1x4096) (l : Fin 4096) :
    extractStridedSlice S1x4096 ![5, 0] V h (ix2 (0 : Fin 1) l) = V (ix2 (5 : Fin 9) l) :=
  row_apply V (5 : Fin 9) h l
theorem row6_apply (V : FVec Ideal S9x4096 .f32) (h : S9x4096.Slices ![6, 0] S1x4096) (l : Fin 4096) :
    extractStridedSlice S1x4096 ![6, 0] V h (ix2 (0 : Fin 1) l) = V (ix2 (6 : Fin 9) l) :=
  row_apply V (6 : Fin 9) h l
theorem row7_apply (V : FVec Ideal S9x4096 .f32) (h : S9x4096.Slices ![7, 0] S1x4096) (l : Fin 4096) :
    extractStridedSlice S1x4096 ![7, 0] V h (ix2 (0 : Fin 1) l) = V (ix2 (7 : Fin 9) l) :=
  row_apply V (7 : Fin 9) h l
theorem row8_apply (V : FVec Ideal S9x4096 .f32) (h : S9x4096.Slices ![8, 0] S1x4096) (l : Fin 4096) :
    extractStridedSlice S1x4096 ![8, 0] V h (ix2 (0 : Fin 1) l) = V (ix2 (8 : Fin 9) l) :=
  row_apply V (8 : Fin 9) h l

/-- A vector's cosine and sine are taken entry by entry. -/
theorem vcos_apply {s : Shape} {φ : FTy} (a : FVec Ideal s φ) (i : s.Idx) :
    Idealize.ShloMosaic.cos a i = Ideal.cos (a i) := rfl
theorem vsin_apply {s : Shape} {φ : FTy} (a : FVec Ideal s φ) (i : s.Idx) :
    Idealize.ShloMosaic.sin a i = Ideal.sin (a i) := rfl

/-- The step every corner vector shares: open the run's names down to the block load, replace the load by the block,
    open the chain's operations and push the lane through them (they are all entry-by-entry except the rows and the
    transpose, read by the lemmas above); what is left is the specification's corner, operation for operation. -/
macro "corner_lane" : tactic => `(tactic| (
  sl_unfold_run_names
  rw [load_eq]
  simp only [
    k0_pay4, k0_pay5, k0_pay6, k0_pay7, k0_pay8, k0_pay9, k0_pay10, k0_pay11, k0_pay12, k0_pay13, k0_pay14, k0_pay15,
    k0_pay16, k0_pay17, k0_pay18, k0_pay19, k0_pay20, k0_pay21, k0_pay22, k0_pay23, k0_pay24, k0_pay25, k0_pay26,
    k0_pay27, k0_pay28, k0_pay29, k0_pay30, k0_pay31, k0_pay32, k0_pay33, k0_pay34, k0_pay35, k0_pay36, k0_pay37,
    k0_pay38, k0_pay39, k0_pay40, k0_pay41, k0_pay42, k0_pay43, k0_pay44, k0_pay45, k0_pay46, k0_pay47, k0_pay48,
    k0_pay49, k0_pay50, k0_pay51, k0_pay52, k0_pay53, k0_pay54, k0_pay55, k0_pay56, k0_pay57, k0_pay58, k0_pay59,
    k0_pay60, k0_pay61, k0_pay62, k0_pay63, k0_pay64, k0_pay65, k0_pay66, k0_pay67, k0_pay68, k0_pay69, k0_pay70,
    k0_pay71, k0_pay72, k0_pay73, k0_pay74, k0_pay75, k0_pay76, k0_pay77, k0_pay78, k0_pay79,
    k0_pay81, k0_pay82, k0_pay83, k0_pay84, k0_pay85, k0_pay86, k0_pay87, k0_pay88, k0_pay89, k0_pay90, k0_pay91,
    k0_pay92, k0_pay93, k0_pay94, k0_pay95, k0_pay96, k0_pay97, k0_pay98, k0_pay99, k0_pay100, k0_pay101, k0_pay102,
    k0_pay103, k0_pay104, k0_pay105, k0_pay106, k0_pay107, k0_pay108, k0_pay109, k0_pay110, k0_pay111, k0_pay112,
    k0_pay113, k0_pay114, k0_pay115, k0_pay116, k0_pay117, k0_pay118, k0_pay119, k0_pay120, k0_pay121, k0_pay122,
    k0_pay123, k0_pay124, k0_pay125, k0_pay126, k0_pay127, k0_pay128, k0_pay129, k0_pay130, k0_pay131, k0_pay132,
    k0_pay133, k0_pay134, k0_pay135, k0_pay136, k0_pay137, k0_pay138, k0_pay139, k0_pay140, k0_pay141, k0_pay142,
    mulf_apply, addf_apply, subf_apply, broadcast_apply, vcos_apply, vsin_apply,
    row0_apply, row1_apply, row2_apply, row3_apply, row4_apply, row5_apply, row6_apply, row7_apply, row8_apply,
    pay3_apply, pay80_apply]
  rfl))

/-- `corner_at name r k d`: the run's vector `r`, at lane `l`, is coordinate `d` of corner `k` of box `l`. -/
macro "corner_at " nm:ident r:ident k:num d:num : command =>
  `(theorem $nm (c : Dev nD) (arg : Memref sig .tc .vmem S4096x9 .f32) (harg : arg.IsWhole)
      (x : Vec Ideal S4096x9 .f32) (l : Fin 4096) :
      $r (F := Ideal) c arg harg x (ix2 (0 : Fin 1) l) =
        Cert.BBox.corner (fun f : Fin 9 => x (ix2 l f)) $k $d := by
    corner_lane)

end Cert.KernelIdeal.KVal

end
-- ==== Proof.KCornersSrc.lean ====
/-
  The source boxes' 24 corner vectors at a lane: vector (k, d) of the table, at lane l, is coordinate d of corner k of
  source box l — centre_d + s(k,0)·R(d,0)·h₀ + s(k,1)·R(d,1)·h₁ + s(k,2)·R(d,2)·h₂ with R = (Rz·Rx)·Ry of the box's
  angles, h its half edge lengths and s the corner's signs, summed and multiplied in the order the kernel does.
-/
import proofs.«131616_j75076028334308_2_alg».proof.Proof.KCornersBase

noncomputable section

namespace Cert.KernelIdeal.KVal

open Cert.KernelIdeal Cert.KernelIdeal.Gen Idealize.ShloMosaic Idealize.ShloMosaic.TcCoe Idealize.SL.Sem
open Idealize.ShloMosaic.ValueIdx

corner_at src_0_0 kernelRun0_B.sl.r_34 0 0
corner_at src_0_1 kernelRun0_B.sl.r_35 0 1
corner_at src_0_2 kernelRun0_B.sl.r_38 0 2

corner_at src_1_0 kernelRun0_B.sl.r_39 1 0
corner_at src_1_1 kernelRun0_B.sl.r_40 1 1
corner_at src_1_2 kernelRun0_B.sl.r_41 1 2

corner_at src_2_0 kernelRun0_B.sl.r_44 2 0
corner_at src_2_1 kernelRun0_B.sl.r_45 2 1
corner_at src_2_2 kernelRun0_B.sl.r_46 2 2

corner_at src_3_0 kernelRun0_B.sl.r_47 3 0
corner_at src_3_1 kernelRun0_B.sl.r_50 3 1
corner_at src_3_2 kernelRun0_B.sl.r_51 3 2

corner_at src_4_0 kernelRun0_B.sl.r_52 4 0
corner_at src_4_1 kernelRun0_B.sl.r_53 4 1
corner_at src_4_2 kernelRun0_B.sl.r_56 4 2

corner_at src_5_0 kernelRun0_B.sl.r_57 5 0
corner_at src_5_1 kernelRun0_B.sl.r_58 5 1
corner_at src_5_2 kernelRun0_B.sl.r_59 5 2

corner_at src_6_0 kernelRun0_B.sl.r_62 6 0
corner_at src_6_1 kernelRun0_B.sl.r_63 6 1
corner_at src_6_2 kernelRun0_B.sl.r_64 6 2

corner_at src_7_0 kernelRun0_B.sl.r_65 7 0
corner_at src_7_1 kernelRun0_B.sl.r_68 7 1
corner_at src_7_2 kernelRun0_B.sl.r_69 7 2

end Cert.KernelIdeal.KVal

end
-- ==== Proof.KCornersTgt.lean ====
/-
  The target boxes' 24 corner vectors at a lane: vector (j, d) of the table, at lane l, is coordinate d of corner j of
  target box l — the same arithmetic as for the source boxes, on the second input block.
-/
import proofs.«131616_j75076028334308_2_alg».proof.Proof.KCornersBase

noncomputable section

namespace Cert.KernelIdeal.KVal

open Cert.KernelIdeal Cert.KernelIdeal.Gen Idealize.ShloMosaic Idealize.ShloMosaic.TcCoe Idealize.SL.Sem
open Idealize.ShloMosaic.ValueIdx

corner_at tgt_0_0 kernelRun0_B.sl.r_100 0 0
corner_at tgt_0_1 kernelRun0_B.sl.r_101 0 1
corner_at tgt_0_2 kernelRun0_B.sl.r_102 0 2

corner_at tgt_1_0 kernelRun0_B.sl.r_103 1 0
corner_at tgt_1_1 kernelRun0_B.sl.r_104 1 1
corner_at tgt_1_2 kernelRun0_B.sl.r_105 1 2

corner_at tgt_2_0 kernelRun0_B.sl.r_106 2 0
corner_at tgt_2_1 kernelRun0_B.sl.r_107 2 1
corner_at tgt_2_2 kernelRun0_B.sl.r_108 2 2

corner_at tgt_3_0 kernelRun0_B.sl.r_109 3 0
corner_at tgt_3_1 kernelRun0_B.sl.r_110 3 1
corner_at tgt_3_2 kernelRun0_B.sl.r_111 3 2

corner_at tgt_4_0 kernelRun0_B.sl.r_112 4 0
corner_at tgt_4_1 kernelRun0_B.sl.r_113 4 1
corner_at tgt_4_2 kernelRun0_B.sl.r_114 4 2

corner_at tgt_5_0 kernelRun0_B.sl.r_115 5 0
corner_at tgt_5_1 kernelRun0_B.sl.r_116 5 1
corner_at tgt_5_2 kernelRun0_B.sl.r_117 5 2

corner_at tgt_6_0 kernelRun0_B.sl.r_118 6 0
corner_at tgt_6_1 kernelRun0_B.sl.r_119 6 1
corner_at tgt_6_2 kernelRun0_B.sl.r_120 6 2

corner_at tgt_7_0 kernelRun0_B.sl.r_121 7 0
corner_at tgt_7_1 kernelRun0_B.sl.r_122 7 1
corner_at tgt_7_2 kernelRun0_B.sl.r_123 7 2

end Cert.KernelIdeal.KVal

end
-- ==== Proof.KCorners.lean ====
/-
  The kernel's two tables of corner vectors, read at a lane: entry (k, d) of the source table at lane l is coordinate d
  of corner k of the source block's box l, and likewise for the target table and the target block. Each of the 2 × 24
  vectors is one case (the two tables of cases are the sibling modules); here the cases are gathered over k and d.
-/
import proofs.«131616_j75076028334308_2_alg».proof.Proof.Spec
import proofs.«131616_j75076028334308_2_alg».proof.Proof.KTail
import proofs.«131616_j75076028334308_2_alg».proof.Proof.KCornersSrc
import proofs.«131616_j75076028334308_2_alg».proof.Proof.KCornersTgt

noncomputable section

namespace Cert.KernelIdeal.KVal

open Cert.KernelIdeal Cert.KernelIdeal.Gen Idealize.ShloMosaic Idealize.ShloMosaic.TcCoe Idealize.SL.Sem

/-- Source corner `k`, coordinate `d`, at lane `l`: the specification's corner of row `l` of the source block. -/
theorem srcC_apply (c : Dev nD) (arg2 : Memref sig .tc .vmem S4096x9 .f32) (harg2 : arg2.IsWhole)
    (x0 : Vec Ideal S4096x9 .f32) (k : Fin 8) (d : Fin 3) (l : Fin 4096) :
    srcC (F := Ideal) c arg2 harg2 x0 k d (ValueIdx.ix2 (0 : Fin 1) l) =
      Cert.BBox.corner (fun f : Fin 9 => x0 (ValueIdx.ix2 l f)) k d := by
  fin_cases k <;> fin_cases d
  exacts [src_0_0 c arg2 harg2 x0 l, src_0_1 c arg2 harg2 x0 l, src_0_2 c arg2 harg2 x0 l,
    src_1_0 c arg2 harg2 x0 l, src_1_1 c arg2 harg2 x0 l, src_1_2 c arg2 harg2 x0 l,
    src_2_0 c arg2 harg2 x0 l, src_2_1 c arg2 harg2 x0 l, src_2_2 c arg2 harg2 x0 l,
    src_3_0 c arg2 harg2 x0 l, src_3_1 c arg2 harg2 x0 l, src_3_2 c arg2 harg2 x0 l,
    src_4_0 c arg2 harg2 x0 l, src_4_1 c arg2 harg2 x0 l, src_4_2 c arg2 harg2 x0 l,
    src_5_0 c arg2 harg2 x0 l, src_5_1 c arg2 harg2 x0 l, src_5_2 c arg2 harg2 x0 l,
    src_6_0 c arg2 harg2 x0 l, src_6_1 c arg2 harg2 x0 l, src_6_2 c arg2 harg2 x0 l,
    src_7_0 c arg2 harg2 x0 l, src_7_1 c arg2 harg2 x0 l, src_7_2 c arg2 harg2 x0 l]

/-- Target corner `j`, coordinate `d`, at lane `l`: the specification's corner of row `l` of the target block. -/
theorem tgtC_apply (c : Dev nD) (arg3 : Memref sig .tc .vmem S4096x9 .f32) (harg3 : arg3.IsWhole)
    (x1 : Vec Ideal S4096x9 .f32) (j : Fin 8) (d : Fin 3) (l : Fin 4096) :
    tgtC (F := Ideal) c arg3 harg3 x1 j d (ValueIdx.ix2 (0 : Fin 1) l) =
      Cert.BBox.corner (fun f : Fin 9 => x1 (ValueIdx.ix2 l f)) j d := by
  fin_cases j <;> fin_cases d
  exacts [tgt_0_0 c arg3 harg3 x1 l, tgt_0_1 c arg3 harg3 x1 l, tgt_0_2 c arg3 harg3 x1 l,
    tgt_1_0 c arg3 harg3 x1 l, tgt_1_1 c arg3 harg3 x1 l, tgt_1_2 c arg3 harg3 x1 l,
    tgt_2_0 c arg3 harg3 x1 l, tgt_2_1 c arg3 harg3 x1 l, tgt_2_2 c arg3 harg3 x1 l,
    tgt_3_0 c arg3 harg3 x1 l, tgt_3_1 c arg3 harg3 x1 l, tgt_3_2 c arg3 harg3 x1 l,
    tgt_4_0 c arg3 harg3 x1 l, tgt_4_1 c arg3 harg3 x1 l, tgt_4_2 c arg3 harg3 x1 l,
    tgt_5_0 c arg3 harg3 x1 l, tgt_5_1 c arg3 harg3 x1 l, tgt_5_2 c arg3 harg3 x1 l,
    tgt_6_0 c arg3 harg3 x1 l, tgt_6_1 c arg3 harg3 x1 l, tgt_6_2 c arg3 harg3 x1 l,
    tgt_7_0 c arg3 harg3 x1 l, tgt_7_1 c arg3 harg3 x1 l, tgt_7_2 c arg3 harg3 x1 l]

end Cert.KernelIdeal.KVal

end
-- ==== Proof.LibRowOps.lean ====
/-
  Row-wise reductions and column broadcasts of a matrix, read at an index, over the extended reals.

  For an a × b matrix: the maximum (or sum) over a row, whether taken by a vector reduction from a neutral
  accumulator or by the host's reduce from an initial value, is at row p the fold of max (or the sum) over the b
  columns of the entries (p, j). A vector of a entries stood up as an a × 1 column reads entry p at (p, 0), and
  that column spread over b columns reads (p, 0) at every (p, q); both in the vector spelling (shape cast, broadcast)
  and in the host's (broadcast in dimensions).
-/
import Idealize.ShloMosaic.Lib.Pipeline.Value
import Idealize.ShloMosaic.Lib.ValueIdx
import Idealize.ShloMosaic.PureOps.Ideal.Laws
import Idealize.ShloMosaic.PureOps.Reduce

noncomputable section

open scoped BigOperators

namespace Idealize.ShloMosaic.RowOps

open Idealize.ShloMosaic Idealize.ShloMosaic.ValueIdx

variable {a b : Nat} {α : Type}

/-- A vector stood up as a column: entry p sits at (p, 0). -/
theorem colCast_apply (v : (⟨1, ![a]⟩ : Shape).Idx → α) (h : (⟨1, ![a]⟩ : Shape).ShapeCasts ⟨2, ![a, 1]⟩) (p : Fin a) :
    shapeCast ⟨2, ![a, 1]⟩ v h (ix2 p (0 : Fin 1)) = v (ix1 p) :=
  shapeCast_apply v h (ix2 p (0 : Fin 1)) (ix1 p) (by
    rw [Shape.rowMajor_val_one, Shape.rowMajor_val_two]; show p.val = p.val * 1 + 0; omega)

/-- A column spread over b columns reads its entry (p, 0) at every (p, q). -/
theorem colBcast_apply (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The host's column of a vector: entry p sits at (p, 0). -/
theorem colInDim_apply (v : (⟨1, ![a]⟩ : Shape).Idx → α) (h : (⟨1, ![a]⟩ : Shape).BroadcastsInDim ⟨2, ![a, 1]⟩ ![0])
    (p : Fin a) : broadcastInDim ⟨2, ![a, 1]⟩ ![0] h v (ix2 p (0 : Fin 1)) = v (ix1 p) := by
  refine broadcastInDim_apply ![0] h v (ix2 p (0 : Fin 1)) (ix1 p) fun ax => ?_
  match ax with
  | ⟨0, _⟩ =>
    show p.val = if a = 1 then 0 else p.val
    split
    · have := p.isLt; omega
    · rfl

/-- The host's spread of a column over b columns reads its entry (p, 0) at every (p, q). -/
theorem colInDim2_apply (w : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h w (ix2 p q) = w (ix2 p (0 : Fin 1)) := by
  refine broadcastInDim_apply ![0, 1] h w (ix2 p q) (ix2 p (0 : Fin 1)) fun ax => ?_
  match ax with
  | ⟨0, _⟩ =>
    show p.val = if a = 1 then 0 else p.val
    split
    · have := p.isLt; omega
    · rfl
  | ⟨1, _⟩ => rfl

/-- Row p with column k put back is (p, k). -/
theorem lift_row (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A vector reduction's row maximum: the fold of max over the row's entries from the accumulator's value. -/
theorem rowMax_vector (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun j => src (ix2 p j)) := by
  refine (Ideal.multiReduction_maximumf_single src acc h hφ hacc (ix1 p)).trans ?_
  have hf : (src ∘ h.lift (ix1 p)) = fun k : Fin b => src (ix2 p k) := funext fun k => congrArg src (lift_row h p k)
  exact congrArg (fun f => Finset.fold max (Ideal.ofBits .f32 acc) f (Finset.univ : Finset (Fin b))) hf

/-- The host's row maximum: the fold of max over the row's entries from the initial value. -/
theorem rowMax_host (x : FVec Ideal ⟨2, ![a, b]⟩ .f32) (init : (⟨0, ![]⟩ : Shape).Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduce FloatOps.maximumf x init h' hu (ix1 p)
      = (Finset.univ : Finset (Fin b)).fold max (init (Shape.Idx.first hu)) (fun j => x (ix2 p j)) := by
  rw [Host.reduce_eq_fold_single FloatOps.maximumf x init h' h hu]
  have hf : (x ∘ h.lift (ix1 p)) = fun k : Fin b => x (ix2 p k) := funext fun k => congrArg x (lift_row h p k)
  exact congrArg (fun f => Finset.fold max (init (Shape.Idx.first hu)) f (Finset.univ : Finset (Fin b))) hf

/-- A vector reduction's row sum. -/
theorem rowSum_vector (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (p : Fin a) :
    multiReduction .add [1] ⟨1, ![a]⟩ src acc h hφ hacc (ix1 p) = ∑ j : Fin b, src (ix2 p j) := by
  refine (Ideal.multiReduction_add_single src acc h hφ hacc (ix1 p)).trans ?_
  exact Finset.sum_congr rfl fun k _ => congrArg src (lift_row h p k)

/-- The host's row sum: the initial value plus the sum of the row's entries. -/
theorem rowSum_host (x : FVec Ideal ⟨2, ![a, b]⟩ .f32) (init : (⟨0, ![]⟩ : Shape).Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduceAdd x init h' hu (ix1 p) = init (Shape.Idx.first hu) + ∑ j : Fin b, x (ix2 p j) := by
  show Ideal.hostReduceAdd h' x (init (Shape.Idx.first hu)) (ix1 p) = _
  rw [Ideal.hostReduceAdd_single h' h]
  exact congrArg (fun s => init (Shape.Idx.first hu) + s) (Finset.sum_congr rfl fun k _ => congrArg x (lift_row h p k))

end Idealize.ShloMosaic.RowOps

end
-- ==== Proof.KTailValue.lean ====
/-
  The tail of the kernel body read as a sum over lanes.

  For two tables of corner vectors (one lane per pair of boxes) the body forms, lane by lane, the squared distances of
  source corner i to the eight target corners and their minimum, sums that minimum over the 4096 lanes, and adds the
  eight sums from the left. Read at a lane, every pointwise operation is the operation on extended reals, so the vector
  whose lanes are summed for corner i is, at lane l, the least squared distance from corner i of lane l's source box
  to a corner of its target box. A sum of eight lane sums is the lane sum of the eight-term sum; hence the block's
  total is the sum over the lanes of the row loss.
-/
import proofs.«131616_j75076028334308_2_alg».proof.Proof.Spec
import proofs.«131616_j75076028334308_2_alg».proof.Proof.KTail
import proofs.«131616_j75076028334308_2_alg».proof.Proof.LibRowOps

noncomputable section

open scoped BigOperators

namespace Cert.KernelIdeal.KVal

open Cert.KernelIdeal Cert.KernelIdeal.Gen Idealize.ShloMosaic Idealize.ShloMosaic.TcCoe Idealize.SL.Sem

/-- The lanes of a one-row vector summed from the zero word and kept as a 1×1 array: its entry is the sum over the
    lanes. -/
theorem laneSum_apply (v : FVec Ideal S1x4096 .f32) (h : S1x4096.Reduces [1] S1) (hφ : FKind.Formats .f32)
    (hacc : (0x00000000#32 : BitVec 32) = FKind.add.neutral .f32 hφ) (hc : S1.ShapeCasts S1x1) :
    shapeCast S1x1 (multiReduction .add [1] S1 v 0x00000000#32 h hφ hacc) hc (ValueIdx.ix2 (0 : Fin 1) (0 : Fin 1))
      = ∑ l : Fin 4096, v (ValueIdx.ix2 (0 : Fin 1) l) :=
  (RowOps.colCast_apply _ hc (0 : Fin 1)).trans (RowOps.rowSum_vector v 0x00000000#32 h hφ hacc (0 : Fin 1))

/-- A 1×1 running total to which such a lane sum is added, the lanes named by a function g. -/
theorem addLaneSum_apply (t : FVec Ideal S1x1 .f32) (v : FVec Ideal S1x4096 .f32) (h : S1x4096.Reduces [1] S1)
    (hφ : FKind.Formats .f32) (hacc : (0x00000000#32 : BitVec 32) = FKind.add.neutral .f32 hφ) (hc : S1.ShapeCasts S1x1)
    (g : Fin 4096 → EReal) (hg : ∀ l : Fin 4096, v (ValueIdx.ix2 (0 : Fin 1) l) = g l) :
    addf t (shapeCast S1x1 (multiReduction .add [1] S1 v 0x00000000#32 h hφ hacc) hc) (ValueIdx.ix2 (0 : Fin 1) (0 : Fin 1))
      = t (ValueIdx.ix2 (0 : Fin 1) (0 : Fin 1)) + ∑ l : Fin 4096, g l :=
  congrArg (fun s => t (ValueIdx.ix2 (0 : Fin 1) (0 : Fin 1)) + s)
    ((laneSum_apply v h hφ hacc hc).trans (Finset.sum_congr rfl fun l _ => hg l))

variable (p q : Fin 8 → Fin 3 → FVec Ideal S1x4096 .f32)

/-- After source corner 0: the lane sum of the least squared distance from corner 0. At a lane the vector summed is
    the left-nested minimum of the eight three-term sums of squared differences, each operation read pointwise. -/
theorem tl128_apply :
    tl128 (F := Ideal) p q (ValueIdx.ix2 (0 : Fin 1) (0 : Fin 1))
      = ∑ l : Fin 4096, Cert.BBox.bestC (fun k d => p k d (ValueIdx.ix2 (0 : Fin 1) l)) (fun k d => q k d (ValueIdx.ix2 (0 : Fin 1) l)) 0 := by
  unfold tl128 k0_pay147
  refine (laneSum_apply _ _ _ _ _).trans ?_
  exact Finset.sum_congr rfl fun l _ => rfl

/-- After source corner 1: the total after corner 0 plus the lane sum of the least squared distance from corner 1. -/
theorem tl131_step :
    tl131 (F := Ideal) p q (ValueIdx.ix2 (0 : Fin 1) (0 : Fin 1))
      = tl128 (F := Ideal) p q (ValueIdx.ix2 (0 : Fin 1) (0 : Fin 1))
        + ∑ l : Fin 4096, Cert.BBox.bestC (fun k d => p k d (ValueIdx.ix2 (0 : Fin 1) l)) (fun k d => q k d (ValueIdx.ix2 (0 : Fin 1) l)) 1 := by
  unfold tl131 k0_pay150
  exact addLaneSum_apply _ _ _ _ _ _ _ fun l => rfl

/-- After source corner 2: the total after corner 1 plus the lane sum of the least squared distance from corner 2. -/
theorem tl135_step :
    tl135 (F := Ideal) p q (ValueIdx.ix2 (0 : Fin 1) (0 : Fin 1))
      = tl131 (F := Ideal) p q (ValueIdx.ix2 (0 : Fin 1) (0 : Fin 1))
        + ∑ l : Fin 4096, Cert.BBox.bestC (fun k d => p k d (ValueIdx.ix2 (0 : Fin 1) l)) (fun k d => q k d (ValueIdx.ix2 (0 : Fin 1) l)) 2 := by
  unfold tl135 k0_pay154
  exact addLaneSum_apply _ _ _ _ _ _ _ fun l => rfl

/-- After source corner 3: the total after corner 2 plus the lane sum of the least squared distance from corner 3. -/
theorem tl139_step :
    tl139 (F := Ideal) p q (ValueIdx.ix2 (0 : Fin 1) (0 : Fin 1))
      = tl135 (F := Ideal) p q (ValueIdx.ix2 (0 : Fin 1) (0 : Fin 1))
        + ∑ l : Fin 4096, Cert.BBox.bestC (fun k d => p k d (ValueIdx.ix2 (0 : Fin 1) l)) (fun k d => q k d (ValueIdx.ix2 (0 : Fin 1) l)) 3 := by
  unfold tl139 k0_pay158
  exact addLaneSum_apply _ _ _ _ _ _ _ fun l => rfl

/-- After source corner 4: the total after corner 3 plus the lane sum of the least squared distance from corner 4. -/
theorem tl144_step :
    tl144 (F := Ideal) p q (ValueIdx.ix2 (0 : Fin 1) (0 : Fin 1))
      = tl139 (F := Ideal) p q (ValueIdx.ix2 (0 : Fin 1) (0 : Fin 1))
        + ∑ l : Fin 4096, Cert.BBox.bestC (fun k d => p k d (ValueIdx.ix2 (0 : Fin 1) l)) (fun k d => q k d (ValueIdx.ix2 (0 : Fin 1) l)) 4 := by
  unfold tl144 k0_pay163
  exact addLaneSum_apply _ _ _ _ _ _ _ fun l => rfl

/-- After source corner 5: the total after corner 4 plus the lane sum of the least squared distance from corner 5. -/
theorem tl147_step :
    tl147 (F := Ideal) p q (ValueIdx.ix2 (0 : Fin 1) (0 : Fin 1))
      = tl144 (F := Ideal) p q (ValueIdx.ix2 (0 : Fin 1) (0 : Fin 1))
        + ∑ l : Fin 4096, Cert.BBox.bestC (fun k d => p k d (ValueIdx.ix2 (0 : Fin 1) l)) (fun k d => q k d (ValueIdx.ix2 (0 : Fin 1) l)) 5 := by
  unfold tl147 k0_pay166
  exact addLaneSum_apply _ _ _ _ _ _ _ fun l => rfl

/-- After source corner 6: the total after corner 5 plus the lane sum of the least squared distance from corner 6. -/
theorem tl151_step :
    tl151 (F := Ideal) p q (ValueIdx.ix2 (0 : Fin 1) (0 : Fin 1))
      = tl147 (F := Ideal) p q (ValueIdx.ix2 (0 : Fin 1) (0 : Fin 1))
        + ∑ l : Fin 4096, Cert.BBox.bestC (fun k d => p k d (ValueIdx.ix2 (0 : Fin 1) l)) (fun k d => q k d (ValueIdx.ix2 (0 : Fin 1) l)) 6 := by
  unfold tl151 k0_pay170
  exact addLaneSum_apply _ _ _ _ _ _ _ fun l => rfl

/-- After source corner 7: the total after corner 6 plus the lane sum of the least squared distance from corner 7. -/
theorem tl156_step :
    tl156 (F := Ideal) p q (ValueIdx.ix2 (0 : Fin 1) (0 : Fin 1))
      = tl151 (F := Ideal) p q (ValueIdx.ix2 (0 : Fin 1) (0 : Fin 1))
        + ∑ l : Fin 4096, Cert.BBox.bestC (fun k d => p k d (ValueIdx.ix2 (0 : Fin 1) l)) (fun k d => q k d (ValueIdx.ix2 (0 : Fin 1) l)) 7 := by
  unfold tl156 k0_pay175
  refine (congrFun (shapeCast_self _ _) _).trans ?_
  exact addLaneSum_apply _ _ _ _ _ _ _ fun l => rfl

/-- The block's total: the eight lane sums added from the left are the lane sum of the eight least distances added
    from the left, which is the row loss of each lane's pair of boxes. -/
theorem tl156_apply :
    tl156 (F := Ideal) p q (ValueIdx.ix2 (0 : Fin 1) (0 : Fin 1))
      = ∑ l : Fin 4096, Cert.BBox.rowC (fun k d => p k d (ValueIdx.ix2 (0 : Fin 1) l)) (fun k d => q k d (ValueIdx.ix2 (0 : Fin 1) l)) := by
  rw [tl156_step, tl151_step, tl147_step, tl144_step, tl139_step, tl135_step, tl131_step, tl128_apply]
  simp only [Cert.BBox.rowC, Finset.sum_add_distrib]

end Cert.KernelIdeal.KVal

end
-- ==== Proof.KBlock.lean ====
/-
  The block's total as a number: the sum over the block's 4096 pairs of boxes of the pair's loss. The body's 1×1 total is
  the tail's running total of the two tables of corner vectors; the tail reads it as the sum over the lanes of the
  eight least distances between the lane's corners; and the corner vectors at a lane are the boxes' corners.
-/
import proofs.«131616_j75076028334308_2_alg».proof.Proof.Spec
import proofs.«131616_j75076028334308_2_alg».proof.Proof.KPieces
import proofs.«131616_j75076028334308_2_alg».proof.Proof.KCorners
import proofs.«131616_j75076028334308_2_alg».proof.Proof.KTailValue

noncomputable section

namespace Cert.KernelIdeal.KVal

open Cert.KernelIdeal Cert.KernelIdeal.Gen Idealize.ShloMosaic Idealize.ShloMosaic.TcCoe Idealize.SL.Sem

/-- The losses of a block's 4096 pairs of boxes, summed. -/
def blockTot (x0 x1 : Vec Ideal S4096x9 .f32) : EReal :=
  ∑ l : Fin 4096, Cert.BBox.rowLoss (fun f : Fin 9 => x0 (ValueIdx.ix2 l f)) (fun f : Fin 9 => x1 (ValueIdx.ix2 l f))

/-- The run's name for the total is the tail applied to the run's two tables of corner vectors. -/
theorem blockSum_eq_tail {F : FTy → Type} [FloatOps F] (c : Dev nD) (a2 : Memref sig .tc .vmem S4096x9 .f32) (h2 : a2.IsWhole)
    (a3 : Memref sig .tc .vmem S4096x9 .f32) (h3 : a3.IsWhole) (x0 x1 : Vec F S4096x9 .f32) :
    blockSum c a2 h2 a3 h3 x0 x1 = tl156 (srcC c a2 h2 x0) (tgtC c a3 h3 x1) := rfl

/-- The 1×1 total the body computes from two input blocks is that sum. -/
theorem blockSum_apply (c : Dev nD) (a2 : Memref sig .tc .vmem S4096x9 .f32) (h2 : a2.IsWhole) (a3 : Memref sig .tc .vmem S4096x9 .f32) (h3 : a3.IsWhole)
    (x0 x1 : Vec Ideal S4096x9 .f32) :
    blockSum (F := Ideal) c a2 h2 a3 h3 x0 x1 (ValueIdx.ix2 (0 : Fin 1) (0 : Fin 1)) = blockTot x0 x1 := by
  rw [blockSum_eq_tail, tl156_apply]
  refine Finset.sum_congr rfl fun l _ => ?_
  have hs : (fun (k : Fin 8) (d : Fin 3) => srcC (F := Ideal) c a2 h2 x0 k d (ValueIdx.ix2 (0 : Fin 1) l))
      = Cert.BBox.corner (fun f : Fin 9 => x0 (ValueIdx.ix2 l f)) :=
    funext fun k => funext fun d => srcC_apply c a2 h2 x0 k d l
  have ht : (fun (k : Fin 8) (d : Fin 3) => tgtC (F := Ideal) c a3 h3 x1 k d (ValueIdx.ix2 (0 : Fin 1) l))
      = Cert.BBox.corner (fun f : Fin 9 => x1 (ValueIdx.ix2 l f)) :=
    funext fun k => funext fun d => tgtC_apply c a3 h3 x1 k d l
  rw [hs, ht]
  rfl

end Cert.KernelIdeal.KVal

end
-- ==== Proof.KAccum.lean ====
/-
  The output array after the kernel's 64 steps. A core's 8×128 output block holds, in every entry, zero plus the totals
  of the core's 32 input blocks added one step after the other; so the [16, 128] result array holds in rows 0–7 core
  0's total and in rows 8–15 core 1's. Input block t of either argument is rows 4096·t … 4096·t + 4095 of the array.
-/
import proofs.«131616_j75076028334308_2_alg».proof.Proof.KBlock

noncomputable section

namespace Cert.KernelIdeal.KVal

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The block the body stores, read at an entry: the entry before plus the 1×1 total. -/
theorem pay1_apply (a : FVec Ideal S8x128 .f32) (b : FVec Ideal S1x1 .f32) (y : S8x128.Idx) :
    k0_pay1 (k0_pay174 a) b y = a y + b (ValueIdx.ix2 (0 : Fin 1) (0 : Fin 1)) := by
  unfold k0_pay1 k0_pay174
  rw [shapeCast_self]
  refine congrArg (a y + ·) (broadcastTo_apply b _ y (ValueIdx.ix2 (0 : Fin 1) (0 : Fin 1)) fun a => ?_)
  fin_cases a <;> rfl

/-- The total of the two input blocks of point `t`. -/
def bt (c : Dev nD) (t : Fin cfg0.N) : EReal := blockTot (iblk m c 0 t) (iblk m c 1 t)

/-- The running total in a core's output block after point `n`: zero plus the block totals since the core's first step. -/
def acc (c : Dev nD) : (n : ℕ) → n < cfg0.N → EReal
  | 0, h => Cert.BBox.w0 + bt m c ⟨0, h⟩
  | n + 1, h => if (n + 1) % 32 = 0 then Cert.BBox.w0 + bt m c ⟨n + 1, h⟩
      else acc c n (Nat.lt_of_succ_lt h) + bt m c ⟨n + 1, h⟩

/-- What the output block holds after point `n` is the running total, in every entry — by induction on the point. -/
theorem outsAt_eq (c : Dev nD) : ∀ (n : ℕ) (h : n < cfg0.N), outsAt0 m c n h = fun _ => acc m c n h
  | 0, h => by
    rw [show outsAt0 m c 0 h = _ from outsAt0_A m c ⟨0, h⟩ rfl,
      out_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) _ (iblk m c 0 ⟨0, h⟩) (iblk m c 1 ⟨0, h⟩)]
    funext y
    rw [pay1_apply, blockSum_apply c (ms0_0 ⟨0, h⟩) (hs0_0 ⟨0, h⟩) (ms0_1 ⟨0, h⟩) (hs0_1 ⟨0, h⟩) (iblk m c 0 ⟨0, h⟩) (iblk m c 1 ⟨0, h⟩)]
    rfl
  | n + 1, h => by
    by_cases h0 : (n + 1) % 32 = 0
    · rw [show outsAt0 m c (n + 1) h = _ from outsAt0_A m c ⟨n + 1, h⟩ h0,
        out_A c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) _ (iblk m c 0 ⟨n + 1, h⟩) (iblk m c 1 ⟨n + 1, h⟩)]
      funext y
      rw [pay1_apply, blockSum_apply c (ms0_0 ⟨n + 1, h⟩) (hs0_0 ⟨n + 1, h⟩) (ms0_1 ⟨n + 1, h⟩) (hs0_1 ⟨n + 1, h⟩) (iblk m c 0 ⟨n + 1, h⟩) (iblk m c 1 ⟨n + 1, h⟩)]
      show _ = acc m c (n + 1) h
      rw [acc, if_pos h0]
      rfl
    · rw [show outsAt0 m c (n + 1) h = _ from outsAt0_B m c ⟨n + 1, h⟩ h0,
        out_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) _ (iblk m c 0 ⟨n + 1, h⟩) (iblk m c 1 ⟨n + 1, h⟩)]
      funext y
      rw [pay1_apply, blockSum_apply c (ms0_0 ⟨n + 1, h⟩) (hs0_0 ⟨n + 1, h⟩) (ms0_1 ⟨n + 1, h⟩) (hs0_1 ⟨n + 1, h⟩) (iblk m c 0 ⟨n + 1, h⟩) (iblk m c 1 ⟨n + 1, h⟩)]
      show outsAt0 m c n _ y + _ = acc m c (n + 1) h
      rw [outsAt_eq c n, acc, if_neg h0]
      rfl

end Cert.KernelIdeal.KVal

end
-- ==== Proof.KFinal.lean ====
/-
  The kernel program's result. After the last step the [16, 128] array holds core 0's total in rows 0–7 and core 1's in
  rows 8–15; the host lines after the launch read entries (0, 0) and (8, 0), add them and divide by 2²¹. The two cores'
  totals are the sums of the pair losses over the first and the second half of the rows, so the result is the loss.
-/
import proofs.«131616_j75076028334308_2_alg».proof.Proof.KAccum
import Idealize.ShloMosaic.Lib.StableHlo.Run

noncomputable section

namespace Cert.KernelIdeal.KVal

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The block total of point `j`, zero past the grid. -/
def btN (c : Dev nD) (j : ℕ) : EReal := if h : j < cfg0.N then bt m c ⟨j, h⟩ else 0

/-- The running total after point `n` is zero plus the block totals from the core's first point through `n`. -/
theorem acc_closed (c : Dev nD) : ∀ (n : ℕ) (h : n < cfg0.N),
    acc m c n h = Cert.BBox.w0 + ∑ j ∈ Finset.Ico (32 * (n / 32)) (n + 1), btN m c j
  | 0, h => by
    rw [acc, show Finset.Ico (32 * (0 / 32)) (0 + 1) = {0} from by decide, Finset.sum_singleton, btN, dif_pos h]
  | n + 1, h => by
    rw [acc]
    split_ifs with h0
    · rw [show 32 * ((n + 1) / 32) = n + 1 from by omega, Nat.Ico_succ_singleton, Finset.sum_singleton, btN, dif_pos h]
    · rw [show 32 * ((n + 1) / 32) = 32 * (n / 32) from by omega,
        Finset.sum_Ico_succ_top (by omega : 32 * (n / 32) ≤ n + 1), acc_closed c n, add_assoc, btN, dif_pos h]

/-- Core `q`'s total: zero plus its 32 block totals. -/
def coreTot (c : Dev nD) (q : ℕ) : EReal := Cert.BBox.w0 + ∑ s ∈ Finset.range 32, btN m c (32 * q + s)

/-- The result array after the run: row `r` holds the total of core `r / 8`. -/
abbrev Gout (c : Dev nD) : Buf (Elt Ideal) ((c : Thread nD τ).loc main_v0) := fun i => coreTot m c ((i 0).val / 8)

/-- The printed index maps over the grid: the inputs' block row is the point, the output's the point's core. -/
theorem idx_facts : ∀ t : Fin cfg0.N, win0_2.index t (0 : Fin 2) = t.val / 32 ∧ win0_2.index t (1 : Fin 2) = 0
    ∧ win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What a write-back writes is the point's block of that array. -/
theorem flushed_eq (c : Dev nD) (t : Fin cfg0.N) (hf : (cfg0.win 2).flush t = true) :
    (dats m 0 c).flushed 2 t = ((cfg0.win 2).blk t).view.read (Elt Ideal) (Gout m c) := by
  have hN : t.val < 64 := lt_of_lt_of_eq t.isLt (show cfg0.N = 64 from N_0)
  have h31 : t.val % 32 = 31 := (flush0_2 t).mp hf
  obtain ⟨e0, e1, -, -, -, -⟩ := idx_facts t
  show (cfg0.win 2).cut (grid0.coords t) ((dats m 0 c).after 2 t) = _
  rw [after0_2, outsAt_eq]
  funext j
  show acc m c t.val t.isLt = coreTot m c ((win0_2.index t (0 : Fin 2) * 8 + 1 * (j 0).val) / 8)
  have hj : (j 0).val < 8 := (j 0).isLt
  rw [acc_closed, e0, show (t.val / 32 * 8 + 1 * (j 0).val) / 8 = t.val / 32 from by omega, coreTot,
    Finset.sum_Ico_eq_sum_range, show t.val + 1 - 32 * (t.val / 32) = 32 from by omega]

/-- An index of the array is in point `t`'s block iff each coordinate is in the block's range on its axis. -/
theorem mem_blk (t : Fin cfg0.N) (i : S16x128.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v0).slice (win0_2.rect t)).set ↔ _
  rw [View.set_slice_whole, Rect.mem_set_unit]
  exact Iff.rfl

/-- So the array ends holding the two cores' totals: the last point of each core writes its eight rows. -/
theorem final (c : Dev nD) : (dats m 0 c).arrAt 2 cfg0.N = Gout m c :=
  (dats m 0 c).arrAt_eq_of_cover 2 (Gout m c) (flushed_eq m c) fun i => by
    have hi0 : (i 0).val < 16 := (i 0).isLt
    have hi1 : (i 1).val < 128 := (i 1).isLt
    have hlt : 32 * ((i 0).val / 8) + 31 < cfg0.N := by rw [show cfg0.N = 64 from N_0]; omega
    refine ⟨⟨32 * ((i 0).val / 8) + 31, hlt⟩, (flush0_2 _).mpr (by show (32 * ((i 0).val / 8) + 31) % 32 = 31; omega), ?_⟩
    obtain ⟨e0, e1, -, -, -, -⟩ := idx_facts ⟨32 * ((i 0).val / 8) + 31, hlt⟩
    rw [mem_blk]
    intro a
    match a with
    | ⟨0, _⟩ =>
      show win0_2.index _ (0 : Fin 2) * 8 ≤ (i 0).val ∧ (i 0).val < win0_2.index _ (0 : Fin 2) * 8 + 8
      rw [e0]; show (32 * ((i 0).val / 8) + 31) / 32 * 8 ≤ (i 0).val ∧ (i 0).val < (32 * ((i 0).val / 8) + 31) / 32 * 8 + 8; omega
    | ⟨1, _⟩ =>
      show win0_2.index _ (1 : Fin 2) * 128 ≤ (i 1).val ∧ (i 1).val < win0_2.index _ (1 : Fin 2) * 128 + 128
      rw [e1]; omega

/-- Input block `t` of the source array, read at a row and a column: row 4096·t + l of the array. -/
theorem iblk0_apply (c : Dev nD) (t : Fin cfg0.N) (l : Fin 4096) (f : Fin 9) (hr : 4096 * t.val + l.val < 262144) :
    iblk m c 0 t (ValueIdx.ix2 l f) = m ((c : Thread nD τ).loc main_arg0) (ValueIdx.ix2 (⟨4096 * t.val + l.val, hr⟩ : Fin 262144) f) := by
  obtain ⟨-, -, e0, e1, -, -⟩ := idx_facts t
  unfold iblk
  rw [View.read_apply]
  show V m c main_arg0 _ = m ((c : Thread nD τ).loc main_arg0) _
  rw [V_main_arg0]
  congr 1
  funext a
  apply Fin.ext
  match a with
  | ⟨0, _⟩ => show win0_0.index t (0 : Fin 2) * 4096 + 1 * l.val = 4096 * t.val + l.val; rw [e0]; omega
  | ⟨1, _⟩ => show win0_0.index t (1 : Fin 2) * 9 + 1 * f.val = f.val; rw [e1]; omega

/-- The same of the target array. -/
theorem iblk1_apply (c : Dev nD) (t : Fin cfg0.N) (l : Fin 4096) (f : Fin 9) (hr : 4096 * t.val + l.val < 262144) :
    iblk m c 1 t (ValueIdx.ix2 l f) = m ((c : Thread nD τ).loc main_arg1) (ValueIdx.ix2 (⟨4096 * t.val + l.val, hr⟩ : Fin 262144) f) := by
  obtain ⟨-, -, -, -, e0, e1⟩ := idx_facts t
  unfold iblk
  rw [View.read_apply]
  show V m c main_arg1 _ = m ((c : Thread nD τ).loc main_arg1) _
  rw [V_main_arg1]
  congr 1
  funext a
  apply Fin.ext
  match a with
  | ⟨0, _⟩ => show win0_1.index t (0 : Fin 2) * 4096 + 1 * l.val = 4096 * t.val + l.val; rw [e0]; omega
  | ⟨1, _⟩ => show win0_1.index t (1 : Fin 2) * 9 + 1 * f.val = f.val; rw [e1]; omega

end Cert.KernelIdeal.KVal

end
-- ==== Proof.KResult.lean ====
/-
  The kernel program's result, read: the host lines after the launch take entries (0, 0) and (8, 0) of the [16, 128]
  array, add them and divide by 2²¹; the two entries are the two cores' totals, and those two add up to the sum of the
  pair losses over all 262144 rows.
-/
import proofs.«131616_j75076028334308_2_alg».proof.Proof.KFinal
import Idealize.ShloMosaic.PureOps.Ideal.Laws

noncomputable section

namespace Cert.KernelIdeal.KVal

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The host lines' result from the array the region leaves. -/
theorem tail_v6 (c : Dev nD) :
    Pipeline.afterTail₀ cfgs (dats m) 0 (V0 m) [hostOps1] c main_v6
      = fun _ => Ideal.div (coreTot m c 0 + coreTot m c 1) Cert.BBox.wN := by
  unfold Pipeline.afterTail₀
  show StableHlo.after hostOps1 _ (Proc.devRef .tc main_v6) = _
  after_results
  have hA : Pipeline.withArrays (cfgs 0).spec c (V0 m c) (fun w => (dats m 0 c).arrAt w (cfgs 0).N) (Proc.devRef .tc main_v0) = Gout m c :=
    (Pipeline.withArrays_arr spec0 launch0.win.arr_inj c _ _ 2).trans (final m c)
  rw [hA]
  funext x
  show Ideal.div ((shapeCast S_ (extractStridedSlice S1x1 ![0, 0] (fun i : S16x128.Idx => coreTot m c ((i 0).val / 8)) slices_S16x128_S1x1_0_0) shapeCasts_S1x1_S_ x : EReal)
      + (shapeCast S_ (extractStridedSlice S1x1 ![8, 0] (fun i : S16x128.Idx => coreTot m c ((i 0).val / 8)) slices_S16x128_S1x1_8_0) shapeCasts_S1x1_S_ x : EReal)) _ = _
  rw [shapeCast_apply _ shapeCasts_S1x1_S_ x (ValueIdx.ix2 (0 : Fin 1) (0 : Fin 1)) rfl,
    shapeCast_apply _ shapeCasts_S1x1_S_ x (ValueIdx.ix2 (0 : Fin 1) (0 : Fin 1)) rfl]
  rfl

/-- A sum over T·W consecutive naturals is the sum over the T tiles of each tile's sum. -/
theorem sum_tiles (g : ℕ → EReal) (W : ℕ) : ∀ T : ℕ,
    ∑ n ∈ Finset.range (T * W), g n = ∑ t ∈ Finset.range T, ∑ l ∈ Finset.range W, g (t * W + l)
  | 0 => by simp
  | T + 1 => by rw [Nat.succ_mul, Finset.sum_range_add, sum_tiles g W T, Finset.sum_range_succ]

/-- The loss of the pair of boxes in row `n`, zero past the last row. -/
def rowN (n : ℕ) (c : Dev nD) : EReal :=
  if h : n < 262144 then
    Cert.BBox.rowLoss (Cert.BBox.rowsOf (m ((c : Thread nD τ).loc main_arg0)) ⟨n, h⟩) (Cert.BBox.rowsOf (m ((c : Thread nD τ).loc main_arg1)) ⟨n, h⟩)
  else 0

/-- The block total of point `t` is the sum of the losses of rows 4096·t … 4096·t + 4095. -/
theorem btN_eq (c : Dev nD) (t : ℕ) (ht : t < 64) : btN m c t = ∑ l ∈ Finset.range 4096, rowN m (t * 4096 + l) c := by
  have hN : t < cfg0.N := lt_of_lt_of_eq ht (show cfg0.N = 64 from N_0).symm
  rw [btN, dif_pos hN, bt, blockTot, ← Fin.sum_univ_eq_sum_range (fun l => rowN m (t * 4096 + l) c) 4096]
  refine Finset.sum_congr rfl fun l _ => ?_
  have hl : l.val < 4096 := l.isLt
  have hr : 4096 * t + l.val < 262144 := by omega
  rw [rowN, dif_pos (by omega : t * 4096 + l.val < 262144)]
  have e0 : (fun f : Fin 9 => iblk m c 0 ⟨t, hN⟩ (ValueIdx.ix2 l f)) = Cert.BBox.rowsOf (m ((c : Thread nD τ).loc main_arg0)) ⟨t * 4096 + l.val, by omega⟩ := by
    funext f
    rw [iblk0_apply m c ⟨t, hN⟩ l f hr]
    show _ = m ((c : Thread nD τ).loc main_arg0) (ValueIdx.ix2 _ f)
    congr 2
    apply Fin.ext
    show 4096 * t + l.val = t * 4096 + l.val
    omega
  have e1 : (fun f : Fin 9 => iblk m c 1 ⟨t, hN⟩ (ValueIdx.ix2 l f)) = Cert.BBox.rowsOf (m ((c : Thread nD τ).loc main_arg1)) ⟨t * 4096 + l.val, by omega⟩ := by
    funext f
    rw [iblk1_apply m c ⟨t, hN⟩ l f hr]
    show _ = m ((c : Thread nD τ).loc main_arg1) (ValueIdx.ix2 _ f)
    congr 2
    apply Fin.ext
    show 4096 * t + l.val = t * 4096 + l.val
    omega
  rw [e0, e1]

/-- The two cores' totals add up to the sum of the losses of all rows. -/
theorem cores_total (c : Dev nD) :
    coreTot m c 0 + coreTot m c 1
      = Cert.BBox.total (Cert.BBox.rowsOf (m ((c : Thread nD τ).loc main_arg0))) (Cert.BBox.rowsOf (m ((c : Thread nD τ).loc main_arg1))) := by
  have hw0 : Cert.BBox.w0 = 0 := Ideal.ofBits_zero_f32
  have h64 : ∑ t ∈ Finset.range (32 + 32), btN m c t
      = ∑ s ∈ Finset.range 32, btN m c (32 * 0 + s) + ∑ s ∈ Finset.range 32, btN m c (32 * 1 + s) := by
    rw [Finset.sum_range_add]
    simp only [Nat.mul_zero, Nat.zero_add, Nat.mul_one]
  rw [coreTot, coreTot, hw0, zero_add, zero_add, ← h64, Cert.BBox.total]
  calc ∑ t ∈ Finset.range (32 + 32), btN m c t
      = ∑ t ∈ Finset.range 64, ∑ l ∈ Finset.range 4096, rowN m (t * 4096 + l) c :=
        Finset.sum_congr rfl fun t ht => btN_eq m c t (Finset.mem_range.mp ht)
    _ = ∑ n ∈ Finset.range (64 * 4096), rowN m n c := (sum_tiles (fun n => rowN m n c) 4096 64).symm
    _ = ∑ n : Fin 262144, rowN m n.val c := (Fin.sum_univ_eq_sum_range (fun n => rowN m n c) 262144).symm
    _ = _ := Finset.sum_congr rfl fun n _ => by rw [rowN, dif_pos n.isLt]

/-- The kernel program's run, read: the result is the loss of the two argument arrays, which end unchanged. -/
theorem run : θ_run defs (onTc (τ := τ) (main (F := Ideal))) ⟨m, fun _ => 0, ρ⟩ fun r => ∀ c : Dev nD,
      r.2.mem ((c : Thread nD τ).loc main_v6)
          = (fun _ => Cert.BBox.loss (Cert.BBox.rowsOf (m ((c : Thread nD τ).loc main_arg0))) (Cert.BBox.rowsOf (m ((c : Thread nD τ).loc main_arg1))))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v6 (by decide)).trans ((tail_v6 m c).trans (by rw [cores_total]; rfl)),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.KVal

end
-- ==== Proof.RefOps.lean ====
/- Written by the transcription script of this unit's scratch directory (scratch/mk_refops.js, invoked as
   `mk_refops.js proof/ReferenceIdeal.lean proof/Proof/RefOps.lean`): the operation of every `hlo rfl (…)` line of the printed
   reference's three windows, copied character for character, in order, cut into three stretches. A table, no argument. -/
/-
  The reference's @main as three lists of host operations: the source boxes' corners (the sign table through %69),
  the target boxes' corners (%70 through %139), and the distances, minima, sum and quotient (%140 through %150).
-/
import proofs.«131616_j75076028334308_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-- The sign table and the source boxes' corners: 78 operations. -/
abbrev opsA : List (HloOp τ sig (Elt F)) :=
  [ StableHlo.nullary main_cst (fun i => FloatOps.ofBits .f32 (lit0 (S8x3.rowMajor i))),
    StableHlo.unary main_arg0 main_v0 ((extractStridedSlice S262144x3 ![0, 0] · slices_S262144x9_S262144x3_0_0) : (⟨S262144x9, .f32⟩ : BufTy).Contents (Elt F) → (⟨S262144x3, .f32⟩ : BufTy).Contents (Elt F)),
    StableHlo.unary main_arg0 main_v1 ((extractStridedSlice S262144x3 ![0, 3] · slices_S262144x9_S262144x3_0_3) : (⟨S262144x9, .f32⟩ : BufTy).Contents (Elt F) → (⟨S262144x3, .f32⟩ : BufTy).Contents (Elt F)),
    StableHlo.nullary main_cst_0 (constant S_ .f32 0x3F000000#32),
    StableHlo.unary main_cst_0 main_v2 (broadcastInDim S262144x3 ![] bcast_S_S262144x3 : (⟨S_, .f32⟩ : BufTy).Contents (Elt F) → (⟨S262144x3, .f32⟩ : BufTy).Contents (Elt F)),
    StableHlo.binary main_v1 main_v2 main_v3 (mulf : (⟨S262144x3, .f32⟩ : BufTy).Contents (Elt F) → (⟨S262144x3, .f32⟩ : BufTy).Contents (Elt F) → (⟨S262144x3, .f32⟩ : BufTy).Contents (Elt F)),
    StableHlo.unary main_arg0 main_v4 ((extractStridedSlice S262144x3 ![0, 6] · slices_S262144x9_S262144x3_0_6) : (⟨S262144x9, .f32⟩ : BufTy).Contents (Elt F) → (⟨S262144x3, .f32⟩ : BufTy).Contents (Elt F)),
    StableHlo.unary main_v4 main_v5 ((extractStridedSlice S262144x1 ![0, 0] · slices_S262144x3_S262144x1_0_0) : (⟨S262144x3, .f32⟩ : BufTy).Contents (Elt F) → (⟨S262144x1, .f32⟩ : BufTy).Contents (Elt F)),
    StableHlo.reshape main_v5 main_v6 rfl shapeCasts_S262144x1_S262144,
    StableHlo.unary main_v6 main_v7 (Host.cos : (⟨S262144, .f32⟩ : BufTy).Contents (Elt F) → (⟨S262144, .f32⟩ : BufTy).Contents (Elt F)),
    StableHlo.unary main_v6 main_v8 (Host.sin : (⟨S262144, .f32⟩ : BufTy).Contents (Elt F) → (⟨S262144, .f32⟩ : BufTy).Contents (Elt F)),
    StableHlo.nullary main_cst_1 (constant S_ .f32 0x3F800000#32),
    StableHlo.unary main_cst_1 main_v9 (broadcastInDim S262144 ![] bcast_S_S262144 : (⟨S_, .f32⟩ : BufTy).Contents (Elt F) → (⟨S262144, .f32⟩ : BufTy).Contents (Elt F)),
    StableHlo.nullary main_cst_2 (constant S_ .f32 0x00000000#32),
    StableHlo.unary main_cst_2 main_v10 (broadcastInDim S262144 ![] bcast_S_S262144 : (⟨S_, .f32⟩ : BufTy).Contents (Elt F) → (⟨S262144, .f32⟩ : BufTy).Contents (Elt F)),
    StableHlo.unary main_v8 main_v11 (Host.negf : (⟨S262144, .f32⟩ : BufTy).Contents (Elt F) → (⟨S262144, .f32⟩ : BufTy).Contents (Elt F)),
    StableHlo.unary main_v7 main_v12 (broadcastInDim S262144x1 ![0] bcast_S262144_S262144x1_0 : (⟨S262144, .f32⟩ : BufTy).Contents (Elt F) → (⟨S262144x1, .f32⟩ : BufTy).Contents (Elt F)),
    StableHlo.unary main_v11 main_v13 (broadcastInDim S262144x1 ![0] bcast_S262144_S262144x1_0 : (⟨S262144, .f32⟩ : BufTy).Contents (Elt F) → (⟨S262144x1, .f32⟩ : BufTy).Contents (Elt F)),
    StableHlo.unary main_v10 main_v14 (broadcastInDim S262144x1 ![0] bcast_S262144_S262144x1_0 : (⟨S262144, .f32⟩ : BufTy).Contents (Elt F) → (⟨S262144x1, .f32⟩ : BufTy).Contents (Elt F)),
    StableHlo.unary main_v8 main_v15 (broadcastInDim S262144x1 ![0] bcast_S262144_S262144x1_0 : (⟨S262144, .f32⟩ : BufTy).Contents (Elt F) → (⟨S262144x1, .f32⟩ : BufTy).Contents (Elt F)),
    StableHlo.unary main_v7 main_v16 (broadcastInDim S262144x1 ![0] bcast_S262144_S262144x1_0 : (⟨S262144, .f32⟩ : BufTy).Contents (Elt F) → (⟨S262144x1, .f32⟩ : BufTy).Contents (Elt F)),
    StableHlo.unary main_v10 main_v17 (broadcastInDim S262144x1 ![0] bcast_S262144_S262144x1_0 : (⟨S262144, .f32⟩ : BufTy).Contents (Elt F) → (⟨S262144x1, .f32⟩ : BufTy).Contents (Elt F)),
    StableHlo.unary main_v10 main_v18 (broadcastInDim S262144x1 ![0] bcast_S262144_S262144x1_0 : (⟨S262144, .f32⟩ : BufTy).Contents (Elt F) → (⟨S262144x1, .f32⟩ : BufTy).Contents (Elt F)),
    StableHlo.unary main_v10 main_v19 (broadcastInDim S262144x1 ![0] bcast_S262144_S262144x1_0 : (⟨S262144, .f32⟩ : BufTy).Contents (Elt F) → (⟨S262144x1, .f32⟩ : BufTy).Contents (Elt F)),
    StableHlo.unary main_v9 main_v20 (broadcastInDim S262144x1 ![0] bcast_S262144_S262144x1_0 : (⟨S262144, .f32⟩ : BufTy).Contents (Elt F) → (⟨S262144x1, .f32⟩ : BufTy).Contents (Elt F)),
    StableHlo.nary ![main_v12, main_v13, main_v14, main_v15, main_v16, main_v17, main_v18, main_v19, main_v20] main_v21 (fun u => concatenate S262144x9 1 [⟨S262144x1, u 0⟩, ⟨S262144x1, u 1⟩, ⟨S262144x1, u 2⟩, ⟨S262144x1, u 3⟩, ⟨S262144x1, u 4⟩, ⟨S262144x1, u 5⟩, ⟨S262144x1, u 6⟩, ⟨S262144x1, u 7⟩, ⟨S262144x1, u 8⟩] concatenates_S262144x1_S262144x1_S262144x1_S262144x1_S262144x1_S262144x1_S262144x1_S262144x1_S262144x1_S262144x9_d1),
    StableHlo.reshape main_v21 main_v22 rfl shapeCasts_S262144x9_S262144x3x3,
    StableHlo.unary main_v4 main_v23 ((extractStridedSlice S262144x1 ![0, 1] · slices_S262144x3_S262144x1_0_1) : (⟨S262144x3, .f32⟩ : BufTy).Contents (Elt F) → (⟨S262144x1, .f32⟩ : BufTy).Contents (Elt F)),
    StableHlo.reshape main_v23 main_v24 rfl shapeCasts_S262144x1_S262144,
    StableHlo.unary main_v24 main_v25 (Host.cos : (⟨S262144, .f32⟩ : BufTy).Contents (Elt F) → (⟨S262144, .f32⟩ : BufTy).Contents (Elt F)),
    StableHlo.unary main_v24 main_v26 (Host.sin : (⟨S262144, .f32⟩ : BufTy).Contents (Elt F) → (⟨S262144, .f32⟩ : BufTy).Contents (Elt F)),
    StableHlo.nullary main_cst_3 (constant S_ .f32 0x3F800000#32),
    StableHlo.unary main_cst_3 main_v27 (broadcastInDim S262144 ![] bcast_S_S262144 : (⟨S_, .f32⟩ : BufTy).Contents (Elt F) → (⟨S262144, .f32⟩ : BufTy).Contents (Elt F)),
    StableHlo.nullary main_cst_4 (constant S_ .f32 0x00000000#32),
    StableHlo.unary main_cst_4 main_v28 (broadcastInDim S262144 ![] bcast_S_S262144 : (⟨S_, .f32⟩ : BufTy).Contents (Elt F) → (⟨S262144, .f32⟩ : BufTy).Contents (Elt F)),
    StableHlo.unary main_v26 main_v29 (Host.negf : (⟨S262144, .f32⟩ : BufTy).Contents (Elt F) → (⟨S262144, .f32⟩ : BufTy).Contents (Elt F)),
    StableHlo.unary main_v27 main_v30 (broadcastInDim S262144x1 ![0] bcast_S262144_S262144x1_0 : (⟨S262144, .f32⟩ : BufTy).Contents (Elt F) → (⟨S262144x1, .f32⟩ : BufTy).Contents (Elt F)),
    StableHlo.unary main_v28 main_v31 (broadcastInDim S262144x1 ![0] bcast_S262144_S262144x1_0 : (⟨S262144, .f32⟩ : BufTy).Contents (Elt F) → (⟨S262144x1, .f32⟩ : BufTy).Contents (Elt F)),
    StableHlo.unary main_v28 main_v32 (broadcastInDim S262144x1 ![0] bcast_S262144_S262144x1_0 : (⟨S262144, .f32⟩ : BufTy).Contents (Elt F) → (⟨S262144x1, .f32⟩ : BufTy).Contents (Elt F)),
    StableHlo.unary main_v28 main_v33 (broadcastInDim S262144x1 ![0] bcast_S262144_S262144x1_0 : (⟨S262144, .f32⟩ : BufTy).Contents (Elt F) → (⟨S262144x1, .f32⟩ : BufTy).Contents (Elt F)),
    StableHlo.unary main_v25 main_v34 (broadcastInDim S262144x1 ![0] bcast_S262144_S262144x1_0 : (⟨S262144, .f32⟩ : BufTy).Contents (Elt F) → (⟨S262144x1, .f32⟩ : BufTy).Contents (Elt F)),
    StableHlo.unary main_v29 main_v35 (broadcastInDim S262144x1 ![0] bcast_S262144_S262144x1_0 : (⟨S262144, .f32⟩ : BufTy).Contents (Elt F) → (⟨S262144x1, .f32⟩ : BufTy).Contents (Elt F)),
    StableHlo.unary main_v28 main_v36 (broadcastInDim S262144x1 ![0] bcast_S262144_S262144x1_0 : (⟨S262144, .f32⟩ : BufTy).Contents (Elt F) → (⟨S262144x1, .f32⟩ : BufTy).Contents (Elt F)),
    StableHlo.unary main_v26 main_v37 (broadcastInDim S262144x1 ![0] bcast_S262144_S262144x1_0 : (⟨S262144, .f32⟩ : BufTy).Contents (Elt F) → (⟨S262144x1, .f32⟩ : BufTy).Contents (Elt F)),
    StableHlo.unary main_v25 main_v38 (broadcastInDim S262144x1 ![0] bcast_S262144_S262144x1_0 : (⟨S262144, .f32⟩ : BufTy).Contents (Elt F) → (⟨S262144x1, .f32⟩ : BufTy).Contents (Elt F)),
    StableHlo.nary ![main_v30, main_v31, main_v32, main_v33, main_v34, main_v35, main_v36, main_v37, main_v38] main_v39 (fun u => concatenate S262144x9 1 [⟨S262144x1, u 0⟩, ⟨S262144x1, u 1⟩, ⟨S262144x1, u 2⟩, ⟨S262144x1, u 3⟩, ⟨S262144x1, u 4⟩, ⟨S262144x1, u 5⟩, ⟨S262144x1, u 6⟩, ⟨S262144x1, u 7⟩, ⟨S262144x1, u 8⟩] concatenates_S262144x1_S262144x1_S262144x1_S262144x1_S262144x1_S262144x1_S262144x1_S262144x1_S262144x1_S262144x9_d1),
    StableHlo.reshape main_v39 main_v40 rfl shapeCasts_S262144x9_S262144x3x3,
    StableHlo.unary main_v4 main_v41 ((extractStridedSlice S262144x1 ![0, 2] · slices_S262144x3_S262144x1_0_2) : (⟨S262144x3, .f32⟩ : BufTy).Contents (Elt F) → (⟨S262144x1, .f32⟩ : BufTy).Contents (Elt F)),
    StableHlo.reshape main_v41 main_v42 rfl shapeCasts_S262144x1_S262144,
    StableHlo.unary main_v42 main_v43 (Host.cos : (⟨S262144, .f32⟩ : BufTy).Contents (Elt F) → (⟨S262144, .f32⟩ : BufTy).Contents (Elt F)),
    StableHlo.unary main_v42 main_v44 (Host.sin : (⟨S262144, .f32⟩ : BufTy).Contents (Elt F) → (⟨S262144, .f32⟩ : BufTy).Contents (Elt F)),
    StableHlo.nullary main_cst_5 (constant S_ .f32 0x3F800000#32),
    StableHlo.unary main_cst_5 main_v45 (broadcastInDim S262144 ![] bcast_S_S262144 : (⟨S_, .f32⟩ : BufTy).Contents (Elt F) → (⟨S262144, .f32⟩ : BufTy).Contents (Elt F)),
    StableHlo.nullary main_cst_6 (constant S_ .f32 0x00000000#32),
    StableHlo.unary main_cst_6 main_v46 (broadcastInDim S262144 ![] bcast_S_S262144 : (⟨S_, .f32⟩ : BufTy).Contents (Elt F) → (⟨S262144, .f32⟩ : BufTy).Contents (Elt F)),
    StableHlo.unary main_v44 main_v47 (Host.negf : (⟨S262144, .f32⟩ : BufTy).Contents (Elt F) → (⟨S262144, .f32⟩ : BufTy).Contents (Elt F)),
    StableHlo.unary main_v43 main_v48 (broadcastInDim S262144x1 ![0] bcast_S262144_S262144x1_0 : (⟨S262144, .f32⟩ : BufTy).Contents (Elt F) → (⟨S262144x1, .f32⟩ : BufTy).Contents (Elt F)),
    StableHlo.unary main_v46 main_v49 (broadcastInDim S262144x1 ![0] bcast_S262144_S262144x1_0 : (⟨S262144, .f32⟩ : BufTy).Contents (Elt F) → (⟨S262144x1, .f32⟩ : BufTy).Contents (Elt F)),
    StableHlo.unary main_v44 main_v50 (broadcastInDim S262144x1 ![0] bcast_S262144_S262144x1_0 : (⟨S262144, .f32⟩ : BufTy).Contents (Elt F) → (⟨S262144x1, .f32⟩ : BufTy).Contents (Elt F)),
    StableHlo.unary main_v46 main_v51 (broadcastInDim S262144x1 ![0] bcast_S262144_S262144x1_0 : (⟨S262144, .f32⟩ : BufTy).Contents (Elt F) → (⟨S262144x1, .f32⟩ : BufTy).Contents (Elt F)),
    StableHlo.unary main_v45 main_v52 (broadcastInDim S262144x1 ![0] bcast_S262144_S262144x1_0 : (⟨S262144, .f32⟩ : BufTy).Contents (Elt F) → (⟨S262144x1, .f32⟩ : BufTy).Contents (Elt F)),
    StableHlo.unary main_v46 main_v53 (broadcastInDim S262144x1 ![0] bcast_S262144_S262144x1_0 : (⟨S262144, .f32⟩ : BufTy).Contents (Elt F) → (⟨S262144x1, .f32⟩ : BufTy).Contents (Elt F)),
    StableHlo.unary main_v47 main_v54 (broadcastInDim S262144x1 ![0] bcast_S262144_S262144x1_0 : (⟨S262144, .f32⟩ : BufTy).Contents (Elt F) → (⟨S262144x1, .f32⟩ : BufTy).Contents (Elt F)),
    StableHlo.unary main_v46 main_v55 (broadcastInDim S262144x1 ![0] bcast_S262144_S262144x1_0 : (⟨S262144, .f32⟩ : BufTy).Contents (Elt F) → (⟨S262144x1, .f32⟩ : BufTy).Contents (Elt F)),
    StableHlo.unary main_v43 main_v56 (broadcastInDim S262144x1 ![0] bcast_S262144_S262144x1_0 : (⟨S262144, .f32⟩ : BufTy).Contents (Elt F) → (⟨S262144x1, .f32⟩ : BufTy).Contents (Elt F)),
    StableHlo.nary ![main_v48, main_v49, main_v50, main_v51, main_v52, main_v53, main_v54, main_v55, main_v56] main_v57 (fun u => concatenate S262144x9 1 [⟨S262144x1, u 0⟩, ⟨S262144x1, u 1⟩, ⟨S262144x1, u 2⟩, ⟨S262144x1, u 3⟩, ⟨S262144x1, u 4⟩, ⟨S262144x1, u 5⟩, ⟨S262144x1, u 6⟩, ⟨S262144x1, u 7⟩, ⟨S262144x1, u 8⟩] concatenates_S262144x1_S262144x1_S262144x1_S262144x1_S262144x1_S262144x1_S262144x1_S262144x1_S262144x1_S262144x9_d1),
    StableHlo.reshape main_v57 main_v58 rfl shapeCasts_S262144x9_S262144x3x3,
    StableHlo.binary main_v22 main_v40 main_v59 ((fun l r => Host.dotGeneral dot_S262144x3x3_S262144x3x3_S262144x3x3_2_1_1_2_0_0 none l r) : (⟨S262144x3x3, .f32⟩ : BufTy).Contents (Elt F) → (⟨S262144x3x3, .f32⟩ : BufTy).Contents (Elt F) → (⟨S262144x3x3, .f32⟩ : BufTy).Contents (Elt F)),
    StableHlo.binary main_v59 main_v58 main_v60 ((fun l r => Host.dotGeneral dot_S262144x3x3_S262144x3x3_S262144x3x3_2_1_1_2_0_0 none l r) : (⟨S262144x3x3, .f32⟩ : BufTy).Contents (Elt F) → (⟨S262144x3x3, .f32⟩ : BufTy).Contents (Elt F) → (⟨S262144x3x3, .f32⟩ : BufTy).Contents (Elt F)),
    StableHlo.unary main_cst main_v61 (broadcastInDim S1x8x3 ![1, 2] bcast_S8x3_S1x8x3_1_2 : (⟨S8x3, .f32⟩ : BufTy).Contents (Elt F) → (⟨S1x8x3, .f32⟩ : BufTy).Contents (Elt F)),
    StableHlo.unary main_v3 main_v62 (broadcastInDim S262144x1x3 ![0, 2] bcast_S262144x3_S262144x1x3_0_2 : (⟨S262144x3, .f32⟩ : BufTy).Contents (Elt F) → (⟨S262144x1x3, .f32⟩ : BufTy).Contents (Elt F)),
    StableHlo.unary main_v61 main_v63 (broadcastInDim S262144x8x3 ![0, 1, 2] bcast_S1x8x3_S262144x8x3_0_1_2 : (⟨S1x8x3, .f32⟩ : BufTy).Contents (Elt F) → (⟨S262144x8x3, .f32⟩ : BufTy).Contents (Elt F)),
    StableHlo.unary main_v62 main_v64 (broadcastInDim S262144x8x3 ![0, 1, 2] bcast_S262144x1x3_S262144x8x3_0_1_2 : (⟨S262144x1x3, .f32⟩ : BufTy).Contents (Elt F) → (⟨S262144x8x3, .f32⟩ : BufTy).Contents (Elt F)),
    StableHlo.binary main_v63 main_v64 main_v65 (mulf : (⟨S262144x8x3, .f32⟩ : BufTy).Contents (Elt F) → (⟨S262144x8x3, .f32⟩ : BufTy).Contents (Elt F) → (⟨S262144x8x3, .f32⟩ : BufTy).Contents (Elt F)),
    StableHlo.binary main_v65 main_v60 main_v66 ((fun l r => Host.dotGeneral dot_S262144x8x3_S262144x3x3_S262144x8x3_2_2_1_1_0_0 none l r) : (⟨S262144x8x3, .f32⟩ : BufTy).Contents (Elt F) → (⟨S262144x3x3, .f32⟩ : BufTy).Contents (Elt F) → (⟨S262144x8x3, .f32⟩ : BufTy).Contents (Elt F)),
    StableHlo.unary main_v0 main_v67 (broadcastInDim S262144x1x3 ![0, 2] bcast_S262144x3_S262144x1x3_0_2 : (⟨S262144x3, .f32⟩ : BufTy).Contents (Elt F) → (⟨S262144x1x3, .f32⟩ : BufTy).Contents (Elt F)),
    StableHlo.unary main_v67 main_v68 (broadcastInDim S262144x8x3 ![0, 1, 2] bcast_S262144x1x3_S262144x8x3_0_1_2 : (⟨S262144x1x3, .f32⟩ : BufTy).Contents (Elt F) → (⟨S262144x8x3, .f32⟩ : BufTy).Contents (Elt F)),
    StableHlo.binary main_v68 main_v66 main_v69 (addf : (⟨S262144x8x3, .f32⟩ : BufTy).Contents (Elt F) → (⟨S262144x8x3, .f32⟩ : BufTy).Contents (Elt F) → (⟨S262144x8x3, .f32⟩ : BufTy).Contents (Elt F)) ]

/-- The target boxes' corners: 77 operations. -/
abbrev opsB : List (HloOp τ sig (Elt F)) :=
  [ StableHlo.unary main_arg1 main_v70 ((extractStridedSlice S262144x3 ![0, 0] · slices_S262144x9_S262144x3_0_0) : (⟨S262144x9, .f32⟩ : BufTy).Contents (Elt F) → (⟨S262144x3, .f32⟩ : BufTy).Contents (Elt F)),
    StableHlo.unary main_arg1 main_v71 ((extractStridedSlice S262144x3 ![0, 3] · slices_S262144x9_S262144x3_0_3) : (⟨S262144x9, .f32⟩ : BufTy).Contents (Elt F) → (⟨S262144x3, .f32⟩ : BufTy).Contents (Elt F)),
    StableHlo.nullary main_cst_7 (constant S_ .f32 0x3F000000#32),
    StableHlo.unary main_cst_7 main_v72 (broadcastInDim S262144x3 ![] bcast_S_S262144x3 : (⟨S_, .f32⟩ : BufTy).Contents (Elt F) → (⟨S262144x3, .f32⟩ : BufTy).Contents (Elt F)),
    StableHlo.binary main_v71 main_v72 main_v73 (mulf : (⟨S262144x3, .f32⟩ : BufTy).Contents (Elt F) → (⟨S262144x3, .f32⟩ : BufTy).Contents (Elt F) → (⟨S262144x3, .f32⟩ : BufTy).Contents (Elt F)),
    StableHlo.unary main_arg1 main_v74 ((extractStridedSlice S262144x3 ![0, 6] · slices_S262144x9_S262144x3_0_6) : (⟨S262144x9, .f32⟩ : BufTy).Contents (Elt F) → (⟨S262144x3, .f32⟩ : BufTy).Contents (Elt F)),
    StableHlo.unary main_v74 main_v75 ((extractStridedSlice S262144x1 ![0, 0] · slices_S262144x3_S262144x1_0_0) : (⟨S262144x3, .f32⟩ : BufTy).Contents (Elt F) → (⟨S262144x1, .f32⟩ : BufTy).Contents (Elt F)),
    StableHlo.reshape main_v75 main_v76 rfl shapeCasts_S262144x1_S262144,
    StableHlo.unary main_v76 main_v77 (Host.cos : (⟨S262144, .f32⟩ : BufTy).Contents (Elt F) → (⟨S262144, .f32⟩ : BufTy).Contents (Elt F)),
    StableHlo.unary main_v76 main_v78 (Host.sin : (⟨S262144, .f32⟩ : BufTy).Contents (Elt F) → (⟨S262144, .f32⟩ : BufTy).Contents (Elt F)),
    StableHlo.nullary main_cst_8 (constant S_ .f32 0x3F800000#32),
    StableHlo.unary main_cst_8 main_v79 (broadcastInDim S262144 ![] bcast_S_S262144 : (⟨S_, .f32⟩ : BufTy).Contents (Elt F) → (⟨S262144, .f32⟩ : BufTy).Contents (Elt F)),
    StableHlo.nullary main_cst_9 (constant S_ .f32 0x00000000#32),
    StableHlo.unary main_cst_9 main_v80 (broadcastInDim S262144 ![] bcast_S_S262144 : (⟨S_, .f32⟩ : BufTy).Contents (Elt F) → (⟨S262144, .f32⟩ : BufTy).Contents (Elt F)),
    StableHlo.unary main_v78 main_v81 (Host.negf : (⟨S262144, .f32⟩ : BufTy).Contents (Elt F) → (⟨S262144, .f32⟩ : BufTy).Contents (Elt F)),
    StableHlo.unary main_v77 main_v82 (broadcastInDim S262144x1 ![0] bcast_S262144_S262144x1_0 : (⟨S262144, .f32⟩ : BufTy).Contents (Elt F) → (⟨S262144x1, .f32⟩ : BufTy).Contents (Elt F)),
    StableHlo.unary main_v81 main_v83 (broadcastInDim S262144x1 ![0] bcast_S262144_S262144x1_0 : (⟨S262144, .f32⟩ : BufTy).Contents (Elt F) → (⟨S262144x1, .f32⟩ : BufTy).Contents (Elt F)),
    StableHlo.unary main_v80 main_v84 (broadcastInDim S262144x1 ![0] bcast_S262144_S262144x1_0 : (⟨S262144, .f32⟩ : BufTy).Contents (Elt F) → (⟨S262144x1, .f32⟩ : BufTy).Contents (Elt F)),
    StableHlo.unary main_v78 main_v85 (broadcastInDim S262144x1 ![0] bcast_S262144_S262144x1_0 : (⟨S262144, .f32⟩ : BufTy).Contents (Elt F) → (⟨S262144x1, .f32⟩ : BufTy).Contents (Elt F)),
    StableHlo.unary main_v77 main_v86 (broadcastInDim S262144x1 ![0] bcast_S262144_S262144x1_0 : (⟨S262144, .f32⟩ : BufTy).Contents (Elt F) → (⟨S262144x1, .f32⟩ : BufTy).Contents (Elt F)),
    StableHlo.unary main_v80 main_v87 (broadcastInDim S262144x1 ![0] bcast_S262144_S262144x1_0 : (⟨S262144, .f32⟩ : BufTy).Contents (Elt F) → (⟨S262144x1, .f32⟩ : BufTy).Contents (Elt F)),
    StableHlo.unary main_v80 main_v88 (broadcastInDim S262144x1 ![0] bcast_S262144_S262144x1_0 : (⟨S262144, .f32⟩ : BufTy).Contents (Elt F) → (⟨S262144x1, .f32⟩ : BufTy).Contents (Elt F)),
    StableHlo.unary main_v80 main_v89 (broadcastInDim S262144x1 ![0] bcast_S262144_S262144x1_0 : (⟨S262144, .f32⟩ : BufTy).Contents (Elt F) → (⟨S262144x1, .f32⟩ : BufTy).Contents (Elt F)),
    StableHlo.unary main_v79 main_v90 (broadcastInDim S262144x1 ![0] bcast_S262144_S262144x1_0 : (⟨S262144, .f32⟩ : BufTy).Contents (Elt F) → (⟨S262144x1, .f32⟩ : BufTy).Contents (Elt F)),
    StableHlo.nary ![main_v82, main_v83, main_v84, main_v85, main_v86, main_v87, main_v88, main_v89, main_v90] main_v91 (fun u => concatenate S262144x9 1 [⟨S262144x1, u 0⟩, ⟨S262144x1, u 1⟩, ⟨S262144x1, u 2⟩, ⟨S262144x1, u 3⟩, ⟨S262144x1, u 4⟩, ⟨S262144x1, u 5⟩, ⟨S262144x1, u 6⟩, ⟨S262144x1, u 7⟩, ⟨S262144x1, u 8⟩] concatenates_S262144x1_S262144x1_S262144x1_S262144x1_S262144x1_S262144x1_S262144x1_S262144x1_S262144x1_S262144x9_d1),
    StableHlo.reshape main_v91 main_v92 rfl shapeCasts_S262144x9_S262144x3x3,
    StableHlo.unary main_v74 main_v93 ((extractStridedSlice S262144x1 ![0, 1] · slices_S262144x3_S262144x1_0_1) : (⟨S262144x3, .f32⟩ : BufTy).Contents (Elt F) → (⟨S262144x1, .f32⟩ : BufTy).Contents (Elt F)),
    StableHlo.reshape main_v93 main_v94 rfl shapeCasts_S262144x1_S262144,
    StableHlo.unary main_v94 main_v95 (Host.cos : (⟨S262144, .f32⟩ : BufTy).Contents (Elt F) → (⟨S262144, .f32⟩ : BufTy).Contents (Elt F)),
    StableHlo.unary main_v94 main_v96 (Host.sin : (⟨S262144, .f32⟩ : BufTy).Contents (Elt F) → (⟨S262144, .f32⟩ : BufTy).Contents (Elt F)),
    StableHlo.nullary main_cst_10 (constant S_ .f32 0x3F800000#32),
    StableHlo.unary main_cst_10 main_v97 (broadcastInDim S262144 ![] bcast_S_S262144 : (⟨S_, .f32⟩ : BufTy).Contents (Elt F) → (⟨S262144, .f32⟩ : BufTy).Contents (Elt F)),
    StableHlo.nullary main_cst_11 (constant S_ .f32 0x00000000#32),
    StableHlo.unary main_cst_11 main_v98 (broadcastInDim S262144 ![] bcast_S_S262144 : (⟨S_, .f32⟩ : BufTy).Contents (Elt F) → (⟨S262144, .f32⟩ : BufTy).Contents (Elt F)),
    StableHlo.unary main_v96 main_v99 (Host.negf : (⟨S262144, .f32⟩ : BufTy).Contents (Elt F) → (⟨S262144, .f32⟩ : BufTy).Contents (Elt F)),
    StableHlo.unary main_v97 main_v100 (broadcastInDim S262144x1 ![0] bcast_S262144_S262144x1_0 : (⟨S262144, .f32⟩ : BufTy).Contents (Elt F) → (⟨S262144x1, .f32⟩ : BufTy).Contents (Elt F)),
    StableHlo.unary main_v98 main_v101 (broadcastInDim S262144x1 ![0] bcast_S262144_S262144x1_0 : (⟨S262144, .f32⟩ : BufTy).Contents (Elt F) → (⟨S262144x1, .f32⟩ : BufTy).Contents (Elt F)),
    StableHlo.unary main_v98 main_v102 (broadcastInDim S262144x1 ![0] bcast_S262144_S262144x1_0 : (⟨S262144, .f32⟩ : BufTy).Contents (Elt F) → (⟨S262144x1, .f32⟩ : BufTy).Contents (Elt F)),
    StableHlo.unary main_v98 main_v103 (broadcastInDim S262144x1 ![0] bcast_S262144_S262144x1_0 : (⟨S262144, .f32⟩ : BufTy).Contents (Elt F) → (⟨S262144x1, .f32⟩ : BufTy).Contents (Elt F)),
    StableHlo.unary main_v95 main_v104 (broadcastInDim S262144x1 ![0] bcast_S262144_S262144x1_0 : (⟨S262144, .f32⟩ : BufTy).Contents (Elt F) → (⟨S262144x1, .f32⟩ : BufTy).Contents (Elt F)),
    StableHlo.unary main_v99 main_v105 (broadcastInDim S262144x1 ![0] bcast_S262144_S262144x1_0 : (⟨S262144, .f32⟩ : BufTy).Contents (Elt F) → (⟨S262144x1, .f32⟩ : BufTy).Contents (Elt F)),
    StableHlo.unary main_v98 main_v106 (broadcastInDim S262144x1 ![0] bcast_S262144_S262144x1_0 : (⟨S262144, .f32⟩ : BufTy).Contents (Elt F) → (⟨S262144x1, .f32⟩ : BufTy).Contents (Elt F)),
    StableHlo.unary main_v96 main_v107 (broadcastInDim S262144x1 ![0] bcast_S262144_S262144x1_0 : (⟨S262144, .f32⟩ : BufTy).Contents (Elt F) → (⟨S262144x1, .f32⟩ : BufTy).Contents (Elt F)),
    StableHlo.unary main_v95 main_v108 (broadcastInDim S262144x1 ![0] bcast_S262144_S262144x1_0 : (⟨S262144, .f32⟩ : BufTy).Contents (Elt F) → (⟨S262144x1, .f32⟩ : BufTy).Contents (Elt F)),
    StableHlo.nary ![main_v100, main_v101, main_v102, main_v103, main_v104, main_v105, main_v106, main_v107, main_v108] main_v109 (fun u => concatenate S262144x9 1 [⟨S262144x1, u 0⟩, ⟨S262144x1, u 1⟩, ⟨S262144x1, u 2⟩, ⟨S262144x1, u 3⟩, ⟨S262144x1, u 4⟩, ⟨S262144x1, u 5⟩, ⟨S262144x1, u 6⟩, ⟨S262144x1, u 7⟩, ⟨S262144x1, u 8⟩] concatenates_S262144x1_S262144x1_S262144x1_S262144x1_S262144x1_S262144x1_S262144x1_S262144x1_S262144x1_S262144x9_d1),
    StableHlo.reshape main_v109 main_v110 rfl shapeCasts_S262144x9_S262144x3x3,
    StableHlo.unary main_v74 main_v111 ((extractStridedSlice S262144x1 ![0, 2] · slices_S262144x3_S262144x1_0_2) : (⟨S262144x3, .f32⟩ : BufTy).Contents (Elt F) → (⟨S262144x1, .f32⟩ : BufTy).Contents (Elt F)),
    StableHlo.reshape main_v111 main_v112 rfl shapeCasts_S262144x1_S262144,
    StableHlo.unary main_v112 main_v113 (Host.cos : (⟨S262144, .f32⟩ : BufTy).Contents (Elt F) → (⟨S262144, .f32⟩ : BufTy).Contents (Elt F)),
    StableHlo.unary main_v112 main_v114 (Host.sin : (⟨S262144, .f32⟩ : BufTy).Contents (Elt F) → (⟨S262144, .f32⟩ : BufTy).Contents (Elt F)),
    StableHlo.nullary main_cst_12 (constant S_ .f32 0x3F800000#32),
    StableHlo.unary main_cst_12 main_v115 (broadcastInDim S262144 ![] bcast_S_S262144 : (⟨S_, .f32⟩ : BufTy).Contents (Elt F) → (⟨S262144, .f32⟩ : BufTy).Contents (Elt F)),
    StableHlo.nullary main_cst_13 (constant S_ .f32 0x00000000#32),
    StableHlo.unary main_cst_13 main_v116 (broadcastInDim S262144 ![] bcast_S_S262144 : (⟨S_, .f32⟩ : BufTy).Contents (Elt F) → (⟨S262144, .f32⟩ : BufTy).Contents (Elt F)),
    StableHlo.unary main_v114 main_v117 (Host.negf : (⟨S262144, .f32⟩ : BufTy).Contents (Elt F) → (⟨S262144, .f32⟩ : BufTy).Contents (Elt F)),
    StableHlo.unary main_v113 main_v118 (broadcastInDim S262144x1 ![0] bcast_S262144_S262144x1_0 : (⟨S262144, .f32⟩ : BufTy).Contents (Elt F) → (⟨S262144x1, .f32⟩ : BufTy).Contents (Elt F)),
    StableHlo.unary main_v116 main_v119 (broadcastInDim S262144x1 ![0] bcast_S262144_S262144x1_0 : (⟨S262144, .f32⟩ : BufTy).Contents (Elt F) → (⟨S262144x1, .f32⟩ : BufTy).Contents (Elt F)),
    StableHlo.unary main_v114 main_v120 (broadcastInDim S262144x1 ![0] bcast_S262144_S262144x1_0 : (⟨S262144, .f32⟩ : BufTy).Contents (Elt F) → (⟨S262144x1, .f32⟩ : BufTy).Contents (Elt F)),
    StableHlo.unary main_v116 main_v121 (broadcastInDim S262144x1 ![0] bcast_S262144_S262144x1_0 : (⟨S262144, .f32⟩ : BufTy).Contents (Elt F) → (⟨S262144x1, .f32⟩ : BufTy).Contents (Elt F)),
    StableHlo.unary main_v115 main_v122 (broadcastInDim S262144x1 ![0] bcast_S262144_S262144x1_0 : (⟨S262144, .f32⟩ : BufTy).Contents (Elt F) → (⟨S262144x1, .f32⟩ : BufTy).Contents (Elt F)),
    StableHlo.unary main_v116 main_v123 (broadcastInDim S262144x1 ![0] bcast_S262144_S262144x1_0 : (⟨S262144, .f32⟩ : BufTy).Contents (Elt F) → (⟨S262144x1, .f32⟩ : BufTy).Contents (Elt F)),
    StableHlo.unary main_v117 main_v124 (broadcastInDim S262144x1 ![0] bcast_S262144_S262144x1_0 : (⟨S262144, .f32⟩ : BufTy).Contents (Elt F) → (⟨S262144x1, .f32⟩ : BufTy).Contents (Elt F)),
    StableHlo.unary main_v116 main_v125 (broadcastInDim S262144x1 ![0] bcast_S262144_S262144x1_0 : (⟨S262144, .f32⟩ : BufTy).Contents (Elt F) → (⟨S262144x1, .f32⟩ : BufTy).Contents (Elt F)),
    StableHlo.unary main_v113 main_v126 (broadcastInDim S262144x1 ![0] bcast_S262144_S262144x1_0 : (⟨S262144, .f32⟩ : BufTy).Contents (Elt F) → (⟨S262144x1, .f32⟩ : BufTy).Contents (Elt F)),
    StableHlo.nary ![main_v118, main_v119, main_v120, main_v121, main_v122, main_v123, main_v124, main_v125, main_v126] main_v127 (fun u => concatenate S262144x9 1 [⟨S262144x1, u 0⟩, ⟨S262144x1, u 1⟩, ⟨S262144x1, u 2⟩, ⟨S262144x1, u 3⟩, ⟨S262144x1, u 4⟩, ⟨S262144x1, u 5⟩, ⟨S262144x1, u 6⟩, ⟨S262144x1, u 7⟩, ⟨S262144x1, u 8⟩] concatenates_S262144x1_S262144x1_S262144x1_S262144x1_S262144x1_S262144x1_S262144x1_S262144x1_S262144x1_S262144x9_d1),
    StableHlo.reshape main_v127 main_v128 rfl shapeCasts_S262144x9_S262144x3x3,
    StableHlo.binary main_v92 main_v110 main_v129 ((fun l r => Host.dotGeneral dot_S262144x3x3_S262144x3x3_S262144x3x3_2_1_1_2_0_0 none l r) : (⟨S262144x3x3, .f32⟩ : BufTy).Contents (Elt F) → (⟨S262144x3x3, .f32⟩ : BufTy).Contents (Elt F) → (⟨S262144x3x3, .f32⟩ : BufTy).Contents (Elt F)),
    StableHlo.binary main_v129 main_v128 main_v130 ((fun l r => Host.dotGeneral dot_S262144x3x3_S262144x3x3_S262144x3x3_2_1_1_2_0_0 none l r) : (⟨S262144x3x3, .f32⟩ : BufTy).Contents (Elt F) → (⟨S262144x3x3, .f32⟩ : BufTy).Contents (Elt F) → (⟨S262144x3x3, .f32⟩ : BufTy).Contents (Elt F)),
    StableHlo.unary main_cst main_v131 (broadcastInDim S1x8x3 ![1, 2] bcast_S8x3_S1x8x3_1_2 : (⟨S8x3, .f32⟩ : BufTy).Contents (Elt F) → (⟨S1x8x3, .f32⟩ : BufTy).Contents (Elt F)),
    StableHlo.unary main_v73 main_v132 (broadcastInDim S262144x1x3 ![0, 2] bcast_S262144x3_S262144x1x3_0_2 : (⟨S262144x3, .f32⟩ : BufTy).Contents (Elt F) → (⟨S262144x1x3, .f32⟩ : BufTy).Contents (Elt F)),
    StableHlo.unary main_v131 main_v133 (broadcastInDim S262144x8x3 ![0, 1, 2] bcast_S1x8x3_S262144x8x3_0_1_2 : (⟨S1x8x3, .f32⟩ : BufTy).Contents (Elt F) → (⟨S262144x8x3, .f32⟩ : BufTy).Contents (Elt F)),
    StableHlo.unary main_v132 main_v134 (broadcastInDim S262144x8x3 ![0, 1, 2] bcast_S262144x1x3_S262144x8x3_0_1_2 : (⟨S262144x1x3, .f32⟩ : BufTy).Contents (Elt F) → (⟨S262144x8x3, .f32⟩ : BufTy).Contents (Elt F)),
    StableHlo.binary main_v133 main_v134 main_v135 (mulf : (⟨S262144x8x3, .f32⟩ : BufTy).Contents (Elt F) → (⟨S262144x8x3, .f32⟩ : BufTy).Contents (Elt F) → (⟨S262144x8x3, .f32⟩ : BufTy).Contents (Elt F)),
    StableHlo.binary main_v135 main_v130 main_v136 ((fun l r => Host.dotGeneral dot_S262144x8x3_S262144x3x3_S262144x8x3_2_2_1_1_0_0 none l r) : (⟨S262144x8x3, .f32⟩ : BufTy).Contents (Elt F) → (⟨S262144x3x3, .f32⟩ : BufTy).Contents (Elt F) → (⟨S262144x8x3, .f32⟩ : BufTy).Contents (Elt F)),
    StableHlo.unary main_v70 main_v137 (broadcastInDim S262144x1x3 ![0, 2] bcast_S262144x3_S262144x1x3_0_2 : (⟨S262144x3, .f32⟩ : BufTy).Contents (Elt F) → (⟨S262144x1x3, .f32⟩ : BufTy).Contents (Elt F)),
    StableHlo.unary main_v137 main_v138 (broadcastInDim S262144x8x3 ![0, 1, 2] bcast_S262144x1x3_S262144x8x3_0_1_2 : (⟨S262144x1x3, .f32⟩ : BufTy).Contents (Elt F) → (⟨S262144x8x3, .f32⟩ : BufTy).Contents (Elt F)),
    StableHlo.binary main_v138 main_v136 main_v139 (addf : (⟨S262144x8x3, .f32⟩ : BufTy).Contents (Elt F) → (⟨S262144x8x3, .f32⟩ : BufTy).Contents (Elt F) → (⟨S262144x8x3, .f32⟩ : BufTy).Contents (Elt F)) ]

/-- Differences, squares, the sum over coordinates, the minimum over target corners, the sum over rows and source
    corners, the quotient: 16 operations. -/
abbrev opsC : List (HloOp τ sig (Elt F)) :=
  [ StableHlo.unary main_v69 main_v140 (broadcastInDim S262144x8x1x3 ![0, 1, 3] bcast_S262144x8x3_S262144x8x1x3_0_1_3 : (⟨S262144x8x3, .f32⟩ : BufTy).Contents (Elt F) → (⟨S262144x8x1x3, .f32⟩ : BufTy).Contents (Elt F)),
    StableHlo.unary main_v139 main_v141 (broadcastInDim S262144x1x8x3 ![0, 2, 3] bcast_S262144x8x3_S262144x1x8x3_0_2_3 : (⟨S262144x8x3, .f32⟩ : BufTy).Contents (Elt F) → (⟨S262144x1x8x3, .f32⟩ : BufTy).Contents (Elt F)),
    StableHlo.unary main_v140 main_v142 (broadcastInDim S262144x8x8x3 ![0, 1, 2, 3] bcast_S262144x8x1x3_S262144x8x8x3_0_1_2_3 : (⟨S262144x8x1x3, .f32⟩ : BufTy).Contents (Elt F) → (⟨S262144x8x8x3, .f32⟩ : BufTy).Contents (Elt F)),
    StableHlo.unary main_v141 main_v143 (broadcastInDim S262144x8x8x3 ![0, 1, 2, 3] bcast_S262144x1x8x3_S262144x8x8x3_0_1_2_3 : (⟨S262144x1x8x3, .f32⟩ : BufTy).Contents (Elt F) → (⟨S262144x8x8x3, .f32⟩ : BufTy).Contents (Elt F)),
    StableHlo.binary main_v142 main_v143 main_v144 (subf : (⟨S262144x8x8x3, .f32⟩ : BufTy).Contents (Elt F) → (⟨S262144x8x8x3, .f32⟩ : BufTy).Contents (Elt F) → (⟨S262144x8x8x3, .f32⟩ : BufTy).Contents (Elt F)),
    StableHlo.binary main_v144 main_v144 main_v145 (mulf : (⟨S262144x8x8x3, .f32⟩ : BufTy).Contents (Elt F) → (⟨S262144x8x8x3, .f32⟩ : BufTy).Contents (Elt F) → (⟨S262144x8x8x3, .f32⟩ : BufTy).Contents (Elt F)),
    StableHlo.nullary main_cst_14 (constant S_ .f32 0x00000000#32),
    StableHlo.binary main_v145 main_cst_14 main_v146 ((fun x v => Host.reduceAdd x v reducesTo_S262144x8x8x3_S262144x8x8_d3 h_S_) : (⟨S262144x8x8x3, .f32⟩ : BufTy).Contents (Elt F) → (⟨S_, .f32⟩ : BufTy).Contents (Elt F) → (⟨S262144x8x8, .f32⟩ : BufTy).Contents (Elt F)),
    StableHlo.nullary main_cst_15 (constant S_ .f32 0x7F800000#32),
    StableHlo.binary main_v146 main_cst_15 main_v147 ((fun x v => Host.reduce FloatOps.minimumf x v reducesTo_S262144x8x8_S262144x8_d2 h_S_) : (⟨S262144x8x8, .f32⟩ : BufTy).Contents (Elt F) → (⟨S_, .f32⟩ : BufTy).Contents (Elt F) → (⟨S262144x8, .f32⟩ : BufTy).Contents (Elt F)),
    StableHlo.nullary main_cst_16 (constant S_ .f32 0x00000000#32),
    StableHlo.binary main_v147 main_cst_16 main_v148 ((fun x v => Host.reduceAdd x v reducesTo_S262144x8_S_d0_1 h_S_) : (⟨S262144x8, .f32⟩ : BufTy).Contents (Elt F) → (⟨S_, .f32⟩ : BufTy).Contents (Elt F) → (⟨S_, .f32⟩ : BufTy).Contents (Elt F)),
    StableHlo.nullary main_cst_17 (constant S_ .f32 0x4A000000#32),
    StableHlo.binary main_v148 main_cst_17 main_v149 (Host.divf : (⟨S_, .f32⟩ : BufTy).Contents (Elt F) → (⟨S_, .f32⟩ : BufTy).Contents (Elt F) → (⟨S_, .f32⟩ : BufTy).Contents (Elt F)),
    StableHlo.nullary main_cst_18 (constant S_ .f32 0x3F800000#32),
    StableHlo.binary main_v149 main_cst_18 main_v150 (mulf : (⟨S_, .f32⟩ : BufTy).Contents (Elt F) → (⟨S_, .f32⟩ : BufTy).Contents (Elt F) → (⟨S_, .f32⟩ : BufTy).Contents (Elt F)) ]

/-- @main's 171 operations, in order. -/
abbrev ops : List (HloOp τ sig (Elt F)) := opsA ++ (opsB ++ opsC)

end Cert.ReferenceIdeal.RefRun

end
-- ==== Proof.RefRunBase.lean ====
/-
  The reference's @main as its list of 171 host operations, and what is true of the list before any value is read:
  @main is the list run in order; nothing is scoped; every operation touches TensorCore references only, allocates
  nothing, and writes neither argument; and the contents after the whole list are the third stretch's, run from the
  second's, run from the first's.
-/
import proofs.«131616_j75076028334308_2_alg».proof.Proof.RefOps
import Idealize.ShloMosaic.Lib.StableHlo.Run
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

/-- @main's three windows run in order are the 171 operations run in order: both sides compute to the same chain of
    operation steps. -/
theorem main_eq (c : Dev nD) : main (F := Ideal) c = StableHlo.seq (ops (F := Ideal)) := rfl

theorem scopedRefs_eq : (Finset.univ.filter fun b : Ref sig .tc => b.isScoped) = ∅ := by decide
theorem scopedSems_eq : (Finset.univ.filter fun sm : SemLoc sig => sm.isScoped .tc) = ∅ := by decide

namespace Main

/-- The contents after two stretches run one after the other: the second stretch's, from the first's. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih _

/-- A property of every operation of two lists holds of every operation of their concatenation. -/
theorem forall_append {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

/-! Every operation touches TensorCore references only. -/
theorem opsA_sub : (opsA (F := Ideal)).Forall fun op => op.bufs ⊆ tcRefs τ sig :=
  ⟨nullary_bufs_sub .., unary_bufs_sub .., unary_bufs_sub .., nullary_bufs_sub .., unary_bufs_sub .., binary_bufs_sub .., unary_bufs_sub .., unary_bufs_sub .., reshape_bufs_sub .., unary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., reshape_bufs_sub .., unary_bufs_sub .., reshape_bufs_sub .., unary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., reshape_bufs_sub .., unary_bufs_sub .., reshape_bufs_sub .., unary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., reshape_bufs_sub .., binary_bufs_sub .., binary_bufs_sub .., unary_bufs_sub .., unary_bufs_sub .., unary_bufs_sub .., unary_bufs_sub .., binary_bufs_sub .., binary_bufs_sub .., unary_bufs_sub .., unary_bufs_sub .., binary_bufs_sub ..⟩
theorem opsB_sub : (opsB (F := Ideal)).Forall fun op => op.bufs ⊆ tcRefs τ sig :=
  ⟨unary_bufs_sub .., unary_bufs_sub .., nullary_bufs_sub .., unary_bufs_sub .., binary_bufs_sub .., unary_bufs_sub .., unary_bufs_sub .., reshape_bufs_sub .., unary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., reshape_bufs_sub .., unary_bufs_sub .., reshape_bufs_sub .., unary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., reshape_bufs_sub .., unary_bufs_sub .., reshape_bufs_sub .., unary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., reshape_bufs_sub .., binary_bufs_sub .., binary_bufs_sub .., unary_bufs_sub .., unary_bufs_sub .., unary_bufs_sub .., unary_bufs_sub .., binary_bufs_sub .., binary_bufs_sub .., unary_bufs_sub .., unary_bufs_sub .., binary_bufs_sub ..⟩
theorem opsC_sub : (opsC (F := Ideal)).Forall fun op => op.bufs ⊆ tcRefs τ sig :=
  ⟨unary_bufs_sub .., unary_bufs_sub .., unary_bufs_sub .., unary_bufs_sub .., binary_bufs_sub .., binary_bufs_sub .., nullary_bufs_sub .., binary_bufs_sub .., nullary_bufs_sub .., binary_bufs_sub .., nullary_bufs_sub .., binary_bufs_sub .., nullary_bufs_sub .., binary_bufs_sub .., nullary_bufs_sub .., binary_bufs_sub ..⟩

/-! No operation allocates. -/
theorem opsA_fresh : (opsA (F := Ideal)).Forall fun op => op.fresh = ∅ := by
  simp only [List.Forall]; repeat' constructor
theorem opsB_fresh : (opsB (F := Ideal)).Forall fun op => op.fresh = ∅ := by
  simp only [List.Forall]; repeat' constructor
theorem opsC_fresh : (opsC (F := Ideal)).Forall fun op => op.fresh = ∅ := by
  simp only [List.Forall]; repeat' constructor
theorem ops_fresh : ∀ op ∈ ops (F := Ideal), op.fresh = ∅ :=
  List.forall_iff_forall_mem.mp (forall_append opsA_fresh (forall_append opsB_fresh opsC_fresh))

/-! No operation writes either argument. -/
theorem opsA_keeps : (opsA (F := Ideal)).Forall fun op =>
    Proc.devRef (τ := τ) .tc main_arg0 ∉ op.writes ∧ Proc.devRef (τ := τ) .tc main_arg1 ∉ op.writes := by
  simp only [List.Forall, nullary_writes, unary_writes, binary_writes, reshape_writes, nary_writes, Finset.mem_singleton]
  repeat' constructor
  all_goals exact devRef_ne_of_ne (by decide)
theorem opsB_keeps : (opsB (F := Ideal)).Forall fun op =>
    Proc.devRef (τ := τ) .tc main_arg0 ∉ op.writes ∧ Proc.devRef (τ := τ) .tc main_arg1 ∉ op.writes := by
  simp only [List.Forall, nullary_writes, unary_writes, binary_writes, reshape_writes, nary_writes, Finset.mem_singleton]
  repeat' constructor
  all_goals exact devRef_ne_of_ne (by decide)
theorem opsC_keeps : (opsC (F := Ideal)).Forall fun op =>
    Proc.devRef (τ := τ) .tc main_arg0 ∉ op.writes ∧ Proc.devRef (τ := τ) .tc main_arg1 ∉ op.writes := by
  simp only [List.Forall, nullary_writes, unary_writes, binary_writes, reshape_writes, nary_writes, Finset.mem_singleton]
  repeat' constructor
  all_goals exact devRef_ne_of_ne (by decide)
theorem ops_keeps : ∀ op ∈ ops (F := Ideal),
    Proc.devRef (τ := τ) .tc main_arg0 ∉ op.writes ∧ Proc.devRef (τ := τ) .tc main_arg1 ∉ op.writes :=
  List.forall_iff_forall_mem.mp (forall_append opsA_keeps (forall_append opsB_keeps opsC_keeps))

theorem after_arg0 (V : Valuation τ sig (Elt Ideal)) :
    after (ops (F := Ideal)) V (Proc.devRef .tc main_arg0) = V (Proc.devRef .tc main_arg0) :=
  after_of_forall_not_mem _ V fun op h => (ops_keeps op h).1
theorem after_arg1 (V : Valuation τ sig (Elt Ideal)) :
    after (ops (F := Ideal)) V (Proc.devRef .tc main_arg1) = V (Proc.devRef .tc main_arg1) :=
  after_of_forall_not_mem _ V fun op h => (ops_keeps op h).2

/-- The three stretches in order. -/
theorem after_ops (V : Valuation τ sig (Elt Ideal)) :
    after (ops (F := Ideal)) V = after opsC (after opsB (after opsA V)) :=
  (after_append opsA (opsB ++ opsC) V).trans (after_append opsB opsC _)

end Main

/-- Every one of the 171 operations touches TensorCore references only. -/
theorem ops_sub : (ops (F := Ideal)).Forall fun op => op.bufs ⊆ tcRefs τ sig :=
  Main.forall_append Main.opsA_sub (Main.forall_append Main.opsB_sub Main.opsC_sub)

end Cert.ReferenceIdeal.RefRun

end
-- ==== Proof.RefLayout.lean ====
/-
  The layout operations of the box-corner computation, each read at an index with literal coordinates.

  A slice of three columns of an N×9 array at column c is the array at column o + c; a one-column slice reshaped to a
  vector is that column; a scalar or a vector broadcast along new axes is the operand at the coordinates that remain;
  nine one-column pieces laid side by side, read at column c, are piece c; an N×9 array reshaped to N×3×3 has entry
  (n, i, k) at column 3·i + k. A product of two stacks of matrices contracted over one axis of each, read at an entry,
  is the three products summed from the left: once contracting the last axis of the left factor with the middle axis
  of the right (a matrix product), once the last axes of both (a product with the transpose).
-/
import proofs.«131616_j75076028334308_2_alg».proof.Proof.Gen.ReferenceIdeal
import Idealize.ShloMosaic.Lib.Pipeline.Value
import Idealize.ShloMosaic.Lib.StackMember

noncomputable section

namespace Cert.ReferenceIdeal.RefRun

open Cert.ReferenceIdeal Cert.ReferenceIdeal.Gen Idealize.ShloMosaic Idealize.ShloMosaic.ValueIdx

section Layout
variable {α : Type}

/-! ## Slices, the column reshape, and the broadcasts -/
theorem slice3_apply (o : Nat) (ho : o + 3 ≤ 9) (x : S262144x9.Idx → α) (h : S262144x9.Slices ![0, o] S262144x3) (n : Fin 262144) (c : Fin 3) :
    extractStridedSlice S262144x3 ![0, o] x h (ix2 n c) = x (ix2 n (⟨o + c.val, by have := c.isLt; omega⟩ : Fin 9)) :=
  extractStridedSlice_apply _ x h _ _ fun a => by
    match a with
    | ⟨0, _⟩ => show n.val = 0 + n.val; omega
    | ⟨1, _⟩ => rfl
theorem slice1_apply (o : Nat) (ho : o < 3) (x : S262144x3.Idx → α) (h : S262144x3.Slices ![0, o] S262144x1) (n : Fin 262144) (z : Fin 1) :
    extractStridedSlice S262144x1 ![0, o] x h (ix2 n z) = x (ix2 n (⟨o, ho⟩ : Fin 3)) :=
  extractStridedSlice_apply _ x h _ _ fun a => by
    match a with
    | ⟨0, _⟩ => show n.val = 0 + n.val; omega
    | ⟨1, _⟩ => show o = o + z.val; have := z.isLt; omega
theorem col_apply (x : S262144x1.Idx → α) (h : S262144x1.ShapeCasts S262144) (n : Fin 262144) :
    shapeCast S262144 x h (ix1 n) = x (ix2 n (0 : Fin 1)) :=
  shapeCast_apply x h _ _ (by rw [Shape.rowMajor_val_two, Shape.rowMajor_val_one]; show n.val * 1 + 0 = n.val; omega)
theorem splat1_apply (x : S_.Idx → α) (h : S_.BroadcastsInDim S262144 (![] : Fin 0 → Fin S262144.rank)) (n : Fin 262144) :
    broadcastInDim S262144 ![] h x (ix1 n) = x ix0 :=
  broadcastInDim_apply _ h x _ _ fun a => a.elim0
theorem tocol_apply (x : S262144.Idx → α) (h : S262144.BroadcastsInDim S262144x1 (![0] : Fin 1 → Fin S262144x1.rank)) (n : Fin 262144) (z : Fin 1) :
    broadcastInDim S262144x1 ![0] h x (ix2 n z) = x (ix1 n) :=
  broadcastInDim_apply _ h x _ _ fun a => by
    match a with
    | ⟨0, _⟩ => rfl

/-! ## Nine columns side by side, the reshape to 3×3 blocks, and the two-step broadcasts to N×8×3 -/
theorem cat9_apply (u : Fin 9 → (S262144x1.Idx → α))
    (h : Shape.Concatenates ([(⟨S262144x1, u 0⟩ : (s : Shape) × (s.Idx → α)), ⟨S262144x1, u 1⟩, ⟨S262144x1, u 2⟩, ⟨S262144x1, u 3⟩, ⟨S262144x1, u 4⟩,
      ⟨S262144x1, u 5⟩, ⟨S262144x1, u 6⟩, ⟨S262144x1, u 7⟩, ⟨S262144x1, u 8⟩].map (·.1)) S262144x9 1)
    (n : Fin 262144) (c : Fin 9) :
    concatenate S262144x9 1 [⟨S262144x1, u 0⟩, ⟨S262144x1, u 1⟩, ⟨S262144x1, u 2⟩, ⟨S262144x1, u 3⟩, ⟨S262144x1, u 4⟩,
      ⟨S262144x1, u 5⟩, ⟨S262144x1, u 6⟩, ⟨S262144x1, u 7⟩, ⟨S262144x1, u 8⟩] h (ix2 n c) = u c (ix2 n (0 : Fin 1)) := by
  have key : ∀ (k : Nat) (hk9 : k < 9), c.val = k →
      concatenate S262144x9 1 [⟨S262144x1, u 0⟩, ⟨S262144x1, u 1⟩, ⟨S262144x1, u 2⟩, ⟨S262144x1, u 3⟩, ⟨S262144x1, u 4⟩,
        ⟨S262144x1, u 5⟩, ⟨S262144x1, u 6⟩, ⟨S262144x1, u 7⟩, ⟨S262144x1, u 8⟩] h (ix2 n c) = u ⟨k, hk9⟩ (ix2 n (0 : Fin 1)) := by
    intro k hk9 hck
    refine concatenate_apply_piece (1 : Fin S262144x9.rank) _ h (ix2 n c) k (by simpa using hk9) S262144x1 (u ⟨k, hk9⟩) ?_ rfl k ?_
      (ix2 n (0 : Fin 1)) ?_ ?_
    · interval_cases k <;> rfl
    · interval_cases k <;> rfl
    · intro b hb
      match b with
      | ⟨0, _⟩ => rfl
      | ⟨1, _⟩ => exact absurd rfl hb
    · show k + 0 = c.val
      omega
  have := key c.val c.isLt rfl
  simpa using this
theorem mat_apply (x : S262144x9.Idx → α) (h : S262144x9.ShapeCasts S262144x3x3) (n : Fin 262144) (i k : Fin 3) :
    shapeCast S262144x3x3 x h (ix3 n i k) = x (ix2 n (⟨3 * i.val + k.val, by have := i.isLt; have := k.isLt; omega⟩ : Fin 9)) :=
  shapeCast_apply x h _ _ (by
    rw [Shape.rowMajor_val_two, Shape.rowMajor_val_three]
    show n.val * 9 + (3 * i.val + k.val) = (n.val * 3 + i.val) * 3 + k.val
    omega)
theorem sgnb_apply (x : S8x3.Idx → α) (h1 : S8x3.BroadcastsInDim S1x8x3 (![1, 2] : Fin 2 → Fin S1x8x3.rank))
    (h2 : S1x8x3.BroadcastsInDim S262144x8x3 (![0, 1, 2] : Fin 3 → Fin S262144x8x3.rank)) (n : Fin 262144) (k : Fin 8) (c : Fin 3) :
    broadcastInDim S262144x8x3 ![0, 1, 2] h2 (broadcastInDim S1x8x3 ![1, 2] h1 x) (ix3 n k c) = x (ix2 k c) := by
  refine (broadcastInDim_apply _ h2 _ _ (ix3 (0 : Fin 1) k c) fun a => ?_).trans
    (broadcastInDim_apply _ h1 x _ _ fun a => ?_)
  · match a with
    | ⟨0, _⟩ => rfl
    | ⟨1, _⟩ => rfl
    | ⟨2, _⟩ => rfl
  · match a with
    | ⟨0, _⟩ => rfl
    | ⟨1, _⟩ => rfl
theorem rowb_apply (x : S262144x3.Idx → α) (h1 : S262144x3.BroadcastsInDim S262144x1x3 (![0, 2] : Fin 2 → Fin S262144x1x3.rank))
    (h2 : S262144x1x3.BroadcastsInDim S262144x8x3 (![0, 1, 2] : Fin 3 → Fin S262144x8x3.rank)) (n : Fin 262144) (k : Fin 8) (c : Fin 3) :
    broadcastInDim S262144x8x3 ![0, 1, 2] h2 (broadcastInDim S262144x1x3 ![0, 2] h1 x) (ix3 n k c) = x (ix2 n c) := by
  refine (broadcastInDim_apply _ h2 _ _ (ix3 n (0 : Fin 1) c) fun a => ?_).trans
    (broadcastInDim_apply _ h1 x _ _ fun a => ?_)
  · match a with
    | ⟨0, _⟩ => rfl
    | ⟨1, _⟩ => rfl
    | ⟨2, _⟩ => rfl
  · match a with
    | ⟨0, _⟩ => rfl
    | ⟨1, _⟩ => rfl
/-- Nine one-column pieces side by side, read at column `c`: piece `c` at its only column. -/
theorem cat9_apply' (u0 u1 u2 u3 u4 u5 u6 u7 u8 : S262144x1.Idx → α)
    (h : Shape.Concatenates ([(⟨S262144x1, u0⟩ : (s : Shape) × (s.Idx → α)), ⟨S262144x1, u1⟩, ⟨S262144x1, u2⟩, ⟨S262144x1, u3⟩, ⟨S262144x1, u4⟩,
      ⟨S262144x1, u5⟩, ⟨S262144x1, u6⟩, ⟨S262144x1, u7⟩, ⟨S262144x1, u8⟩].map (·.1)) S262144x9 1)
    (n : Fin 262144) (c : Fin 9) :
    concatenate S262144x9 1 [⟨S262144x1, u0⟩, ⟨S262144x1, u1⟩, ⟨S262144x1, u2⟩, ⟨S262144x1, u3⟩, ⟨S262144x1, u4⟩,
      ⟨S262144x1, u5⟩, ⟨S262144x1, u6⟩, ⟨S262144x1, u7⟩, ⟨S262144x1, u8⟩] h (ix2 n c)
      = (![u0, u1, u2, u3, u4, u5, u6, u7, u8] c) (ix2 n (0 : Fin 1)) :=
  cat9_apply ![u0, u1, u2, u3, u4, u5, u6, u7, u8] h n c
end Layout

/-! ## The two contractions, as three-term sums -/

section Dots
open Idealize.ShloMosaic.StackMember
theorem dot1_apply (A B : FVec Ideal S262144x3x3 .f32) (n : Fin 262144) (i j : Fin 3) :
    Host.dotGeneral dot_S262144x3x3_S262144x3x3_S262144x3x3_2_1_1_2_0_0 none A B (ix3 n i j)
      = A (ix3 n i 0) * B (ix3 n 0 j) + A (ix3 n i 1) * B (ix3 n 1 j) + A (ix3 n i 2) * B (ix3 n 2 j) := by
  refine (dotGeneral_stack_apply (G := 262144) (m := 3) (n := 3) (k := 3)
    Facts₀.dot_S262144x3x3_S262144x3x3_S262144x3x3_2_1_1_2_0_0_wf none A B n i j).trans ?_
  rw [Fin.sum_univ_three]

theorem dot2_apply (A : FVec Ideal S262144x8x3 .f32) (B : FVec Ideal S262144x3x3 .f32) (n : Fin 262144) (k : Fin 8) (d : Fin 3) :
    Host.dotGeneral dot_S262144x8x3_S262144x3x3_S262144x8x3_2_2_1_1_0_0 none A B (ix3 n k d)
      = A (ix3 n k 0) * B (ix3 n d 0) + A (ix3 n k 1) * B (ix3 n d 1) + A (ix3 n k 2) * B (ix3 n d 2) := by
  show FloatOps.dotGeneral _ none _ A B (ix3 n k d) = _
  rw [Ideal.dotGeneral_apply,
    ← Equiv.sum_comp (contrEquiv1 dot_S262144x8x3_S262144x3x3_S262144x8x3_2_2_1_1_0_0 3 rfl rfl).symm, Fin.sum_univ_three]
  have key : ∀ c : Fin 3,
      A (dot_S262144x8x3_S262144x3x3_S262144x8x3_2_2_1_1_0_0.lhsIdx (ix3 n k d) ((contrEquiv1 dot_S262144x8x3_S262144x3x3_S262144x8x3_2_2_1_1_0_0 3 rfl rfl).symm c))
        * B (dot_S262144x8x3_S262144x3x3_S262144x8x3_2_2_1_1_0_0.rhsIdx (ix3 n k d) ((contrEquiv1 dot_S262144x8x3_S262144x3x3_S262144x8x3_2_2_1_1_0_0 3 rfl rfl).symm c))
      = A (ix3 n k c) * B (ix3 n d c) := by
    intro c
    have c3 := contrEquiv1_symm_val dot_S262144x8x3_S262144x3x3_S262144x8x3_2_2_1_1_0_0 3 rfl rfl c
    have l3 : dot_S262144x8x3_S262144x3x3_S262144x8x3_2_2_1_1_0_0.lhsIdx (ix3 n k d)
        ((contrEquiv1 dot_S262144x8x3_S262144x3x3_S262144x8x3_2_2_1_1_0_0 3 rfl rfl).symm c) = ix3 n k c := by
      funext ax; apply Fin.ext
      match ax with
      | ⟨0, _⟩ => simp [DotDims.lhsIdx, dot_S262144x8x3_S262144x3x3_S262144x8x3_2_2_1_1_0_0]; rfl
      | ⟨1, _⟩ => simp [DotDims.lhsIdx, dot_S262144x8x3_S262144x3x3_S262144x8x3_2_2_1_1_0_0]; rfl
      | ⟨2, _⟩ => simp [DotDims.lhsIdx, dot_S262144x8x3_S262144x3x3_S262144x8x3_2_2_1_1_0_0]; exact c3
    have r3 : dot_S262144x8x3_S262144x3x3_S262144x8x3_2_2_1_1_0_0.rhsIdx (ix3 n k d)
        ((contrEquiv1 dot_S262144x8x3_S262144x3x3_S262144x8x3_2_2_1_1_0_0 3 rfl rfl).symm c) = ix3 n d c := by
      funext ax; apply Fin.ext
      match ax with
      | ⟨0, _⟩ => simp [DotDims.rhsIdx, dot_S262144x8x3_S262144x3x3_S262144x8x3_2_2_1_1_0_0]; rfl
      | ⟨1, _⟩ => simp [DotDims.rhsIdx, dot_S262144x8x3_S262144x3x3_S262144x8x3_2_2_1_1_0_0]; rfl
      | ⟨2, _⟩ => simp [DotDims.rhsIdx, dot_S262144x8x3_S262144x3x3_S262144x8x3_2_2_1_1_0_0]; exact c3
    rw [l3, r3]
  rw [key 0, key 1, key 2]
end Dots

end Cert.ReferenceIdeal.RefRun

end
-- ==== Proof.RefCornersT.lean ====
/-
  The corners of the boxes of an N×9 array, as the operations compose them, and what that composition is at an index.

  The term: the three angle columns; for each, the nine columns of its rotation (cosine, sine, the sine negated, zeros and
  ones) laid side by side and reshaped to N×3×3; the product (Rz · Rx) · Ry; the sign table times the half edge lengths,
  both broadcast to N×8×3; that array times the transpose of the rotation; the centre added.

  Its value at row n, corner k, coordinate d is centre_d + ((s(k,0)·h₀)·R(d,0) + (s(k,1)·h₁)·R(d,1)) + (s(k,2)·h₂)·R(d,2),
  which is the box's corner centre_d + s(k,0)·R(d,0)·h₀ + s(k,1)·R(d,1)·h₁ + s(k,2)·R(d,2)·h₂ by commutativity and
  associativity of the product and associativity of the sum on the extended reals. A negated sine is 0 − sin, the zero
  word being 0. The sign table enters as a variable with the equation that says what it holds.
-/
import proofs.«131616_j75076028334308_2_alg».proof.Proof.Spec
import proofs.«131616_j75076028334308_2_alg».proof.Proof.RefLayout

noncomputable section

namespace Cert.ReferenceIdeal.RefRun

open Cert.ReferenceIdeal Cert.ReferenceIdeal.Gen Idealize.ShloMosaic Idealize.ShloMosaic.ValueIdx Cert.BBox

/-! ## The term -/

/-- Column `6 + o` of the array, as a vector over the rows. -/
def angT (a : FVec Ideal S262144x9 .f32) (o : Nat) (h : S262144x3.Slices ![0, o] S262144x1) : FVec Ideal S262144 .f32 :=
  shapeCast S262144 (extractStridedSlice S262144x1 ![0, o] (extractStridedSlice S262144x3 ![0, 6] a slices_S262144x9_S262144x3_0_6) h) shapeCasts_S262144x1_S262144
def colT (v : FVec Ideal S262144 .f32) : FVec Ideal S262144x1 .f32 := broadcastInDim S262144x1 ![0] bcast_S262144_S262144x1_0 v
def oneT : FVec Ideal S262144 .f32 := broadcastInDim S262144 ![] bcast_S_S262144 (constant S_ .f32 0x3F800000#32)
def zeroT : FVec Ideal S262144 .f32 := broadcastInDim S262144 ![] bcast_S_S262144 (constant S_ .f32 0x00000000#32)
def cat9T (u0 u1 u2 u3 u4 u5 u6 u7 u8 : FVec Ideal S262144x1 .f32) : FVec Ideal S262144x9 .f32 :=
  concatenate S262144x9 1 [⟨S262144x1, u0⟩, ⟨S262144x1, u1⟩, ⟨S262144x1, u2⟩, ⟨S262144x1, u3⟩, ⟨S262144x1, u4⟩, ⟨S262144x1, u5⟩, ⟨S262144x1, u6⟩, ⟨S262144x1, u7⟩, ⟨S262144x1, u8⟩]
    concatenates_S262144x1_S262144x1_S262144x1_S262144x1_S262144x1_S262144x1_S262144x1_S262144x1_S262144x1_S262144x9_d1
def matT (x : FVec Ideal S262144x9 .f32) : FVec Ideal S262144x3x3 .f32 := shapeCast S262144x3x3 x shapeCasts_S262144x9_S262144x3x3
def RzT (a : FVec Ideal S262144x9 .f32) : FVec Ideal S262144x3x3 .f32 :=
  matT (cat9T (colT (Host.cos (angT a 0 slices_S262144x3_S262144x1_0_0))) (colT (Host.negf (Host.sin (angT a 0 slices_S262144x3_S262144x1_0_0)))) (colT zeroT)
    (colT (Host.sin (angT a 0 slices_S262144x3_S262144x1_0_0))) (colT (Host.cos (angT a 0 slices_S262144x3_S262144x1_0_0))) (colT zeroT)
    (colT zeroT) (colT zeroT) (colT oneT))
def RxT (a : FVec Ideal S262144x9 .f32) : FVec Ideal S262144x3x3 .f32 :=
  matT (cat9T (colT oneT) (colT zeroT) (colT zeroT)
    (colT zeroT) (colT (Host.cos (angT a 1 slices_S262144x3_S262144x1_0_1))) (colT (Host.negf (Host.sin (angT a 1 slices_S262144x3_S262144x1_0_1))))
    (colT zeroT) (colT (Host.sin (angT a 1 slices_S262144x3_S262144x1_0_1))) (colT (Host.cos (angT a 1 slices_S262144x3_S262144x1_0_1))))
def RyT (a : FVec Ideal S262144x9 .f32) : FVec Ideal S262144x3x3 .f32 :=
  matT (cat9T (colT (Host.cos (angT a 2 slices_S262144x3_S262144x1_0_2))) (colT zeroT) (colT (Host.sin (angT a 2 slices_S262144x3_S262144x1_0_2)))
    (colT zeroT) (colT oneT) (colT zeroT)
    (colT (Host.negf (Host.sin (angT a 2 slices_S262144x3_S262144x1_0_2)))) (colT zeroT) (colT (Host.cos (angT a 2 slices_S262144x3_S262144x1_0_2))))
def rotT (a : FVec Ideal S262144x9 .f32) : FVec Ideal S262144x3x3 .f32 :=
  Host.dotGeneral dot_S262144x3x3_S262144x3x3_S262144x3x3_2_1_1_2_0_0 none
    (Host.dotGeneral dot_S262144x3x3_S262144x3x3_S262144x3x3_2_1_1_2_0_0 none (RzT a) (RxT a)) (RyT a)
def rowbT (x : FVec Ideal S262144x3 .f32) : FVec Ideal S262144x8x3 .f32 :=
  broadcastInDim S262144x8x3 ![0, 1, 2] bcast_S262144x1x3_S262144x8x3_0_1_2 (broadcastInDim S262144x1x3 ![0, 2] bcast_S262144x3_S262144x1x3_0_2 x)
def sgnbT (T : FVec Ideal S8x3 .f32) : FVec Ideal S262144x8x3 .f32 :=
  broadcastInDim S262144x8x3 ![0, 1, 2] bcast_S1x8x3_S262144x8x3_0_1_2 (broadcastInDim S1x8x3 ![1, 2] bcast_S8x3_S1x8x3_1_2 T)
def halfT (a : FVec Ideal S262144x9 .f32) : FVec Ideal S262144x3 .f32 :=
  mulf (extractStridedSlice S262144x3 ![0, 3] a slices_S262144x9_S262144x3_0_3) (broadcastInDim S262144x3 ![] bcast_S_S262144x3 (constant S_ .f32 0x3F000000#32))
/-- The corners of the boxes of `a` over the sign table `T`, as the operations compose them. -/
def cornersT (T : FVec Ideal S8x3 .f32) (a : FVec Ideal S262144x9 .f32) : FVec Ideal S262144x8x3 .f32 :=
  addf (rowbT (extractStridedSlice S262144x3 ![0, 0] a slices_S262144x9_S262144x3_0_0))
    (Host.dotGeneral dot_S262144x8x3_S262144x3x3_S262144x8x3_2_2_1_1_0_0 none (mulf (sgnbT T) (rowbT (halfT a))) (rotT a))

/-! ## The term at an index -/

theorem angT_apply (a : FVec Ideal S262144x9 .f32) (o : Nat) (ho : o < 3) (h : S262144x3.Slices ![0, o] S262144x1) (n : Fin 262144) :
    angT a o h (ix1 n) = a (ix2 n (⟨6 + o, by omega⟩ : Fin 9)) := by
  unfold angT
  refine (col_apply _ _ n).trans ((slice1_apply o ho _ h n 0).trans ?_)
  exact slice3_apply 6 (by omega) a _ n ⟨o, ho⟩

theorem col_cos (x : FVec Ideal S262144 .f32) (n : Fin 262144) (z : Fin 1) : colT (Host.cos x) (ix2 n z) = Ideal.cos (x (ix1 n)) :=
  tocol_apply _ _ n z
theorem col_sin (x : FVec Ideal S262144 .f32) (n : Fin 262144) (z : Fin 1) : colT (Host.sin x) (ix2 n z) = Ideal.sin (x (ix1 n)) :=
  tocol_apply _ _ n z
theorem col_nsin (x : FVec Ideal S262144 .f32) (n : Fin 262144) (z : Fin 1) :
    colT (Host.negf (Host.sin x)) (ix2 n z) = w0 - Ideal.sin (x (ix1 n)) := by
  refine (tocol_apply _ _ n z).trans ?_
  show -(Ideal.sin (x (ix1 n))) = _
  rw [w0, Ideal.ofBits_zero_f32, zero_sub]
theorem col_zero (n : Fin 262144) (z : Fin 1) : colT zeroT (ix2 n z) = w0 :=
  (tocol_apply _ _ n z).trans (splat1_apply _ _ n)
theorem col_one (n : Fin 262144) (z : Fin 1) : colT oneT (ix2 n z) = w1 :=
  (tocol_apply _ _ n z).trans (splat1_apply _ _ n)

theorem matcat_apply (u0 u1 u2 u3 u4 u5 u6 u7 u8 : FVec Ideal S262144x1 .f32) (n : Fin 262144) (i k : Fin 3) :
    matT (cat9T u0 u1 u2 u3 u4 u5 u6 u7 u8) (ix3 n i k)
      = (![u0, u1, u2, u3, u4, u5, u6, u7, u8] (⟨3 * i.val + k.val, by have := i.isLt; have := k.isLt; omega⟩ : Fin 9)) (ix2 n (0 : Fin 1)) := by
  unfold matT cat9T
  exact (mat_apply _ _ n i k).trans (cat9_apply' _ _ _ _ _ _ _ _ _ _ n _)

theorem RzT_apply (a : FVec Ideal S262144x9 .f32) (n : Fin 262144) (i k : Fin 3) :
    RzT a (ix3 n i k) = Rz (a (ix2 n (6 : Fin 9))) i k := by
  unfold RzT
  rw [matcat_apply]
  fin_cases i <;> fin_cases k
  all_goals first
    | exact (col_cos _ n 0).trans (congrArg Ideal.cos (angT_apply a 0 (by omega) _ n))
    | exact (col_sin _ n 0).trans (congrArg Ideal.sin (angT_apply a 0 (by omega) _ n))
    | exact (col_nsin _ n 0).trans (congrArg (fun t => w0 - Ideal.sin t) (angT_apply a 0 (by omega) _ n))
    | exact col_zero n 0
    | exact col_one n 0
theorem RxT_apply (a : FVec Ideal S262144x9 .f32) (n : Fin 262144) (i k : Fin 3) :
    RxT a (ix3 n i k) = Rx (a (ix2 n (7 : Fin 9))) i k := by
  unfold RxT
  rw [matcat_apply]
  fin_cases i <;> fin_cases k
  all_goals first
    | exact (col_cos _ n 0).trans (congrArg Ideal.cos (angT_apply a 1 (by omega) _ n))
    | exact (col_sin _ n 0).trans (congrArg Ideal.sin (angT_apply a 1 (by omega) _ n))
    | exact (col_nsin _ n 0).trans (congrArg (fun t => w0 - Ideal.sin t) (angT_apply a 1 (by omega) _ n))
    | exact col_zero n 0
    | exact col_one n 0
theorem RyT_apply (a : FVec Ideal S262144x9 .f32) (n : Fin 262144) (i k : Fin 3) :
    RyT a (ix3 n i k) = Ry (a (ix2 n (8 : Fin 9))) i k := by
  unfold RyT
  rw [matcat_apply]
  fin_cases i <;> fin_cases k
  all_goals first
    | exact (col_cos _ n 0).trans (congrArg Ideal.cos (angT_apply a 2 (by omega) _ n))
    | exact (col_sin _ n 0).trans (congrArg Ideal.sin (angT_apply a 2 (by omega) _ n))
    | exact (col_nsin _ n 0).trans (congrArg (fun t => w0 - Ideal.sin t) (angT_apply a 2 (by omega) _ n))
    | exact col_zero n 0
    | exact col_one n 0

theorem rotT_apply (a : FVec Ideal S262144x9 .f32) (n : Fin 262144) (i j : Fin 3) :
    rotT a (ix3 n i j) = rot (rowsOf a n) i j := by
  unfold rotT
  rw [dot1_apply]
  simp only [dot1_apply, RzT_apply, RxT_apply, RyT_apply]
  rfl

theorem centerT_apply (a : FVec Ideal S262144x9 .f32) (n : Fin 262144) (k : Fin 8) (d : Fin 3) :
    rowbT (extractStridedSlice S262144x3 ![0, 0] a slices_S262144x9_S262144x3_0_0) (ix3 n k d) = center (rowsOf a n) d := by
  unfold rowbT
  refine (rowb_apply _ _ _ n k d).trans ((slice3_apply 0 (by omega) a _ n d).trans ?_)
  fin_cases d <;> rfl
theorem halfT_apply (a : FVec Ideal S262144x9 .f32) (n : Fin 262144) (k : Fin 8) (c : Fin 3) :
    rowbT (halfT a) (ix3 n k c) = half (rowsOf a n) c := by
  unfold rowbT halfT
  refine (rowb_apply _ _ _ n k c).trans ?_
  rw [mulf_apply, slice3_apply 3 (by omega) a _ n c]
  have hb : broadcastInDim S262144x3 ![] bcast_S_S262144x3 (constant (F := Ideal) S_ .f32 0x3F000000#32) (ix2 n c) = whalf :=
    broadcastInDim_apply _ bcast_S_S262144x3 _ _ ix0 fun a => a.elim0
  rw [hb]
  fin_cases c <;> rfl
theorem sgnT_apply (T : FVec Ideal S8x3 .f32) (hT : T = fun i => FloatOps.ofBits (F := Ideal) .f32 (lit0 (S8x3.rowMajor i)))
    (n : Fin 262144) (k : Fin 8) (c : Fin 3) : sgnbT T (ix3 n k c) = sgn k c := by
  unfold sgnbT
  refine (sgnb_apply T _ _ n k c).trans ?_
  subst hT
  fin_cases k <;> fin_cases c <;> rfl

/-- The composed term read at a row, a corner and a coordinate is the corner of that row's box: the centre plus the
    signed half edges through the rotation, regrouped by commutativity and associativity alone. -/
theorem cornersT_apply (T : FVec Ideal S8x3 .f32) (hT : T = fun i => FloatOps.ofBits (F := Ideal) .f32 (lit0 (S8x3.rowMajor i)))
    (a : FVec Ideal S262144x9 .f32) (n : Fin 262144) (k : Fin 8) (d : Fin 3) :
    cornersT T a (ix3 n k d) = corner (rowsOf a n) k d := by
  unfold cornersT
  rw [addf_apply, centerT_apply, dot2_apply]
  simp only [mulf_apply, sgnT_apply T hT, halfT_apply, rotT_apply]
  unfold corner
  rw [mul_right_comm (sgn k 0), mul_right_comm (sgn k 1), mul_right_comm (sgn k 2), ← add_assoc, ← add_assoc]

end Cert.ReferenceIdeal.RefRun

end
-- ==== Proof.RefCornersNary.lean ====
/-
  An operation over a literal family of nine operands: its result with each operand's contents at its own reference,
  so that the operands' own results can be read in turn.
-/
import proofs.«131616_j75076028334308_2_alg».proof.Proof.RefOps

noncomputable section

namespace Cert.ReferenceIdeal.RefRun

open Cert.ReferenceIdeal Idealize.ShloMosaic Idealize.SL.Sem StableHlo

variable {Val : EltTy → Type} {x0 x1 x2 x3 x4 x5 x6 x7 x8 y : Ref sig .tc}
theorem nary9_result
    (f : ((k : Fin 9) → ((![x0, x1, x2, x3, x4, x5, x6, x7, x8] : Fin 9 → Ref sig .tc) k).ty.Contents Val) → y.ty.Contents Val) (hxs hy)
    (F : Valuation τ sig Val) :
    (nary (τ := τ) ![x0, x1, x2, x3, x4, x5, x6, x7, x8] y f hxs hy).result F (Proc.devRef .tc y)
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5))
          (Fin.cons (F (Proc.devRef .tc x6)) (Fin.cons (F (Proc.devRef .tc x7)) (Fin.cons (F (Proc.devRef .tc x8)) (fun i => i.elim0)))))))))) := by
  rw [nary_result]; congr 1; funext k; fin_cases k <;> rfl
theorem nary9_result'
    (f : ((k : Fin 9) → ((![x0, x1, x2, x3, x4, x5, x6, x7, x8] : Fin 9 → Ref sig .tc) k).ty.Contents Val) → y.ty.Contents Val) (hxs hy)
    (F : Valuation τ sig Val) :
    (nary (τ := τ) ![x0, x1, x2, x3, x4, x5, x6, x7, x8] y f hxs hy).result F (no_index (Proc.devRef .tc y))
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5))
          (Fin.cons (F (Proc.devRef .tc x6)) (Fin.cons (F (Proc.devRef .tc x7)) (Fin.cons (F (Proc.devRef .tc x8)) (fun i => i.elim0)))))))))) :=
  nary9_result f hxs hy F

end Cert.ReferenceIdeal.RefRun

end
-- ==== Proof.RefCornersA.lean ====
/-
  The source boxes' corners: what the first stretch of operations leaves in its last buffer, read at a row, a corner
  and a coordinate, is that corner of the row's box; the sign table is left in its buffer; the second argument is not
  written.
-/
import proofs.«131616_j75076028334308_2_alg».proof.Proof.Spec
import proofs.«131616_j75076028334308_2_alg».proof.Proof.RefOps
import proofs.«131616_j75076028334308_2_alg».proof.Proof.RefCornersT
import proofs.«131616_j75076028334308_2_alg».proof.Proof.RefCornersNary

noncomputable section

namespace Cert.ReferenceIdeal.RefRun

open Cert.ReferenceIdeal Cert.ReferenceIdeal.Gen Idealize.ShloMosaic Idealize.ShloMosaic.TcCoe Idealize.SL.Sem StableHlo ValueIdx

/-- The last buffer of the stretch holds the composed term over the literal sign table and the first argument. -/
theorem afterA_v69 (V : Valuation τ sig (Elt Ideal)) :
    StableHlo.after (opsA (F := Ideal)) V (Proc.devRef .tc main_v69)
      = cornersT (fun i => FloatOps.ofBits (F := Ideal) .f32 (lit0 (S8x3.rowMajor i))) (V (Proc.devRef .tc main_arg0)) := by
  simp (disch := decide) only [after_cons, after_nil,
    nullary_result', unary_result', binary_result', reshape_result', nary9_result',
    nullary_result_ne', unary_result_ne', binary_result_ne', reshape_result_ne', nary_result_ne']
  rfl

theorem cornersA (V : Valuation τ sig (Elt Ideal)) (n : Fin 262144) (k : Fin 8) (d : Fin 3) :
    StableHlo.after (opsA (F := Ideal)) V (Proc.devRef .tc main_v69) (ValueIdx.ix3 n k d)
      = Cert.BBox.corner (Cert.BBox.rowsOf (V (Proc.devRef .tc main_arg0)) n) k d := by
  rw [afterA_v69]
  exact cornersT_apply _ rfl _ n k d

theorem keptA_cst (V : Valuation τ sig (Elt Ideal)) :
    StableHlo.after (opsA (F := Ideal)) V (Proc.devRef .tc main_cst) = fun i => FloatOps.ofBits (F := Ideal) .f32 (lit0 (S8x3.rowMajor i)) := by
  simp (disch := decide) only [after_cons, after_nil,
    nullary_result', unary_result', binary_result', reshape_result', nary9_result',
    nullary_result_ne', unary_result_ne', binary_result_ne', reshape_result_ne', nary_result_ne']
  rfl

theorem keptA_arg1 (V : Valuation τ sig (Elt Ideal)) :
    StableHlo.after (opsA (F := Ideal)) V (Proc.devRef .tc main_arg1) = V (Proc.devRef .tc main_arg1) := by
  simp (disch := decide) only [after_cons, after_nil,
    nullary_result', unary_result', binary_result', reshape_result', nary9_result',
    nullary_result_ne', unary_result_ne', binary_result_ne', reshape_result_ne', nary_result_ne']

end Cert.ReferenceIdeal.RefRun

end
-- ==== Proof.RefCornersB.lean ====
/-
  The target boxes' corners: the second stretch of operations is the first with the second argument in place of the
  first and the sign table read from the buffer that holds it; what it leaves in its last buffer, read at a row, a
  corner and a coordinate, is that corner of the row's box, and the source corners' buffer is not written.
-/
import proofs.«131616_j75076028334308_2_alg».proof.Proof.Spec
import proofs.«131616_j75076028334308_2_alg».proof.Proof.RefOps
import proofs.«131616_j75076028334308_2_alg».proof.Proof.RefCornersT
import proofs.«131616_j75076028334308_2_alg».proof.Proof.RefCornersNary

noncomputable section

namespace Cert.ReferenceIdeal.RefRun

open Cert.ReferenceIdeal Cert.ReferenceIdeal.Gen Idealize.ShloMosaic Idealize.ShloMosaic.TcCoe Idealize.SL.Sem StableHlo ValueIdx

/-- The last buffer of the stretch holds the composed term over the table's buffer and the second argument. -/
theorem afterB_v139 (W : Valuation τ sig (Elt Ideal)) :
    StableHlo.after (opsB (F := Ideal)) W (Proc.devRef .tc main_v139)
      = cornersT (W (Proc.devRef .tc main_cst)) (W (Proc.devRef .tc main_arg1)) := by
  simp (disch := decide) only [after_cons, after_nil,
    nullary_result', unary_result', binary_result', reshape_result', nary9_result',
    nullary_result_ne', unary_result_ne', binary_result_ne', reshape_result_ne', nary_result_ne']
  rfl

theorem cornersB (W : Valuation τ sig (Elt Ideal))
    (hcst : W (Proc.devRef .tc main_cst) = fun i => FloatOps.ofBits (F := Ideal) .f32 (lit0 (S8x3.rowMajor i)))
    (n : Fin 262144) (k : Fin 8) (d : Fin 3) :
    StableHlo.after (opsB (F := Ideal)) W (Proc.devRef .tc main_v139) (ValueIdx.ix3 n k d)
      = Cert.BBox.corner (Cert.BBox.rowsOf (W (Proc.devRef .tc main_arg1)) n) k d := by
  rw [afterB_v139]
  exact cornersT_apply _ hcst _ n k d

theorem keptB_v69 (W : Valuation τ sig (Elt Ideal)) :
    StableHlo.after (opsB (F := Ideal)) W (Proc.devRef .tc main_v69) = W (Proc.devRef .tc main_v69) := by
  simp (disch := decide) only [after_cons, after_nil,
    nullary_result', unary_result', binary_result', reshape_result', nary9_result',
    nullary_result_ne', unary_result_ne', binary_result_ne', reshape_result_ne', nary_result_ne']

end Cert.ReferenceIdeal.RefRun

end
-- ==== Proof.RefTail.lean ====
/-
  The reference's last stretch read as a value: from the two corner arrays, the broadcast to every pair of a source and
  a target corner, the squared coordinate differences summed over the three coordinates, the minimum over the target
  corners, the sum over source corners and rows, the quotient by the word 2097152.0 and the product with the word 1.0.

  Each reduction is opened at an index: a sum over one axis as the zero word plus the three terms (the zero word is 0),
  a minimum over one axis from the word +inf as the eight entries' minima taken from the left (the word is ⊤, and a
  minimum over a finite set is the same in any order), a sum over every axis as the zero word plus the double sum over
  rows and corners. The broadcasts read the operand at the coordinates they keep. The word 1.0 is 1.
-/
import proofs.«131616_j75076028334308_2_alg».proof.Proof.Spec
import proofs.«131616_j75076028334308_2_alg».proof.Proof.RefOps
import Idealize.ShloMosaic.Lib.IdealHost
import Idealize.ShloMosaic.Lib.Pipeline.Value

noncomputable section

namespace Cert.ReferenceIdeal.RefRun

open Cert.ReferenceIdeal Cert.ReferenceIdeal.Gen Idealize.ShloMosaic Idealize.ShloMosaic.TcCoe Idealize.SL.Sem
open Idealize.ShloMosaic.ValueIdx
open scoped BigOperators

/-- The least of eight extended reals and ⊤, folded over the eight positions in any order, is the minima taken from
    the left. -/
theorem fold_min_fin8 (f : Fin 8 → EReal) :
    (Finset.univ : Finset (Fin 8)).fold min ⊤ f
      = min (min (min (min (min (min (min (f 0) (f 1)) (f 2)) (f 3)) (f 4)) (f 5)) (f 6)) (f 7) := by
  have e : (Finset.univ : Finset (Fin 8)).fold min ⊤ f = Finset.univ.inf f := rfl
  rw [e]
  apply le_antisymm
  · simp only [le_min_iff]
    exact ⟨⟨⟨⟨⟨⟨⟨Finset.inf_le (Finset.mem_univ _), Finset.inf_le (Finset.mem_univ _)⟩, Finset.inf_le (Finset.mem_univ _)⟩,
      Finset.inf_le (Finset.mem_univ _)⟩, Finset.inf_le (Finset.mem_univ _)⟩, Finset.inf_le (Finset.mem_univ _)⟩,
      Finset.inf_le (Finset.mem_univ _)⟩, Finset.inf_le (Finset.mem_univ _)⟩
  · refine Finset.le_inf fun k _ => ?_
    fin_cases k <;> simp [min_le_iff]

/-- The word 0x7F800000 is the extended real ⊤. -/
theorem ofBits_inf_f32 : Ideal.ofBits .f32 0x7F800000#32 = (⊤ : EReal) := by simp [Ideal.ofBits, Ideal.ieee]

/-- The host's minimum over the target-corner axis from +inf: the eight entries' minima taken from the left. -/
theorem best_apply (D : FVec Ideal S262144x8x8 .f32) (n : Fin 262144) (i : Fin 8) :
    Host.reduce FloatOps.minimumf D (constant (F := Ideal) S_ .f32 0x7F800000#32) reducesTo_S262144x8x8_S262144x8_d2 h_S_ (ix2 n i)
      = min (min (min (min (min (min (min (D (ix3 n i (0 : Fin 8))) (D (ix3 n i (1 : Fin 8)))) (D (ix3 n i (2 : Fin 8))))
          (D (ix3 n i (3 : Fin 8)))) (D (ix3 n i (4 : Fin 8)))) (D (ix3 n i (5 : Fin 8)))) (D (ix3 n i (6 : Fin 8)))) (D (ix3 n i (7 : Fin 8))) := by
  have h : S262144x8x8.Reduces [2] S262144x8 := by decide
  have hl : ∀ k : Fin 8, h.lift (ix2 n i) k = ix3 n i k := fun k => by
    funext c; fin_cases c <;> rfl
  refine (Host.reduce_eq_fold_single FloatOps.minimumf D _ _ h h_S_ (ix2 n i)).trans ?_
  refine Eq.trans ?_ ((fold_min_fin8 fun k => D (ix3 n i k)))
  show Finset.fold min (Ideal.ofBits .f32 0x7F800000#32) (fun k : Fin 8 => D (h.lift (ix2 n i) k)) Finset.univ = _
  rw [ofBits_inf_f32]
  exact congrArg (fun g => Finset.fold min (⊤ : EReal) g Finset.univ) (funext fun k => congrArg D (hl k))

/-- The host's sum over both axes of an N×8 array from the zero word, into a scalar: the rows' eight entries summed
    from the left, summed over the rows. -/
theorem total_apply (M : FVec Ideal S262144x8 .f32) (j : S_.Idx) :
    Host.reduceAdd M (constant (F := Ideal) S_ .f32 0x00000000#32) reducesTo_S262144x8_S_d0_1 h_S_ j
      = ∑ n : Fin 262144, (M (ix2 n (0 : Fin 8)) + M (ix2 n (1 : Fin 8)) + M (ix2 n (2 : Fin 8)) + M (ix2 n (3 : Fin 8))
          + M (ix2 n (4 : Fin 8)) + M (ix2 n (5 : Fin 8)) + M (ix2 n (6 : Fin 8)) + M (ix2 n (7 : Fin 8))) := by
  refine (hostReduceAdd_apply _ _ _ _ _).trans ?_
  refine (Ideal.hostReduceAdd_total _ (fun b => b.elim0) _ _ _).trans ?_
  show Ideal.ofBits .f32 0x00000000#32 + _ = _
  rw [Ideal.ofBits_zero_f32, zero_add]
  refine (sum_idx2 (n0 := 262144) (n1 := 8) M).trans ?_
  exact Finset.sum_congr rfl fun n _ => Fin.sum_univ_eight _

/-- The source corners broadcast along the target-corner axis: entry (n, i, j, d) is corner i, coordinate d. -/
theorem bcastSrc_apply (A : (⟨S262144x8x3, .f32⟩ : BufTy).Contents (Elt Ideal)) (n : Fin 262144) (i j : Fin 8) (d : Fin 3) :
    (broadcastInDim S262144x8x8x3 ![0, 1, 2, 3] bcast_S262144x8x1x3_S262144x8x8x3_0_1_2_3 : (⟨S262144x8x1x3, .f32⟩ : BufTy).Contents (Elt Ideal) → (⟨S262144x8x8x3, .f32⟩ : BufTy).Contents (Elt Ideal))
      ((broadcastInDim S262144x8x1x3 ![0, 1, 3] bcast_S262144x8x3_S262144x8x1x3_0_1_3 : (⟨S262144x8x3, .f32⟩ : BufTy).Contents (Elt Ideal) → (⟨S262144x8x1x3, .f32⟩ : BufTy).Contents (Elt Ideal)) A)
      (ix4 n i j d) = A (ix3 n i d) :=
  (broadcastInDim_apply _ _ _ (ix4 n i j d) (ix4 n i (0 : Fin 1) d) (by intro a; fin_cases a <;> rfl)).trans
    (broadcastInDim_apply _ _ A (ix4 n i (0 : Fin 1) d) (ix3 n i d) (by intro a; fin_cases a <;> rfl))

/-- The target corners broadcast along the source-corner axis: entry (n, i, j, d) is corner j, coordinate d. -/
theorem bcastTgt_apply (B : (⟨S262144x8x3, .f32⟩ : BufTy).Contents (Elt Ideal)) (n : Fin 262144) (i j : Fin 8) (d : Fin 3) :
    (broadcastInDim S262144x8x8x3 ![0, 1, 2, 3] bcast_S262144x1x8x3_S262144x8x8x3_0_1_2_3 : (⟨S262144x1x8x3, .f32⟩ : BufTy).Contents (Elt Ideal) → (⟨S262144x8x8x3, .f32⟩ : BufTy).Contents (Elt Ideal))
      ((broadcastInDim S262144x1x8x3 ![0, 2, 3] bcast_S262144x8x3_S262144x1x8x3_0_2_3 : (⟨S262144x8x3, .f32⟩ : BufTy).Contents (Elt Ideal) → (⟨S262144x1x8x3, .f32⟩ : BufTy).Contents (Elt Ideal)) B)
      (ix4 n i j d) = B (ix3 n j d) :=
  (broadcastInDim_apply _ _ _ (ix4 n i j d) (ix4 n (0 : Fin 1) j d) (by intro a; fin_cases a <;> rfl)).trans
    (broadcastInDim_apply _ _ B (ix4 n (0 : Fin 1) j d) (ix3 n j d) (by intro a; fin_cases a <;> rfl))

/-- The squared corner distance: the host's sum over the coordinate axis from the zero word. -/
theorem dist_apply (X Y : FVec Ideal S262144x8x8x3 .f32) (n : Fin 262144) (i j : Fin 8) :
    Host.reduceAdd (mulf (subf X Y) (subf X Y)) (constant (F := Ideal) S_ .f32 0x00000000#32) reducesTo_S262144x8x8x3_S262144x8x8_d3 h_S_ (ix3 n i j)
      = (X (ix4 n i j (0 : Fin 3)) - Y (ix4 n i j (0 : Fin 3))) * (X (ix4 n i j (0 : Fin 3)) - Y (ix4 n i j (0 : Fin 3)))
        + (X (ix4 n i j (1 : Fin 3)) - Y (ix4 n i j (1 : Fin 3))) * (X (ix4 n i j (1 : Fin 3)) - Y (ix4 n i j (1 : Fin 3)))
        + (X (ix4 n i j (2 : Fin 3)) - Y (ix4 n i j (2 : Fin 3))) * (X (ix4 n i j (2 : Fin 3)) - Y (ix4 n i j (2 : Fin 3))) := by
  have h : S262144x8x8x3.Reduces [3] S262144x8x8 := by decide
  have hl : ∀ k : Fin 3, h.lift (ix3 n i j) k = ix4 n i j k := fun k => by
    funext c; fin_cases c <;> rfl
  refine (hostReduceAdd_apply _ _ _ _ _).trans ?_
  refine (Ideal.hostReduceAdd_single _ h _ _ _).trans ?_
  refine (congrArg _ (Fin.sum_univ_three _)).trans ?_
  rw [hl 0, hl 1, hl 2]
  show Ideal.ofBits .f32 0x00000000#32 + _ = _
  rw [Ideal.ofBits_zero_f32, zero_add]
  rfl

/-- The reference's last sixteen operations, from any contents whose source- and target-corner arrays are the tables
    `P` and `Q`: the result is the rows' summed least squared corner distances, divided by the word 2097152.0. -/
theorem tailC (W : Valuation τ sig (Elt Ideal)) (P Q : Fin 262144 → Fin 8 → Fin 3 → EReal)
    (h69 : ∀ n k d, W (Proc.devRef .tc main_v69) (ValueIdx.ix3 n k d) = P n k d)
    (h139 : ∀ n k d, W (Proc.devRef .tc main_v139) (ValueIdx.ix3 n k d) = Q n k d) :
    StableHlo.after (opsC (F := Ideal)) W (Proc.devRef .tc main_v150)
      = fun _ => Ideal.div (∑ n : Fin 262144, Cert.BBox.rowC (P n) (Q n)) Cert.BBox.wN := by
  after_results
  generalize W (Proc.devRef .tc main_v69) = A at h69 ⊢
  generalize W (Proc.devRef .tc main_v139) = B at h139 ⊢
  funext j
  refine (mulf_apply _ _ j).trans ?_
  rw [constant_apply, Ideal.ofBits_one_f32, mul_one]
  refine (hostDivf_apply _ _ j).trans ?_
  refine congrArg (fun t => Ideal.div t Cert.BBox.wN) ?_
  refine (total_apply _ j).trans ?_
  refine Finset.sum_congr rfl fun n _ => ?_
  simp only [best_apply, dist_apply, bcastSrc_apply A, bcastTgt_apply B, h69, h139]
  rfl

end Cert.ReferenceIdeal.RefRun

end
-- ==== Proof.RefRun.lean ====
/-
  The reference's run: on every device @main ends with the result buffer at the loss of the two arguments' rows
  (Spec's `Cert.BBox.loss`) and the arguments unchanged. The run of a list of host operations leaves every buffer at
  the fold of the operations' results over the launch contents; the fold over the 171 operations is the third stretch's
  over the second's over the first's, and each stretch's value is read off by its own theorem: the source boxes' corners,
  the target boxes' corners, and the quotient of the summed row losses.
-/
import proofs.«131616_j75076028334308_2_alg».proof.Proof.Spec
import proofs.«131616_j75076028334308_2_alg».proof.Proof.RefOps
import proofs.«131616_j75076028334308_2_alg».proof.Proof.RefRunBase
import proofs.«131616_j75076028334308_2_alg».proof.Proof.RefCornersA
import proofs.«131616_j75076028334308_2_alg».proof.Proof.RefCornersB
import proofs.«131616_j75076028334308_2_alg».proof.Proof.RefTail
import Idealize.ShloMosaic.Lib.StableHlo.Run

noncomputable section

open scoped BigOperators

namespace Cert.ReferenceIdeal.RefRun

open Cert.ReferenceIdeal Cert.ReferenceIdeal.Gen Idealize.ShloMosaic Idealize.ShloMosaic.TcCoe Idealize.SL.Sem Idealize.ShloMosaic.StableHlo
/-- The result: the loss of the two arguments' rows. The first stretch leaves the source boxes' corners, which the second
    keeps while it leaves the target boxes' corners from the sign table and the second argument, both kept by the first;
    the third turns the two corner arrays into the quotient of the summed row losses. -/
theorem Main.value (V : Valuation τ sig (Elt Ideal)) :
    after (ops (F := Ideal)) V (Proc.devRef .tc main_v150)
      = fun _ => Cert.BBox.loss (Cert.BBox.rowsOf (V (Proc.devRef .tc main_arg0))) (Cert.BBox.rowsOf (V (Proc.devRef .tc main_arg1))) := by
  refine (congrFun (Main.after_ops V) _).trans ?_
  refine (tailC (after opsB (after opsA V))
    (fun n => Cert.BBox.corner (Cert.BBox.rowsOf (V (Proc.devRef .tc main_arg0)) n))
    (fun n => Cert.BBox.corner (Cert.BBox.rowsOf (V (Proc.devRef .tc main_arg1)) n)) ?_ ?_).trans ?_
  · intro n k d
    rw [keptB_v69]
    exact cornersA V n k d
  · intro n k d
    refine (cornersB (after opsA V) (keptA_cst V) n k d).trans ?_
    rw [keptA_arg1]
  · rfl

/-- On every device, from any memory with zero counters: every weakly fair execution of @main terminates with the
    result buffer at the loss of the two arguments' rows and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v150)
          = (fun _ => Cert.BBox.loss (Cert.BBox.rowsOf (m ((c.tc : Thread nD τ).loc main_arg0))) (Cert.BBox.rowsOf (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run (defs (F := Ideal)) _ _).mono (fun _ h c => ⟨(h c main_v150).trans (Main.value _),
      (h c main_arg0).trans (Main.after_arg0 _),
      (h c main_arg1).trans (Main.after_arg1 _)⟩)
    (run_seq scopedRefs_eq scopedSems_eq (defs (F := Ideal)) (main (F := Ideal)) (fun _ => ops (F := Ideal)) main_eq (fun _ => ops_sub) m ρ
      (fun _ => Main.ops_fresh))

end Cert.ReferenceIdeal.RefRun

end
-- ==== Proof.lean ====
/-
  The certificate of the bounding-box corner loss kernel against its jnp reference, over the extended reals.

  Both programs compute, for 262144 pairs of boxes (a row of nine numbers each: centre, edge lengths, ZXY Euler angles),
  the eight corners of either box, the 8×8 squared corner distances, for every source corner the least distance to a
  target corner, and the sum of those over corners and rows divided by 2²¹. The kernel works on 64 blocks of 4096 rows,
  one box per lane, and accumulates each core's 32 block totals in an output block; the reference builds the rotation
  matrices by concatenation and batched products and reduces whole arrays. Written as formulas the two differ only in
  the order of factors and the grouping of sums, which the extended reals do not see (Spec.lean states the one
  function; KResult.lean reads the kernel program's result, RefRun.lean the reference's). The precondition is not used.
  The three frames: the two kernel programs' are the generated frame certificates, the reference's is its run with the
  result dropped. The idealization rewrote nothing.
-/
import proofs.«131616_j75076028334308_2_alg».proof.Defs
import proofs.«131616_j75076028334308_2_alg».proof.Proof.Gen.Kernel
import proofs.«131616_j75076028334308_2_alg».proof.Proof.Gen.Kernel.Frame
import proofs.«131616_j75076028334308_2_alg».proof.Proof.Gen.KernelIdeal
import proofs.«131616_j75076028334308_2_alg».proof.Proof.Gen.KernelIdeal.Frame
import proofs.«131616_j75076028334308_2_alg».proof.Proof.Gen.ReferenceIdeal
import proofs.«131616_j75076028334308_2_alg».proof.Proof.Gen.Pre_finite_inputs
import proofs.«131616_j75076028334308_2_alg».proof.Proof.KResult
import proofs.«131616_j75076028334308_2_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefRun.run m ρ)

theorem preserves : Cert.preserves_Kernel_KernelIdeal := trivial

/-- Both programs end with the loss of the (agreeing) argument arrays. -/
theorem algebraic : Cert.algebraic_KernelIdeal_ReferenceIdeal := by
  intro m ρ m' ρ' _ hagree
  refine ⟨_, Cert.KernelIdeal.KVal.run m ρ, ?_⟩
  refine (θ_run Cert.ReferenceIdeal.defs _ _).mono (fun _ h c => ⟨(h c).1.trans ?_, (h c).2⟩)
    (Cert.ReferenceIdeal.RefRun.run m' ρ')
  rw [(hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
